-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2048 : Shape := ⟨2, ![4096, 2048]⟩
abbrev S1x2048x2048 : Shape := ⟨3, ![1, 2048, 2048]⟩
abbrev S1 : Shape := ⟨1, ![1]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S1x2048x2048 : S_.BroadcastsInDim S1x2048x2048 (![] : Fin 0 → Fin S1x2048x2048.rank)
  reducesTo_S1x2048x2048_S_d0_1_2 : S1x2048x2048.ReducesTo [0, 1, 2] S_
  bcast_S_S1 : S_.BroadcastsInDim S1 (![] : Fin 0 → Fin S1.rank)
  reducesTo_S1_S_d0 : S1.ReducesTo [0] S_

variable [Facts]

def fn {F : FTy → Type} [FloatOps F] (main_arg0 : FVec F S4096x2048 .f32) (main_arg1 : FVec F S1x2048x2048 .f32) (main_arg2 : FVec F S1 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S1x2048x2048 .f32 := Host.absf main_arg1
  let main_cst_0 : FVec F S_ .f32 := constant S_ .f32 0x7F800000#32
  let main_v5 : FVec F S1x2048x2048 .f32 := broadcastInDim S1x2048x2048 ![] bcast_S_S1x2048x2048 main_cst_0
  let main_v6 : IVec S1x2048x2048 1 := cmpf .olt main_v4 main_v5
  let main_c_1 : IVec S_ 1 := constantI S_ 1 1#1
  let main_v7 : IVec S_ 1 := (fun x v => Host.reduce IntOp.andi x v reducesTo_S1x2048x2048_S_d0_1_2 h_S_) main_v6 main_c_1
  let main_v8 : IVec S_ 1 := andi main_v3 main_v7
  let main_v9 : FVec F S1 .f32 := Host.absf main_arg2
  let main_cst_2 : FVec F S_ .f32 := constant S_ .f32 0x7F800000#32
  let main_v10 : FVec F S1 .f32 := broadcastInDim S1 ![] bcast_S_S1 main_cst_2
  let main_v11 : IVec S1 1 := cmpf .olt main_v9 main_v10
  let main_c_3 : IVec S_ 1 := constantI S_ 1 1#1
  let main_v12 : IVec S_ 1 := (fun x v => Host.reduce IntOp.andi x v reducesTo_S1_S_d0 h_S_) main_v11 main_c_3
  let main_v13 : IVec S_ 1 := andi main_v8 main_v12
  main_v13
-- ==== Kernel.lean ====
abbrev S4096x2048 : Shape := ⟨2, ![4096, 2048]⟩
abbrev S1x2048x2048 : Shape := ⟨3, ![1, 2048, 2048]⟩
abbrev S1 : Shape := ⟨1, ![1]⟩
abbrev S2048x2048 : Shape := ⟨2, ![2048, 2048]⟩
abbrev S4096x4096 : Shape := ⟨2, ![4096, 4096]⟩
abbrev S256x2048 : Shape := ⟨2, ![256, 2048]⟩
abbrev S512x2048 : Shape := ⟨2, ![512, 2048]⟩
abbrev S256x4096 : Shape := ⟨2, ![256, 4096]⟩
abbrev S256x1 : Shape := ⟨2, ![256, 1]⟩
abbrev S256x512 : Shape := ⟨2, ![256, 512]⟩
abbrev S1x1 : Shape := ⟨2, ![1, 1]⟩
abbrev S256 : Shape := ⟨1, ![256]⟩

abbrev nBuf : Space → Nat
  | .hbm => 7
  | .vmem => 10
  | .smem => 0
  | _ => 0

abbrev bufTy : (tb : Table) → Fin (tcTables nBuf tb) → BufTy
  | .hbm, ⟨0, _⟩ => ⟨S4096x2048, .f32⟩
  | .hbm, ⟨1, _⟩ => ⟨S1x2048x2048, .f32⟩
  | .hbm, ⟨2, _⟩ => ⟨S1, .f32⟩
  | .hbm, ⟨3, _⟩ => ⟨S4096x2048, .bf16⟩
  | .hbm, ⟨4, _⟩ => ⟨S2048x2048, .f32⟩
  | .hbm, ⟨5, _⟩ => ⟨S2048x2048, .bf16⟩
  | .hbm, ⟨6, _⟩ => ⟨S4096x4096, .f32⟩
  | .local _ .vmem, ⟨0, _⟩ => ⟨S256x2048, .bf16⟩
  | .local _ .vmem, ⟨1, _⟩ => ⟨S256x2048, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | .local _ .vmem, ⟨5, _⟩ => ⟨S1, .f32⟩
  | .local _ .vmem, ⟨6, _⟩ => ⟨S256x4096, .f32⟩
  | .local _ .vmem, ⟨7, _⟩ => ⟨S256x4096, .f32⟩
  | .local _ .vmem, ⟨8, _⟩ => ⟨S256x2048, .f32⟩
  | .local _ .vmem, ⟨9, _⟩ => ⟨S256x1, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![16, 8], ![false, false]⟩

def k0_mult1 (i : grid0.Coords) : BitVec 32 :=
  let arg1 : BitVec 32 := BitVec.ofNat 32 (i 1).val
  let c512_i32 : BitVec 32 := 512#32
  let v10 : BitVec 32 := Scalar.muli arg1 c512_i32
  v10
def k0_off1 (i : grid0.Coords) : Fin 2 → Nat :=
  let c0_5 : Index := 0#32
  let arg1 : BitVec 32 := BitVec.ofNat 32 (i 1).val
  let c512_i32 : BitVec 32 := 512#32
  let v10 : BitVec 32 := Scalar.muli arg1 c512_i32
  let v11 : BitVec 32 := v10
  let v12 : Index := Scalar.indexCast v11
  ![0, v12.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S256x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  bitsLt_bf16_f32 : FTy.bits .bf16 < FTy.bits .f32
  shapeCasts_S1x2048x2048_S2048x2048 : S1x2048x2048.ShapeCasts S2048x2048
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S512x2048_S512x2048_0_0 : ∀ a, (![0, 0] : Fin 2 → Nat) a + S512x2048.size a ≤ S512x2048.size a
  h_S512x2048 : 0 < S512x2048.numel
  inb_S1_S1_0 : ∀ a, (![0] : Fin 1 → Nat) a + S1.size a ≤ S1.size a
  h_S1 : 0 < S1.numel
  shapeCasts_S1_S1x1 : S1.ShapeCasts S1x1
  broadcasts_S1x1_S256x512 : S1x1.Broadcasts S256x512
  h_S256x512 : 0 < S256x512.numel
  reduces_S256x512_S256 : S256x512.Reduces [1] S256
  shapeCasts_S256_S256x1 : S256.ShapeCasts S256x1
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  broadcasts_S256x1_S256x4096 : S256x1.Broadcasts S256x4096
  reduces_S256x4096_S256 : S256x4096.Reduces [1] S256
  dot_S256x2048_S2048x2048_S256x2048_1_0_0_1_n_n_wf : DotDims.WF S256x2048 S2048x2048 S256x2048 [1] [0] [0] [1] [] []
  dot_S256x2048_S512x2048_S256x512_1_1_0_0_n_n_wf : DotDims.WF S256x2048 S512x2048 S256x512 [1] [1] [0] [0] [] []
  hrank0 : 0 < grid0.rank
  k0_mult1_dvd : ∀ i : grid0.Coords, 512 ∣ (k0_mult1 i).toNat
  k0_off1_inb : ∀ i : grid0.Coords, ∀ a, (k0_off1 i) a + S256x512.size a ≤ S256x4096.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S4096x2048.size a
  hwx0_0 : ∀ i : grid0.Coords, EltTy.bits .bf16 = 32 ∨ (Rect.block (s := S4096x2048) S256x2048.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x2048.size a ≤ S2048x2048.size a
  hwx0_1 : ∀ i : grid0.Coords, EltTy.bits .bf16 = 32 ∨ (Rect.block (s := S2048x2048) S2048x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x2048.size a ≤ S4096x2048.size a
  hwx0_2 : ∀ i : grid0.Coords, EltTy.bits .f32 = 32 ∨ (Rect.block (s := S4096x2048) S512x2048.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1.size a ≤ S1.size a
  hwx0_3 : ∀ i : grid0.Coords, EltTy.bits .f32 = 32 ∨ (Rect.block (s := S1) S1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x4096.size a ≤ S4096x4096.size a
  hwx0_4 : ∀ i : grid0.Coords, EltTy.bits .f32 = 32 ∨ (Rect.block (s := S4096x4096) S256x4096.size (cc0_transform_4 i) (hinb0_4 i)).WholeWords (EltTy.packing .f32)

variable [Facts₀]

def dot_S256x2048_S2048x2048_S256x2048_1_0_0_1_n_n : DotDims S256x2048 S2048x2048 S256x2048 where
  lhsContracting := [1]
  rhsContracting := [0]
  lhsNonContracting := [0]
  rhsNonContracting := [1]
  lhsBatch := []
  rhsBatch := []
  wf := dot_S256x2048_S2048x2048_S256x2048_1_0_0_1_n_n_wf
def dot_S256x2048_S512x2048_S256x512_1_1_0_0_n_n : DotDims S256x2048 S512x2048 S256x512 where
  lhsContracting := [1]
  rhsContracting := [1]
  lhsNonContracting := [0]
  rhsNonContracting := [0]
  lhsBatch := []
  rhsBatch := []
  wf := dot_S256x2048_S512x2048_S256x512_1_1_0_0_n_n_wf

abbrev win0_0 : Pipeline.Window sig grid0 :=
  Pipeline.Window.ofSpec (Memref.whole main_v0) S256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S2048x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S512x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S256x4096.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4096x2048 : Shape := ⟨2, ![4096, 2048]⟩
abbrev S1x2048x2048 : Shape := ⟨3, ![1, 2048, 2048]⟩
abbrev S1 : Shape := ⟨1, ![1]⟩
abbrev S2048x2048 : Shape := ⟨2, ![2048, 2048]⟩
abbrev S2048x4096 : Shape := ⟨2, ![2048, 4096]⟩
abbrev S4096x4096 : Shape := ⟨2, ![4096, 4096]⟩
abbrev S_ : Shape := ⟨0, ![]⟩
abbrev S4096 : Shape := ⟨1, ![4096]⟩
abbrev S4096x1 : Shape := ⟨2, ![4096, 1]⟩

abbrev nBuf : Space → Nat
  | .hbm => 24
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1x2048x2048, .f32⟩
  | .hbm, ⟨2, _⟩ => ⟨S1, .f32⟩
  | .hbm, ⟨3, _⟩ => ⟨S2048x2048, .f32⟩
  | .hbm, ⟨4, _⟩ => ⟨S4096x2048, .f32⟩
  | .hbm, ⟨5, _⟩ => ⟨S2048x4096, .f32⟩
  | .hbm, ⟨6, _⟩ => ⟨S4096x4096, .f32⟩
  | .hbm, ⟨7, _⟩ => ⟨S_, .f32⟩
  | .hbm, ⟨8, _⟩ => ⟨S4096x4096, .f32⟩
  | .hbm, ⟨9, _⟩ => ⟨S4096x4096, .f32⟩
  | .hbm, ⟨10, _⟩ => ⟨S_, .f32⟩
  | .hbm, ⟨11, _⟩ => ⟨S4096, .f32⟩
  | .hbm, ⟨12, _⟩ => ⟨S_, .f32⟩
  | .hbm, ⟨13, _⟩ => ⟨S4096, .f32⟩
  | .hbm, ⟨14, _⟩ => ⟨S4096, .f32⟩
  | .hbm, ⟨15, _⟩ => ⟨S4096x1, .f32⟩
  | .hbm, ⟨16, _⟩ => ⟨S4096x4096, .f32⟩
  | .hbm, ⟨17, _⟩ => ⟨S4096x4096, .f32⟩
  | .hbm, ⟨18, _⟩ => ⟨S4096x4096, .f32⟩
  | .hbm, ⟨19, _⟩ => ⟨S_, .f32⟩
  | .hbm, ⟨20, _⟩ => ⟨S4096, .f32⟩
  | .hbm, ⟨21, _⟩ => ⟨S4096x1, .f32⟩
  | .hbm, ⟨22, _⟩ => ⟨S4096x4096, .f32⟩
  | .hbm, ⟨23, _⟩ => ⟨S4096x4096, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]

class Facts₀ : Prop where
  shapeCasts_S1x2048x2048_S2048x2048 : S1x2048x2048.ShapeCasts S2048x2048
  transposes_S4096x2048_S2048x4096_1_0 : S4096x2048.Transposes [1, 0] S2048x4096
  shapeCasts_S1_S_ : S1.ShapeCasts S_
  bcast_S_S4096x4096 : S_.BroadcastsInDim S4096x4096 (![] : Fin 0 → Fin S4096x4096.rank)
  reducesTo_S4096x4096_S4096_d1 : S4096x4096.ReducesTo [1] S4096
  h_S_ : 0 < S_.numel
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x4096_0_1 : S4096x1.BroadcastsInDim S4096x4096 (![0, 1] : Fin 2 → Fin S4096x4096.rank)
  dot_S4096x2048_S2048x2048_S4096x2048_1_0_0_1_n_n_wf : DotDims.WF S4096x2048 S2048x2048 S4096x2048 [1] [0] [0] [1] [] []
  dot_S4096x2048_S2048x4096_S4096x4096_1_0_0_1_n_n_wf : DotDims.WF S4096x2048 S2048x4096 S4096x4096 [1] [0] [0] [1] [] []

variable [Facts₀]

def dot_S4096x2048_S2048x2048_S4096x2048_1_0_0_1_n_n : DotDims S4096x2048 S2048x2048 S4096x2048 where
  lhsContracting := [1]
  rhsContracting := [0]
  lhsNonContracting := [0]
  rhsNonContracting := [1]
  lhsBatch := []
  rhsBatch := []
  wf := dot_S4096x2048_S2048x2048_S4096x2048_1_0_0_1_n_n_wf
def dot_S4096x2048_S2048x4096_S4096x4096_1_0_0_1_n_n : DotDims S4096x2048 S2048x4096 S4096x4096 where
  lhsContracting := [1]
  rhsContracting := [0]
  lhsNonContracting := [0]
  rhsNonContracting := [1]
  lhsBatch := []
  rhsBatch := []
  wf := dot_S4096x2048_S2048x4096_S4096x4096_1_0_0_1_n_n_wf

class Facts : Prop extends Facts₀ where

variable [Facts]
-- ==== Proof.KernelBody.Cases.lean ====
/-
  The three kinds of grid point of the attention kernel, and the buffers its body is called with.

  The grid is 16 row blocks by 8 key chunks, the chunk coordinate running fastest, so point `t` works on chunk
  `t % 8` of row block `t / 8`. The body's first conditional (project the query rows, reset the running
  maximum) is taken exactly when the chunk is 0; its second (normalise the completed block) exactly when the chunk
  is 7. Both are decided here once over the 128 points.
-/
import proofs.«161438_j65661460021977_2_alg».proof.Proof.Gen.Kernel.Frame
import proofs.«161438_j65661460021977_2_alg».proof.Proof.Gen.Kernel.Skeleton
import Idealize.ShloMosaic.Lib.Pipeline.FrameBody
import Idealize.ShloMosaic.Lib.Ring
import Idealize.ShloMosaic.Lib.Tactic

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The first conditional's test, as the body computes it from the chunk coordinate. -/
abbrev isFirst (i : grid0.Coords) : Prop := (Scalar.cmpi .ne (Scalar.extui (Scalar.cmpi .eq (BitVec.ofNat 32 (i 1).val) 0#32)) 0#32) = 1#1
/-- It holds at the points of chunk 0. -/
theorem isFirst_iff : ∀ t : Fin cfg0.N, isFirst (grid0.coords t) ↔ t.val % 8 = 0 :=
  (by decide +kernel : ∀ t : Fin grid0.N, isFirst (grid0.coords t) ↔ t.val % 8 = 0)

/-- The second conditional's test. -/
abbrev isLast (i : grid0.Coords) : Prop := (Scalar.cmpi .ne (Scalar.extui (Scalar.cmpi .eq (BitVec.ofNat 32 (i 1).val) 7#32)) 0#32) = 1#1
/-- It holds at the points of chunk 7. -/
theorem isLast_iff : ∀ t : Fin cfg0.N, isLast (grid0.coords t) ↔ t.val % 8 = 7 :=
  (by decide +kernel : ∀ t : Fin grid0.N, isLast (grid0.coords t) ↔ t.val % 8 = 7)

/-- The chunk coordinate of point `t` is `t % 8`, -/
theorem coord_chunk : ∀ t : Fin cfg0.N, ((grid0.coords t) 1).val = t.val % 8 :=
  (by decide +kernel : ∀ t : Fin grid0.N, ((grid0.coords t) 1).val = t.val % 8)
/-- and its row-block coordinate `t / 8`. -/
theorem coord_rows : ∀ t : Fin cfg0.N, ((grid0.coords t) 0).val = t.val / 8 :=
  (by decide +kernel : ∀ t : Fin grid0.N, ((grid0.coords t) 0).val = t.val / 8)

/-- Each window's current staging memref at point `t`, as the pipeline passes it to the body, and its wholeness. -/
abbrev mem0 (t : Fin cfg0.N) : Memref sig .tc .vmem S256x2048 .bf16 := win0_0.stage (cfg0.slots t 0)
abbrev whole0 (t : Fin cfg0.N) : (mem0 t).IsWhole := hstage0_0 ((cfg0.slots t 0).cast nbuf0_0)
abbrev mem1 (t : Fin cfg0.N) : Memref sig .tc .vmem S2048x2048 .bf16 := win0_1.stage (cfg0.slots t 1)
abbrev whole1 (t : Fin cfg0.N) : (mem1 t).IsWhole := hstage0_1 ((cfg0.slots t 1).cast nbuf0_1)
abbrev mem2 (t : Fin cfg0.N) : Memref sig .tc .vmem S512x2048 .f32 := win0_2.stage (cfg0.slots t 2)
abbrev whole2 (t : Fin cfg0.N) : (mem2 t).IsWhole := hstage0_2 ((cfg0.slots t 2).cast nbuf0_2)
abbrev mem3 (t : Fin cfg0.N) : Memref sig .tc .vmem S1 .f32 := win0_3.stage (cfg0.slots t 3)
abbrev whole3 (t : Fin cfg0.N) : (mem3 t).IsWhole := hstage0_3 ((cfg0.slots t 3).cast nbuf0_3)
abbrev mem4 (t : Fin cfg0.N) : Memref sig .tc .vmem S256x4096 .f32 := win0_4.stage (cfg0.slots t 4)
abbrev whole4 (t : Fin cfg0.N) : (mem4 t).IsWhole := hstage0_4 ((cfg0.slots t 4).cast nbuf0_4)
/-- The two scratch operands: the projected query rows, and the running row maximum. -/
abbrev projM : Memref sig .tc .vmem S256x2048 .f32 := Memref.whole cc0_scratch0
abbrev maxM : Memref sig .tc .vmem S256x1 .f32 := Memref.whole cc0_scratch1

/-- What the launch hands the region besides the windows: the two scratch buffers at some contents and the generator
    register at some state. -/
theorem scratch_eq (c : Dev nD) :
    (Pipeline.ΦA spec0 c : sProp 𝕄)
      = iprop(iprop((∃ d, owns (c : Thread nD τ) projM fullShare d) ∗ (∃ d, owns (c : Thread nD τ) maxM fullShare d)) ∗ (∃ r, prngReg c r)) := by
  unfold Pipeline.ΦA; rw [scopedRest0_eq]; simp only [projM, maxM, owns_whole]; try rfl

end Cert.Kernel.Body

end
-- ==== Proof.KernelBody.RunFirst.lean ====
/-
  The body at the first chunk of a row block.

  The first conditional is taken: the body projects the query rows into the first scratch buffer and fills the
  running maximum with −∞; then, as at every chunk, it writes this chunk's scores into its 512 columns of the output
  block and folds the chunk's row maxima into the running maximum. Whatever the two scratch buffers held before is
  overwritten. The run names what each written buffer ends with as a list of stores, found by executing the body
  symbolically.
-/
import proofs.«161438_j65661460021977_2_alg».proof.Proof.KernelBody.Cases
import Idealize.ShloMosaic.Lib.Pipeline.FrameBody
import Idealize.ShloMosaic.Lib.Ring
import Idealize.ShloMosaic.Lib.Tactic

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The stores the body leaves in the output block, the projected rows and the running maximum at a first chunk, with
    the proof that from the inputs at their blocks, the output block at `y4` and the scratch buffers at anything the
    body runs to any continuation that accepts the inputs as they were, the output block with its store over `y4`, and
    each scratch buffer with its stores over anything. -/
noncomputable def runFirst (c : Dev nD) (i : grid0.Coords) (arg2 : Memref sig .tc .vmem S256x2048 .bf16) (harg2 : arg2.IsWhole) (arg3 : Memref sig .tc .vmem S2048x2048 .bf16) (harg3 : arg3.IsWhole) (arg4 : Memref sig .tc .vmem S512x2048 .f32) (harg4 : arg4.IsWhole) (arg5 : Memref sig .tc .vmem S1 .f32) (harg5 : arg5.IsWhole) (arg6 : Memref sig .tc .vmem S256x4096 .f32) (harg6 : arg6.IsWhole) (arg7 : Memref sig .tc .vmem S256x2048 .f32) (harg7 : arg7.IsWhole) (arg8 : Memref sig .tc .vmem S256x1 .f32) (harg8 : arg8.IsWhole) (hc0 : isFirst i) (hc1 : ¬isLast i)
    (x0 : Vec F S256x2048 .bf16) (x1 : Vec F S2048x2048 .bf16) (x2 : Vec F S512x2048 .f32) (x3 : Vec F S1 .f32) (y4 : Vec F S256x4096 .f32) (xs0 : Vec F S256x2048 .f32) (xs1 : Vec F S256x1 .f32) :
    Σ' (L4 : List (View.Piece (Elt F) S256x4096 .f32)) (LS0 : List (View.Piece (Elt F) S256x2048 .f32)), { LS1 : List (View.Piece (Elt F) S256x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare y4 ∗ owns (c : Thread nD τ) arg7 fullShare xs0 ∗ owns (c : Thread nD τ) arg8 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ (arg6.view.loc (c : Thread nD τ) ↦[arg6.view.set]{fullShare} arg6.view.writes (Elt F) (harg6.unread y4) L4) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0__attn_kernel i arg2 harg2 arg3 harg3 arg4 harg4 arg5 harg5 arg6 harg6 arg7 harg7 arg8 harg8) K } := by
  refine ⟨?_, ?_, ?_, fun E K => ?run⟩
  case run =>
    simp only [cc0__attn_kernel_eq_skeleton]; unfold cc0__attn_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0; obtain rfl := harg8.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexact H4
    isplitl [HS0]
    · iexists _; iexact HS0
    iexists _; iexact HS1

end Cert.Kernel.Body

end
-- ==== Proof.KernelBody.RunMiddle.lean ====
/-
  The body at a point of a middle chunk (neither the first nor the last of its row block).

  Neither conditional is taken. The body reads the projected query rows and the running maximum left by the point
  before, writes this chunk's scores into its 512 columns of the output block — whose other columns stay as they
  were handed over — and stores the updated running maximum. The run below names what each written buffer ends with
  as a list of stores over what it held, found by executing the body symbolically.
-/
import proofs.«161438_j65661460021977_2_alg».proof.Proof.KernelBody.Cases
import Idealize.ShloMosaic.Lib.Pipeline.FrameBody
import Idealize.ShloMosaic.Lib.Ring
import Idealize.ShloMosaic.Lib.Tactic

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The stores the body leaves in the running-maximum scratch and in the output block at a middle chunk, with the
    proof that from the inputs at their blocks, the output block at `y4`, the projected rows at `xs0` and the
    running maximum at `xs1`, the body runs to any continuation that accepts the inputs and the projected rows as
    they were, the running maximum with its store over anything, and the output block with its store over `y4`. -/
noncomputable def runMiddle (c : Dev nD) (i : grid0.Coords) (arg2 : Memref sig .tc .vmem S256x2048 .bf16) (harg2 : arg2.IsWhole) (arg3 : Memref sig .tc .vmem S2048x2048 .bf16) (harg3 : arg3.IsWhole) (arg4 : Memref sig .tc .vmem S512x2048 .f32) (harg4 : arg4.IsWhole) (arg5 : Memref sig .tc .vmem S1 .f32) (harg5 : arg5.IsWhole) (arg6 : Memref sig .tc .vmem S256x4096 .f32) (harg6 : arg6.IsWhole) (arg7 : Memref sig .tc .vmem S256x2048 .f32) (harg7 : arg7.IsWhole) (arg8 : Memref sig .tc .vmem S256x1 .f32) (harg8 : arg8.IsWhole) (hc0 : ¬isFirst i) (hc1 : ¬isLast i)
    (x0 : Vec F S256x2048 .bf16) (x1 : Vec F S2048x2048 .bf16) (x2 : Vec F S512x2048 .f32) (x3 : Vec F S1 .f32) (y4 : Vec F S256x4096 .f32) (xs0 : Vec F S256x2048 .f32) (xs1 : Vec F S256x1 .f32) :
    Σ' (L4 : List (View.Piece (Elt F) S256x4096 .f32)), { LS1 : List (View.Piece (Elt F) S256x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare y4 ∗ owns (c : Thread nD τ) arg7 fullShare xs0 ∗ owns (c : Thread nD τ) arg8 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ (arg6.view.loc (c : Thread nD τ) ↦[arg6.view.set]{fullShare} arg6.view.writes (Elt F) (harg6.unread y4) L4) ∗ owns (c : Thread nD τ) arg7 fullShare xs0 ∗ (∃ f, arg8.view.loc (c : Thread nD τ) ↦[arg8.view.set]{fullShare} arg8.view.writes (Elt F) f LS1)) -∗ K ⟨⟩))
          ⊢ wp frame (wpE (defs₀ (F := F)) Variants.none c none) E (cc0__attn_kernel i arg2 harg2 arg3 harg3 arg4 harg4 arg5 harg5 arg6 harg6 arg7 harg7 arg8 harg8) K } := by
  refine ⟨?_, ?_, fun E K => ?run⟩
  case run =>
    simp only [cc0__attn_kernel_eq_skeleton]; unfold cc0__attn_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0; obtain rfl := harg8.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexact H4
    isplitl [HS0]
    · iexists _; isplitr; · ipureintro; exact harg7.read_unread _
      iexact HS0
    iexists _; iexact HS1

end Cert.Kernel.Body

end
-- ==== Proof.KernelBody.RunLast.lean ====
/-
  The body at the last chunk of a row block.

  The first conditional is not taken, the second is. The body writes the last chunk's scores into columns 3584 … 4095
  of the output block and folds their row maxima into the running maximum; then it reads the completed block and the
  final maximum back and overwrites the whole block with the row-normalised exponentials. The projected rows are
  read, not written. The run names what each written buffer ends with as a list of stores, found by executing the
  body symbolically.
-/
import proofs.«161438_j65661460021977_2_alg».proof.Proof.KernelBody.Cases
import Idealize.ShloMosaic.Lib.Pipeline.FrameBody
import Idealize.ShloMosaic.Lib.Ring
import Idealize.ShloMosaic.Lib.Tactic

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The stores the body leaves in the output block and the running maximum at a last chunk, with the proof that
    from the inputs at their blocks, the output block at `y4`, the projected rows at `xs0` and the running maximum
    at `xs1` the body runs to any continuation that accepts the inputs and the projected rows as they were, the
    output block with its stores over `y4`, and the running maximum with its store over anything. -/
noncomputable def runLast (c : Dev nD) (i : grid0.Coords) (arg2 : Memref sig .tc .vmem S256x2048 .bf16) (harg2 : arg2.IsWhole) (arg3 : Memref sig .tc .vmem S2048x2048 .bf16) (harg3 : arg3.IsWhole) (arg4 : Memref sig .tc .vmem S512x2048 .f32) (harg4 : arg4.IsWhole) (arg5 : Memref sig .tc .vmem S1 .f32) (harg5 : arg5.IsWhole) (arg6 : Memref sig .tc .vmem S256x4096 .f32) (harg6 : arg6.IsWhole) (arg7 : Memref sig .tc .vmem S256x2048 .f32) (harg7 : arg7.IsWhole) (arg8 : Memref sig .tc .vmem S256x1 .f32) (harg8 : arg8.IsWhole) (hc0 : ¬isFirst i) (hc1 : isLast i)
    (x0 : Vec F S256x2048 .bf16) (x1 : Vec F S2048x2048 .bf16) (x2 : Vec F S512x2048 .f32) (x3 : Vec F S1 .f32) (y4 : Vec F S256x4096 .f32) (xs0 : Vec F S256x2048 .f32) (xs1 : Vec F S256x1 .f32) :
    Σ' (L4 : List (View.Piece (Elt F) S256x4096 .f32)), { LS1 : List (View.Piece (Elt F) S256x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare y4 ∗ owns (c : Thread nD τ) arg7 fullShare xs0 ∗ owns (c : Thread nD τ) arg8 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ (arg6.view.loc (c : Thread nD τ) ↦[arg6.view.set]{fullShare} arg6.view.writes (Elt F) (harg6.unread y4) L4) ∗ owns (c : Thread nD τ) arg7 fullShare xs0 ∗ (∃ f, arg8.view.loc (c : Thread nD τ) ↦[arg8.view.set]{fullShare} arg8.view.writes (Elt F) f LS1)) -∗ K ⟨⟩))
          ⊢ wp frame (wpE (defs₀ (F := F)) Variants.none c none) E (cc0__attn_kernel i arg2 harg2 arg3 harg3 arg4 harg4 arg5 harg5 arg6 harg6 arg7 harg7 arg8 harg8) K } := by
  refine ⟨?_, ?_, fun E K => ?run⟩
  case run =>
    simp only [cc0__attn_kernel_eq_skeleton]; unfold cc0__attn_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0; obtain rfl := harg8.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexact H4
    isplitl [HS0]
    · iexists _; isplitr; · ipureintro; exact harg7.read_unread _
      iexact HS0
    iexists _; iexact HS1

end Cert.Kernel.Body

end
-- ==== Proof.KernelBody.Closed.lean ====
/-
  What each kind of point leaves in the buffers it writes, in closed form.

  The three runs of the body name the final contents of a written buffer as a list of stores over what the buffer
  held. Read back, such a list is a function of the body's loads alone:
  * a store through the whole buffer, last, leaves its payload;
  * a single store through a rectangle, over contents `Y`, leaves the payload inside the rectangle and `Y` outside it.
  With these, at every chunk the output block ends as the handed block with the chunk's 512 columns replaced by the
  chunk's scores (and, at the last chunk, normalised as a whole); the projected rows are written at the first chunk
  only; and the running maximum is folded once per chunk.
-/
import proofs.«161438_j65661460021977_2_alg».proof.Proof.KernelBody.RunFirst
import proofs.«161438_j65661460021977_2_alg».proof.Proof.KernelBody.RunMiddle
import proofs.«161438_j65661460021977_2_alg».proof.Proof.KernelBody.RunLast
import Idealize.ShloMosaic.Lib.Pipeline.Value
set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The two-axis and one-axis zero offsets, as the constant function. -/
theorem zero2 : (![0, 0] : Fin 2 → ℕ) = fun _ => 0 := by
  funext a; match a with | ⟨0, _⟩ => rfl | ⟨1, _⟩ => rfl
theorem zero1 : (![0] : Fin 1 → ℕ) = fun _ => 0 := by
  funext a; match a with | ⟨0, _⟩ => rfl

section Reading

variable {s : Shape} {e : EltTy}

/-- A load of a whole buffer held at contents `X` reads `X`. -/
theorem readAt_whole (mr : Memref sig .tc .vmem s e) (h : mr.IsWhole) {off : Fin s.rank → ℕ} (hz : off = fun _ => 0)
    (inb : ∀ a, off a + s.size a ≤ s.size a) (X : s.Idx → Elt F e) :
    View.readAt (Elt F) mr.view (Rect.unit off s.size inb).toLoadRect (h.unread X) = X := by
  rw [View.readAt_eq_ld, h.read_unread]; exact View.ld_unit_zero hz inb X

/-- A load of a whole buffer after one store through all of it reads the store's payload. -/
theorem readCov_whole (mr : Memref sig .tc .vmem s e) {off : Fin s.rank → ℕ} (hz : off = fun _ => 0)
    (inb : ∀ a, off a + s.size a ≤ s.size a) (w : s.Idx → Elt F e) :
    mr.view.readCov [(⟨Rect.unit off s.size inb, w⟩ : View.Piece (Elt F) s e)] (Rect.unit off s.size inb).toLoadRect = w :=
  View.readCov_unit_zero mr.view hz inb w

/-- Stores ending with one through the whole buffer leave that store's payload. -/
theorem read_writes_whole (mr : Memref sig .tc .vmem s e) (f : mr.view.ty.Contents (Elt F)) {off : Fin s.rank → ℕ}
    (hz : off = fun _ => 0) (inb : ∀ a, off a + s.size a ≤ s.size a) (w : s.Idx → Elt F e) (L : List (View.Piece (Elt F) s e)) :
    mr.view.read (Elt F) (mr.view.writes (Elt F) f ((⟨Rect.unit off s.size inb, w⟩ : View.Piece (Elt F) s e) :: L)) = w := by
  rw [View.read_writes_eq_canon mr.view f _ (fun y => ⟨_, List.mem_cons_self, View.mem_set_unit_zero hz inb y⟩),
    View.canon_cons_unit_zero hz inb]

/-- One store through a rectangle `r` over contents `Y`: the payload inside `r`, `Y` outside. -/
theorem read_writes_over (mr : Memref sig .tc .vmem s e) (h : mr.IsWhole) (Y : s.Idx → Elt F e) (r : Rect s)
    (w : r.shape.Idx → Elt F e) :
    mr.view.read (Elt F) (mr.view.writes (Elt F) (h.unread Y) [(⟨r, w⟩ : View.Piece (Elt F) s e)]) = r.overlay Y w := by
  funext y
  by_cases hy : y ∈ r.set
  · obtain ⟨x, rfl⟩ := r.exists_idx_of_mem hy
    rw [show r.idx x = r.emb x from rfl, View.read_writes_cons_emb]; exact (r.overlay_emb Y w x).symm
  · rw [View.writes_cons, View.writes_nil, View.read_slice_write_of_not_mem r _ _ _ (by rwa [Rect.map_emb_univ]),
      h.read_unread]; exact (r.overlay_of_not_mem Y w hy).symm

end Reading

/-- The 256 × 512 rectangle of the output block that the chunk of grid point `i` writes: all rows, the columns
    starting at the offset the body computes from the chunk coordinate. -/
abbrev colRect (i : grid0.Coords) : Rect S256x4096 := Rect.unit (s := S256x4096) (k0_off1 i) S256x512.size (k0_off1_inb i)

variable (c : Dev nD) (i : grid0.Coords) (arg2 : Memref sig .tc .vmem S256x2048 .bf16) (harg2 : arg2.IsWhole) (arg3 : Memref sig .tc .vmem S2048x2048 .bf16) (harg3 : arg3.IsWhole) (arg4 : Memref sig .tc .vmem S512x2048 .f32) (harg4 : arg4.IsWhole) (arg5 : Memref sig .tc .vmem S1 .f32) (harg5 : arg5.IsWhole) (arg6 : Memref sig .tc .vmem S256x4096 .f32) (harg6 : arg6.IsWhole) (arg7 : Memref sig .tc .vmem S256x2048 .f32) (harg7 : arg7.IsWhole) (arg8 : Memref sig .tc .vmem S256x1 .f32) (harg8 : arg8.IsWhole)
  (x0 : Vec F S256x2048 .bf16) (x1 : Vec F S2048x2048 .bf16) (x2 : Vec F S512x2048 .f32) (x3 : Vec F S1 .f32) (y4 : Vec F S256x4096 .f32) (xs0 : Vec F S256x2048 .f32) (xs1 : Vec F S256x1 .f32)

/-! ### The first chunk -/

theorem first_out (hc0 : isFirst i) (hc1 : ¬isLast i) :
    arg6.view.read (Elt F) (arg6.view.writes (Elt F) (harg6.unread y4) (runFirst c i arg2 harg2 arg3 harg3 arg4 harg4 arg5 harg5 arg6 harg6 arg7 harg7 arg8 harg8 hc0 hc1 x0 x1 x2 x3 y4 xs0 xs1).1)
      = (colRect i).overlay y4 (k0_pay3 (k0_pay1 x0 x1) x2 x3) := by
  unfold runFirst; dsimp only; sl_unfold_run_names
  simp only [readAt_whole (s := S256x2048) _ _ zero2, readAt_whole (s := S2048x2048) _ _ zero2, readAt_whole (s := S512x2048) _ _ zero2, readAt_whole (s := S1) _ _ zero1, readAt_whole (s := S256x1) _ _ zero2, readCov_whole (s := S256x2048) _ zero2, readCov_whole (s := S256x1) _ zero2]
  exact read_writes_over arg6 harg6 y4 _ _

theorem first_proj (hc0 : isFirst i) (hc1 : ¬isLast i) (f : arg7.view.ty.Contents (Elt F)) :
    arg7.view.read (Elt F) (arg7.view.writes (Elt F) f (runFirst c i arg2 harg2 arg3 harg3 arg4 harg4 arg5 harg5 arg6 harg6 arg7 harg7 arg8 harg8 hc0 hc1 x0 x1 x2 x3 y4 xs0 xs1).2.1) = k0_pay1 x0 x1 := by
  unfold runFirst; dsimp only; sl_unfold_run_names
  simp only [readAt_whole (s := S256x2048) _ _ zero2, readAt_whole (s := S2048x2048) _ _ zero2, readAt_whole (s := S512x2048) _ _ zero2, readAt_whole (s := S1) _ _ zero1, readAt_whole (s := S256x1) _ _ zero2]
  exact read_writes_whole arg7 f zero2 _ _ _

theorem first_max (hc0 : isFirst i) (hc1 : ¬isLast i) (f : arg8.view.ty.Contents (Elt F)) :
    arg8.view.read (Elt F) (arg8.view.writes (Elt F) f (runFirst c i arg2 harg2 arg3 harg3 arg4 harg4 arg5 harg5 arg6 harg6 arg7 harg7 arg8 harg8 hc0 hc1 x0 x1 x2 x3 y4 xs0 xs1).2.2.1)
      = k0_pay4 (k0_pay1 x0 x1) x2 x3 k0_pay2 := by
  unfold runFirst; dsimp only; sl_unfold_run_names
  simp only [readAt_whole (s := S256x2048) _ _ zero2, readAt_whole (s := S2048x2048) _ _ zero2, readAt_whole (s := S512x2048) _ _ zero2, readAt_whole (s := S1) _ _ zero1, readAt_whole (s := S256x1) _ _ zero2, readCov_whole (s := S256x2048) _ zero2, readCov_whole (s := S256x1) _ zero2]
  exact read_writes_whole arg8 f zero2 _ _ _

/-! ### A middle chunk -/

theorem middle_out (hc0 : ¬isFirst i) (hc1 : ¬isLast i) :
    arg6.view.read (Elt F) (arg6.view.writes (Elt F) (harg6.unread y4) (runMiddle c i arg2 harg2 arg3 harg3 arg4 harg4 arg5 harg5 arg6 harg6 arg7 harg7 arg8 harg8 hc0 hc1 x0 x1 x2 x3 y4 xs0 xs1).1)
      = (colRect i).overlay y4 (k0_pay3 xs0 x2 x3) := by
  unfold runMiddle; dsimp only; sl_unfold_run_names
  simp only [readAt_whole (s := S256x2048) _ _ zero2, readAt_whole (s := S2048x2048) _ _ zero2, readAt_whole (s := S512x2048) _ _ zero2, readAt_whole (s := S1) _ _ zero1, readAt_whole (s := S256x1) _ _ zero2]
  exact read_writes_over arg6 harg6 y4 _ _

theorem middle_max (hc0 : ¬isFirst i) (hc1 : ¬isLast i) (f : arg8.view.ty.Contents (Elt F)) :
    arg8.view.read (Elt F) (arg8.view.writes (Elt F) f (runMiddle c i arg2 harg2 arg3 harg3 arg4 harg4 arg5 harg5 arg6 harg6 arg7 harg7 arg8 harg8 hc0 hc1 x0 x1 x2 x3 y4 xs0 xs1).2.1)
      = k0_pay4 xs0 x2 x3 xs1 := by
  unfold runMiddle; dsimp only; sl_unfold_run_names
  simp only [readAt_whole (s := S256x2048) _ _ zero2, readAt_whole (s := S2048x2048) _ _ zero2, readAt_whole (s := S512x2048) _ _ zero2, readAt_whole (s := S1) _ _ zero1, readAt_whole (s := S256x1) _ _ zero2]
  exact read_writes_whole arg8 f zero2 _ _ _

/-! ### The last chunk -/

theorem last_out (hc0 : ¬isFirst i) (hc1 : isLast i) :
    arg6.view.read (Elt F) (arg6.view.writes (Elt F) (harg6.unread y4) (runLast c i arg2 harg2 arg3 harg3 arg4 harg4 arg5 harg5 arg6 harg6 arg7 harg7 arg8 harg8 hc0 hc1 x0 x1 x2 x3 y4 xs0 xs1).1)
      = k0_pay5 (k0_pay4 xs0 x2 x3 xs1) ((colRect i).overlay y4 (k0_pay3 xs0 x2 x3)) := by
  unfold runLast; dsimp only; sl_unfold_run_names
  simp only [readAt_whole (s := S256x2048) _ _ zero2, readAt_whole (s := S2048x2048) _ _ zero2, readAt_whole (s := S512x2048) _ _ zero2, readAt_whole (s := S1) _ _ zero1, readAt_whole (s := S256x1) _ _ zero2, readCov_whole (s := S256x2048) _ zero2, readCov_whole (s := S256x1) _ zero2]
  refine (read_writes_whole arg6 _ zero2 _ _ _).trans ?_
  rw [View.readAt_eq_ld, read_writes_over arg6 harg6 y4]
  exact congrArg _ (View.ld_unit_zero zero2 _ _)

theorem last_max (hc0 : ¬isFirst i) (hc1 : isLast i) (f : arg8.view.ty.Contents (Elt F)) :
    arg8.view.read (Elt F) (arg8.view.writes (Elt F) f (runLast c i arg2 harg2 arg3 harg3 arg4 harg4 arg5 harg5 arg6 harg6 arg7 harg7 arg8 harg8 hc0 hc1 x0 x1 x2 x3 y4 xs0 xs1).2.1)
      = k0_pay4 xs0 x2 x3 xs1 := by
  unfold runLast; dsimp only; sl_unfold_run_names
  simp only [readAt_whole (s := S256x2048) _ _ zero2, readAt_whole (s := S2048x2048) _ _ zero2, readAt_whole (s := S512x2048) _ _ zero2, readAt_whole (s := S1) _ _ zero1, readAt_whole (s := S256x1) _ _ zero2]
  exact read_writes_whole arg8 f zero2 _ _ _

end Cert.Kernel.Body

end
-- ==== Proof.KernelBody.Data.lean ====
/-
  The proof data of the attention kernel's one pipeline, stated relationally.

  What the body leaves in the output block at a chunk depends on what it was handed there: the chunk's 512 columns
  are replaced and every other column is kept, so that only after the eighth chunk is the whole block determined by
  the inputs. The data below therefore RELATES the contents handed in to the contents left: an input window is left
  as found; the output window is left as `out4` of what was found. What the two scratch buffers hold is followed
  point by point: after point `n` the first holds the projected query rows of the row block of `n` (`projAt n`:
  computed at the block's first chunk, kept afterwards) and the second the running row maximum over the chunks of
  that block up to `n` (`maxAt n`: started from −∞ at the first chunk).
-/
import proofs.«161438_j65661460021977_2_alg».proof.Proof.KernelBody.Closed
set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-- The grid has 128 points. -/
theorem N_eq : cfg0.N = 128 := N_0

/-- Point number `n` (point 0 for a number beyond the grid, which nothing below reads). -/
def pt (n : ℕ) : Fin cfg0.N := if h : n < cfg0.N then ⟨n, h⟩ else ⟨0, by rw [N_eq]; omega⟩

theorem pt_val (t : Fin cfg0.N) : pt t.val = t := by unfold pt; rw [dif_pos t.isLt]

/-- The four input windows' blocks at a point, at their literal shapes: 256 query rows, the whole weight matrix,
    512 key rows, the bias. -/
def blk0 (c : Dev nD) (t : Fin cfg0.N) : Vec F S256x2048 .bf16 := iblk m c 0 t
def blk1 (c : Dev nD) (t : Fin cfg0.N) : Vec F S2048x2048 .bf16 := iblk m c 1 t
def blk2 (c : Dev nD) (t : Fin cfg0.N) : Vec F S512x2048 .f32 := iblk m c 2 t
def blk3 (c : Dev nD) (t : Fin cfg0.N) : Vec F S1 .f32 := iblk m c 3 t

/-- The projected query rows in the first scratch buffer after point `n`: computed at a first chunk, kept otherwise. -/
def projAt (c : Dev nD) : ℕ → Vec F S256x2048 .f32
  | 0 => k0_pay1 (blk0 m c (pt 0)) (blk1 m c (pt 0))
  | n + 1 => if (n + 1) % 8 = 0 then k0_pay1 (blk0 m c (pt (n + 1))) (blk1 m c (pt (n + 1))) else projAt c n

/-- The running row maximum in the second scratch buffer after point `n`: the chunk's row maxima folded into −∞
    at a first chunk, into what the point before left otherwise. -/
def maxAt (c : Dev nD) : ℕ → Vec F S256x1 .f32
  | 0 => k0_pay4 (projAt m c 0) (blk2 m c (pt 0)) (blk3 m c (pt 0)) k0_pay2
  | n + 1 => k0_pay4 (projAt m c (n + 1)) (blk2 m c (pt (n + 1))) (blk3 m c (pt (n + 1)))
      (if (n + 1) % 8 = 0 then k0_pay2 else maxAt c n)

/-- The 256 × 512 scores the chunk of point `n` writes. -/
def scoresAt (c : Dev nD) (n : ℕ) : Vec F S256x512 .f32 := k0_pay3 (projAt m c n) (blk2 m c (pt n)) (blk3 m c (pt n))

theorem projAt_first (c : Dev nD) (t : Fin cfg0.N) (h : t.val % 8 = 0) :
    projAt m c t.val = k0_pay1 (blk0 m c t) (blk1 m c t) := by
  obtain ⟨n, hn⟩ := t
  cases n with
  | zero => show k0_pay1 (blk0 m c (pt 0)) (blk1 m c (pt 0)) = _; rw [show (pt 0 : Fin cfg0.N) = ⟨0, hn⟩ from pt_val ⟨0, hn⟩]
  | succ n => show (if (n + 1) % 8 = 0 then _ else _) = _; rw [if_pos h, show (pt (n + 1) : Fin cfg0.N) = ⟨n + 1, hn⟩ from pt_val ⟨n + 1, hn⟩]

theorem projAt_rest (c : Dev nD) (n : ℕ) (h : n % 8 ≠ 0) : projAt m c n = projAt m c (n - 1) := by
  cases n with
  | zero => exact absurd (Nat.zero_mod _) h
  | succ n => show (if (n + 1) % 8 = 0 then _ else _) = _; rw [if_neg h]; rfl

theorem maxAt_first (c : Dev nD) (t : Fin cfg0.N) (h : t.val % 8 = 0) :
    maxAt m c t.val = k0_pay4 (projAt m c t.val) (blk2 m c t) (blk3 m c t) k0_pay2 := by
  obtain ⟨n, hn⟩ := t
  cases n with
  | zero => show k0_pay4 _ (blk2 m c (pt 0)) (blk3 m c (pt 0)) _ = _; rw [show (pt 0 : Fin cfg0.N) = ⟨0, hn⟩ from pt_val ⟨0, hn⟩]
  | succ n =>
    show k0_pay4 _ (blk2 m c (pt (n + 1))) (blk3 m c (pt (n + 1))) (if (n + 1) % 8 = 0 then _ else _) = _
    rw [if_pos h, show (pt (n + 1) : Fin cfg0.N) = ⟨n + 1, hn⟩ from pt_val ⟨n + 1, hn⟩]

theorem maxAt_rest (c : Dev nD) (t : Fin cfg0.N) (h : t.val % 8 ≠ 0) :
    maxAt m c t.val = k0_pay4 (projAt m c t.val) (blk2 m c t) (blk3 m c t) (maxAt m c (t.val - 1)) := by
  obtain ⟨n, hn⟩ := t
  cases n with
  | zero => exact absurd (Nat.zero_mod _) h
  | succ n =>
    show k0_pay4 _ (blk2 m c (pt (n + 1))) (blk3 m c (pt (n + 1))) (if (n + 1) % 8 = 0 then _ else _) = _
    rw [if_neg h, show (pt (n + 1) : Fin cfg0.N) = ⟨n + 1, hn⟩ from pt_val ⟨n + 1, hn⟩]; rfl

theorem scoresAt_eq (c : Dev nD) (t : Fin cfg0.N) :
    scoresAt m c t.val = k0_pay3 (projAt m c t.val) (blk2 m c t) (blk3 m c t) := by
  unfold scoresAt; rw [pt_val]

/-- What the body leaves in the output block at point `t`, handed `Y`: `Y` with the chunk's columns replaced by
    the chunk's scores, and at a last chunk the whole of that normalised under the final running maximum. -/
def out4 (c : Dev nD) (t : Fin cfg0.N) (Y : Vec F S256x4096 .f32) : Vec F S256x4096 .f32 :=
  if t.val % 8 = 7 then k0_pay5 (maxAt m c t.val) ((colRect (grid0.coords t)).overlay Y (scoresAt m c t.val))
  else (colRect (grid0.coords t)).overlay Y (scoresAt m c t.val)

/-- The invariant before point `t`: the two scratch buffers at what the point before left (anything before the
    first point), and the generator register at some state. -/
def inv (c : Dev nD) (t : Fin (cfg0.N + 1)) : sProp 𝕄 :=
  iprop(∃ (d0 : Vec F S256x2048 .f32), ∃ (d1 : Vec F S256x1 .f32),
    ⌜t.val ≠ 0 → d0 = projAt m c (t.val - 1) ∧ d1 = maxAt m c (t.val - 1)⌝
      ∗ owns (c : Thread nD τ) projM fullShare d0 ∗ owns (c : Thread nD τ) maxM fullShare d1 ∗ (∃ r, prngReg c r))

/-- The relational proof data on core `c`: the arrays as the region finds them; an input window left as found, the
    output window left as `out4` of what was found; the invariant `inv`; nothing owed; full shares. -/
def rdat (c : Dev nD) : Pipeline.RDat τ (Elt F) Unit ℕ (UR sig nD τ) ℕ cfg0 c where
  A w := V m c (Pipeline.arrRef spec0 w)
  after w t Y X := match w with
    | ⟨0, _⟩ => X = Y
    | ⟨1, _⟩ => X = Y
    | ⟨2, _⟩ => X = Y
    | ⟨3, _⟩ => X = Y
    | ⟨4, _⟩ => X = out4 m c t Y
  Φ t := inv m c t
  q _ := fullShare
  owed _ := 0

theorem A_eq (c : Dev nD) (w : Fin cfg0.W) : (rdat m c).A w = V m c (Pipeline.arrRef spec0 w) := by dsimp only [rdat]
theorem after_0 (c : Dev nD) (t : Fin cfg0.N) (Y X) : (rdat m c).after 0 t Y X = (X = Y) := by dsimp only [rdat]
theorem after_1 (c : Dev nD) (t : Fin cfg0.N) (Y X) : (rdat m c).after 1 t Y X = (X = Y) := by dsimp only [rdat]
theorem after_2 (c : Dev nD) (t : Fin cfg0.N) (Y X) : (rdat m c).after 2 t Y X = (X = Y) := by dsimp only [rdat]
theorem after_3 (c : Dev nD) (t : Fin cfg0.N) (Y X) : (rdat m c).after 3 t Y X = (X = Y) := by dsimp only [rdat]
theorem after_4 (c : Dev nD) (t : Fin cfg0.N) (Y X) : (rdat m c).after 4 t Y X = (X = out4 m c t Y) := by dsimp only [rdat]

/-- Each input window's current buffer holds its block wherever the body is handed it, fetched there or not. -/
theorem finds_0 (c : Dev nD) (t : Fin cfg0.N) (Y) (h : (rdat m c).Finds 0 t Y) : Y = iblk m c 0 t := by
  obtain ⟨d, hd⟩ := (rdat m c).finds_in_eq_fetched 0 rfl (fun _ _ _ => rfl) (fun t Y X h => by rw [after_0] at h; exact h) t Y h
  rw [hd]; unfold Pipeline.RDat.fetched Pipeline.RDat.blockOf iblk; rw [A_eq]; try rfl
theorem finds_1 (c : Dev nD) (t : Fin cfg0.N) (Y) (h : (rdat m c).Finds 1 t Y) : Y = iblk m c 1 t := by
  obtain ⟨d, hd⟩ := (rdat m c).finds_in_eq_fetched 1 rfl (fun _ _ _ => rfl) (fun t Y X h => by rw [after_1] at h; exact h) t Y h
  rw [hd]; unfold Pipeline.RDat.fetched Pipeline.RDat.blockOf iblk; rw [A_eq]; try rfl
theorem finds_2 (c : Dev nD) (t : Fin cfg0.N) (Y) (h : (rdat m c).Finds 2 t Y) : Y = iblk m c 2 t := by
  obtain ⟨d, hd⟩ := (rdat m c).finds_in_eq_fetched 2 rfl (fun _ _ _ => rfl) (fun t Y X h => by rw [after_2] at h; exact h) t Y h
  rw [hd]; unfold Pipeline.RDat.fetched Pipeline.RDat.blockOf iblk; rw [A_eq]; try rfl
theorem finds_3 (c : Dev nD) (t : Fin cfg0.N) (Y) (h : (rdat m c).Finds 3 t Y) : Y = iblk m c 3 t := by
  obtain ⟨d, hd⟩ := (rdat m c).finds_in_eq_fetched 3 rfl (fun _ _ _ => rfl) (fun t Y X h => by rw [after_3] at h; exact h) t Y h
  rw [hd]; unfold Pipeline.RDat.fetched Pipeline.RDat.blockOf iblk; rw [A_eq]; try rfl

end Cert.Kernel.Body

end
-- ==== Proof.KernelBody.Obligation.lean ====
/-
  The body obligation of the attention kernel's pipeline.

  At a point the body is handed the four inputs at their blocks, the output block at whatever the point before left
  there, and the two scratch buffers at what the invariant says. Which of the three runs applies is decided by the
  chunk, `t % 8`: 0 is a first chunk, 7 a last one, anything else a middle one. Each run's stores, read back in
  closed form, are what the relation of the output window and the invariant after the point ask for.
-/
import proofs.«161438_j65661460021977_2_alg».proof.Proof.KernelBody.Data
set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

theorem out4_rest (c : Dev nD) (t : Fin cfg0.N) (Y : Vec F S256x4096 .f32) (h : t.val % 8 ≠ 7) :
    out4 m c t Y = (colRect (grid0.coords t)).overlay Y (scoresAt m c t.val) := if_neg h

theorem out4_last (c : Dev nD) (t : Fin cfg0.N) (Y : Vec F S256x4096 .f32) (h : t.val % 8 = 7) :
    out4 m c t Y = k0_pay5 (maxAt m c t.val) ((colRect (grid0.coords t)).overlay Y (scoresAt m c t.val)) := if_pos h

theorem Phi_eq (c : Dev nD) (t : Fin (cfg0.N + 1)) : (rdat m c).Φ t = inv m c t := by dsimp only [rdat]

set_option maxHeartbeats 1600000 in
/-- The body at any point, on the pipeline's current buffers: handed the inputs at their blocks (`e0` … `e3`) and the
    output block at any contents, it runs to the invariant after the point and every window's relation. -/
theorem sound_body (c : Dev nD) (t : Fin cfg0.N) (Y : (w : Fin cfg0.W) → (cfg0.win w).block.Idx → Elt F (cfg0.win w).elt)
    (e0 : Y 0 = blk0 m c t) (e1 : Y 1 = blk1 m c t) (e2 : Y 2 = blk2 m c t) (e3 : Y 3 = blk3 m c t) :
    iprop((rdat m c).Φ t.castSucc ∗ (rdat m c).owesAt () t.castSucc
        ∗ owns (c : Thread nD τ) (st0_0 t) fullShare (Y 0) ∗ owns (c : Thread nD τ) (st0_1 t) fullShare (Y 1)
        ∗ owns (c : Thread nD τ) (st0_2 t) fullShare (Y 2) ∗ owns (c : Thread nD τ) (st0_3 t) fullShare (Y 3)
        ∗ owns (c : Thread nD τ) (st0_4 t) fullShare (Y 4))
      ⊢ wp frame (wpE (defs₀ (F := F)) Variants.none c none) Set.univ (bodyAt0 t) (fun _ =>
        iprop((rdat m c).Φ t.succ ∗ (rdat m c).owesAt () t.succ
          ∗ (∃ X, ⌜(rdat m c).after 0 t (Y 0) X⌝ ∗ owns (c : Thread nD τ) (st0_0 t) fullShare X)
          ∗ (∃ X, ⌜(rdat m c).after 1 t (Y 1) X⌝ ∗ owns (c : Thread nD τ) (st0_1 t) fullShare X)
          ∗ (∃ X, ⌜(rdat m c).after 2 t (Y 2) X⌝ ∗ owns (c : Thread nD τ) (st0_2 t) fullShare X)
          ∗ (∃ X, ⌜(rdat m c).after 3 t (Y 3) X⌝ ∗ owns (c : Thread nD τ) (st0_3 t) fullShare X)
          ∗ (∃ X, ⌜(rdat m c).after 4 t (Y 4) X⌝ ∗ owns (c : Thread nD τ) (st0_4 t) fullShare X))) := by
  rw [e0, e1, e2, e3, Phi_eq, Phi_eq]
  unfold inv bodyAt0
  rw [show (rdat m c).owesAt () t.succ = (rdat m c).owesAt () t.castSucc from rfl]
  have hN : t.val < 128 := lt_of_lt_of_eq t.isLt N_eq
  have e : (t.succ : Fin (cfg0.N + 1)).val - 1 = t.val := by rw [Fin.val_succ]; omega
  iintro ⟨⟨%d0, %d1, %hd, HP, HM, HR⟩, Ho, H0, H1, H2, H3, H4⟩
  have hd' : t.val ≠ 0 → d0 = projAt m c (t.val - 1) ∧ d1 = maxAt m c (t.val - 1) := hd
  by_cases h0 : t.val % 8 = 0
  · have hc0 : isFirst (grid0.coords t) := (isFirst_iff t).mpr h0
    have hc1 : ¬isLast (grid0.coords t) := fun h => by have := (isLast_iff t).mp h; omega
    iapply ((runFirst c (grid0.coords t) (mem0 t) (whole0 t) (mem1 t) (whole1 t) (mem2 t) (whole2 t) (mem3 t) (whole3 t) (mem4 t) (whole4 t) projM (Memref.isWhole_whole _) maxM (Memref.isWhole_whole _) hc0 hc1 (blk0 m c t) (blk1 m c t) (blk2 m c t) (blk3 m c t) (Y 4) d0 d1).2.2.2 Set.univ _)
    isplitl [H0]; · iexact H0
    isplitl [H1]; · iexact H1
    isplitl [H2]; · iexact H2
    isplitl [H3]; · iexact H3
    isplitl [H4]; · iexact H4
    isplitl [HP]; · iexact HP
    isplitl [HM]; · iexact HM
    iintro ⟨H0, H1, H2, H3, H4, ⟨%f0, HP⟩, ⟨%f1, HM⟩⟩
    isplitl [HP HM HR]
    · iexists (projAt m c t.val); iexists (maxAt m c t.val)
      isplitr; · ipureintro; intro _; exact ⟨congrArg (projAt m c) e.symm, congrArg (maxAt m c) e.symm⟩
      isplitl [HP]
      · unfold owns; iexists _; isplitr
        swap; · iexact HP
        ipureintro
        exact (first_proj c (grid0.coords t) (mem0 t) (whole0 t) (mem1 t) (whole1 t) (mem2 t) (whole2 t) (mem3 t) (whole3 t) (mem4 t) (whole4 t) projM (Memref.isWhole_whole _) maxM (Memref.isWhole_whole _) (blk0 m c t) (blk1 m c t) (blk2 m c t) (blk3 m c t) (Y 4) d0 d1 hc0 hc1 f0).trans (projAt_first m c t h0).symm
      isplitl [HM]
      · unfold owns; iexists _; isplitr
        swap; · iexact HM
        ipureintro
        refine (first_max c (grid0.coords t) (mem0 t) (whole0 t) (mem1 t) (whole1 t) (mem2 t) (whole2 t) (mem3 t) (whole3 t) (mem4 t) (whole4 t) projM (Memref.isWhole_whole _) maxM (Memref.isWhole_whole _) (blk0 m c t) (blk1 m c t) (blk2 m c t) (blk3 m c t) (Y 4) d0 d1 hc0 hc1 f1).trans ?_
        rw [maxAt_first m c t h0, projAt_first m c t h0]
      iexact HR
    isplitl [Ho]; · iexact Ho
    isplitl [H0]
    · iexists _; isplitr
      · ipureintro; exact Eq.mpr (after_0 m c t _ _) rfl
      · iexact H0
    isplitl [H1]
    · iexists _; isplitr
      · ipureintro; exact Eq.mpr (after_1 m c t _ _) rfl
      · iexact H1
    isplitl [H2]
    · iexists _; isplitr
      · ipureintro; exact Eq.mpr (after_2 m c t _ _) rfl
      · iexact H2
    isplitl [H3]
    · iexists _; isplitr
      · ipureintro; exact Eq.mpr (after_3 m c t _ _) rfl
      · iexact H3
    iexists _; isplitr
    · ipureintro; exact Eq.mpr (after_4 m c t _ _) rfl
    unfold owns; iexists _; isplitr
    swap; · iexact H4
    ipureintro
    refine (first_out c (grid0.coords t) (mem0 t) (whole0 t) (mem1 t) (whole1 t) (mem2 t) (whole2 t) (mem3 t) (whole3 t) (mem4 t) (whole4 t) projM (Memref.isWhole_whole _) maxM (Memref.isWhole_whole _) (blk0 m c t) (blk1 m c t) (blk2 m c t) (blk3 m c t) (Y 4) d0 d1 hc0 hc1).trans ?_
    rw [out4_rest m c t (Y 4) (by omega), scoresAt_eq, projAt_first m c t h0]
  · obtain ⟨rfl, rfl⟩ := hd' (fun h => h0 (by rw [h]))
    have hc0 : ¬isFirst (grid0.coords t) := fun h => h0 ((isFirst_iff t).mp h)
    by_cases h7 : t.val % 8 = 7
    · have hc1 : isLast (grid0.coords t) := (isLast_iff t).mpr h7
      iapply ((runLast c (grid0.coords t) (mem0 t) (whole0 t) (mem1 t) (whole1 t) (mem2 t) (whole2 t) (mem3 t) (whole3 t) (mem4 t) (whole4 t) projM (Memref.isWhole_whole _) maxM (Memref.isWhole_whole _) hc0 hc1 (blk0 m c t) (blk1 m c t) (blk2 m c t) (blk3 m c t) (Y 4) (projAt m c (t.val - 1)) (maxAt m c (t.val - 1))).2.2 Set.univ _)
      isplitl [H0]; · iexact H0
      isplitl [H1]; · iexact H1
      isplitl [H2]; · iexact H2
      isplitl [H3]; · iexact H3
      isplitl [H4]; · iexact H4
      isplitl [HP]; · iexact HP
      isplitl [HM]; · iexact HM
      iintro ⟨H0, H1, H2, H3, H4, HP, ⟨%f1, HM⟩⟩
      isplitl [HP HM HR]
      · iexists (projAt m c t.val); iexists (maxAt m c t.val)
        isplitr; · ipureintro; intro _; exact ⟨congrArg (projAt m c) e.symm, congrArg (maxAt m c) e.symm⟩
        isplitl [HP]
        · rw [projAt_rest m c t.val h0]; iexact HP
        isplitl [HM]
        · unfold owns; iexists _; isplitr
          swap; · iexact HM
          ipureintro
          refine (last_max c (grid0.coords t) (mem0 t) (whole0 t) (mem1 t) (whole1 t) (mem2 t) (whole2 t) (mem3 t) (whole3 t) (mem4 t) (whole4 t) projM (Memref.isWhole_whole _) maxM (Memref.isWhole_whole _) (blk0 m c t) (blk1 m c t) (blk2 m c t) (blk3 m c t) (Y 4) (projAt m c (t.val - 1)) (maxAt m c (t.val - 1)) hc0 hc1 f1).trans ?_
          rw [maxAt_rest m c t h0, projAt_rest m c t.val h0]
        iexact HR
      isplitl [Ho]; · iexact Ho
      isplitl [H0]
      · iexists _; isplitr
        · ipureintro; exact Eq.mpr (after_0 m c t _ _) rfl
        · iexact H0
      isplitl [H1]
      · iexists _; isplitr
        · ipureintro; exact Eq.mpr (after_1 m c t _ _) rfl
        · iexact H1
      isplitl [H2]
      · iexists _; isplitr
        · ipureintro; exact Eq.mpr (after_2 m c t _ _) rfl
        · iexact H2
      isplitl [H3]
      · iexists _; isplitr
        · ipureintro; exact Eq.mpr (after_3 m c t _ _) rfl
        · iexact H3
      iexists _; isplitr
      · ipureintro; exact Eq.mpr (after_4 m c t _ _) rfl
      unfold owns; iexists _; isplitr
      swap; · iexact H4
      ipureintro
      refine (last_out c (grid0.coords t) (mem0 t) (whole0 t) (mem1 t) (whole1 t) (mem2 t) (whole2 t) (mem3 t) (whole3 t) (mem4 t) (whole4 t) projM (Memref.isWhole_whole _) maxM (Memref.isWhole_whole _) (blk0 m c t) (blk1 m c t) (blk2 m c t) (blk3 m c t) (Y 4) (projAt m c (t.val - 1)) (maxAt m c (t.val - 1)) hc0 hc1).trans ?_
      rw [out4_last m c t (Y 4) h7, scoresAt_eq, maxAt_rest m c t h0, projAt_rest m c t.val h0]
    · have hc1 : ¬isLast (grid0.coords t) := fun h => h7 ((isLast_iff t).mp h)
      iapply ((runMiddle c (grid0.coords t) (mem0 t) (whole0 t) (mem1 t) (whole1 t) (mem2 t) (whole2 t) (mem3 t) (whole3 t) (mem4 t) (whole4 t) projM (Memref.isWhole_whole _) maxM (Memref.isWhole_whole _) hc0 hc1 (blk0 m c t) (blk1 m c t) (blk2 m c t) (blk3 m c t) (Y 4) (projAt m c (t.val - 1)) (maxAt m c (t.val - 1))).2.2 Set.univ _)
      isplitl [H0]; · iexact H0
      isplitl [H1]; · iexact H1
      isplitl [H2]; · iexact H2
      isplitl [H3]; · iexact H3
      isplitl [H4]; · iexact H4
      isplitl [HP]; · iexact HP
      isplitl [HM]; · iexact HM
      iintro ⟨H0, H1, H2, H3, H4, HP, ⟨%f1, HM⟩⟩
      isplitl [HP HM HR]
      · iexists (projAt m c t.val); iexists (maxAt m c t.val)
        isplitr; · ipureintro; intro _; exact ⟨congrArg (projAt m c) e.symm, congrArg (maxAt m c) e.symm⟩
        isplitl [HP]
        · rw [projAt_rest m c t.val h0]; iexact HP
        isplitl [HM]
        · unfold owns; iexists _; isplitr
          swap; · iexact HM
          ipureintro
          refine (middle_max c (grid0.coords t) (mem0 t) (whole0 t) (mem1 t) (whole1 t) (mem2 t) (whole2 t) (mem3 t) (whole3 t) (mem4 t) (whole4 t) projM (Memref.isWhole_whole _) maxM (Memref.isWhole_whole _) (blk0 m c t) (blk1 m c t) (blk2 m c t) (blk3 m c t) (Y 4) (projAt m c (t.val - 1)) (maxAt m c (t.val - 1)) hc0 hc1 f1).trans ?_
          rw [maxAt_rest m c t h0, projAt_rest m c t.val h0]
        iexact HR
      isplitl [Ho]; · iexact Ho
      isplitl [H0]
      · iexists _; isplitr
        · ipureintro; exact Eq.mpr (after_0 m c t _ _) rfl
        · iexact H0
      isplitl [H1]
      · iexists _; isplitr
        · ipureintro; exact Eq.mpr (after_1 m c t _ _) rfl
        · iexact H1
      isplitl [H2]
      · iexists _; isplitr
        · ipureintro; exact Eq.mpr (after_2 m c t _ _) rfl
        · iexact H2
      isplitl [H3]
      · iexists _; isplitr
        · ipureintro; exact Eq.mpr (after_3 m c t _ _) rfl
        · iexact H3
      iexists _; isplitr
      · ipureintro; exact Eq.mpr (after_4 m c t _ _) rfl
      unfold owns; iexists _; isplitr
      swap; · iexact H4
      ipureintro
      refine (middle_out c (grid0.coords t) (mem0 t) (whole0 t) (mem1 t) (whole1 t) (mem2 t) (whole2 t) (mem3 t) (whole3 t) (mem4 t) (whole4 t) projM (Memref.isWhole_whole _) maxM (Memref.isWhole_whole _) (blk0 m c t) (blk1 m c t) (blk2 m c t) (blk3 m c t) (Y 4) (projAt m c (t.val - 1)) (maxAt m c (t.val - 1)) hc0 hc1).trans ?_
      rw [out4_rest m c t (Y 4) h7, scoresAt_eq, projAt_rest m c t.val h0]

/-- The library's relational body obligation, at every point: the inputs are found at their blocks. -/
theorem body_obligation (c : Dev nD) :
    (rdat m c).BodyObligation (defs₀ (F := F)) Variants.none () Set.univ := by
  intro t Y hY
  rw [bigSep_W0, bigSep_W0]
  exact sound_body m c t Y (finds_0 m c t (Y 0) (hY 0)) (finds_1 m c t (Y 1) (hY 1)) (finds_2 m c t (Y 2) (hY 2))
    (finds_3 m c t (Y 3) (hY 3))

end Cert.Kernel.Body

end
-- ==== Proof.KernelBody.Frame.lean ====
/-
  The frame of the attention kernel: launch and read-back.

  Before the first point the two scratch buffers hold anything, which is all the invariant asks there; after the last
  point what they hold is forgotten. With the body obligation this launches the pipeline, and every weakly fair
  execution of the program terminates with each windowed array at contents the relational data allows. An input
  array is never written, and the one argument no window stages bypasses the region: so the three arguments end as
  they were.
-/
import proofs.«161438_j65661460021977_2_alg».proof.Proof.KernelBody.Obligation
set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the launch hands the region yields the invariant before the first point. -/
theorem inv_in (c : Dev nD) : (Pipeline.ΦA spec0 c : sProp 𝕄) ⊢ inv m c 0 := by
  rw [scratch_eq]; unfold inv
  iintro ⟨⟨⟨%d0, HP⟩, ⟨%d1, HM⟩⟩, HR⟩
  iexists d0; iexists d1
  isplitr; · ipureintro; intro h; exact absurd rfl h
  isplitl [HP]; · iexact HP
  isplitl [HM]; · iexact HM
  iexact HR

/-- The invariant after the last point yields back what the launch handed over. -/
theorem inv_out (c : Dev nD) : inv m c (Fin.last cfg0.N) ⊢ (Pipeline.ΦA spec0 c : sProp 𝕄) := by
  rw [scratch_eq]; unfold inv
  iintro ⟨%d0, %d1, %hd, HP, HM, HR⟩
  isplitl [HP HM]
  · isplitl [HP]; · iexists d0; iexact HP
    iexists d1; iexact HM
  iexact HR

set_option backward.isDefEq.respectTransparency.types false in
/-- Every weakly fair execution of the program terminates, with every windowed array at contents the relational data
    allows after all write-backs and every other unscoped buffer as the region found it. -/
theorem run_main : θ_run defs (onTc (τ := τ) (main (F := F))) (s₀ m ρ) (Pipeline.RDat.FramePost cfg0 (rdat m) (V m)) :=
  Pipeline.RDat.θ_run_frame_track cfgs (0 : Fin 1) launch0 defs₀ Variants.none (rdat m) m ρ main
    (hbody := body_obligation m) (hshare := fun c => (rdat m c).share_full fun _ => rfl)
    (howed := fun _ _ => rfl) (V := V m) (hmain := hmain m Variants.none) (hA := A_eq m)
    (hin := inv_in m) (hout := inv_out m)

/-- The frame: the three argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(Eq.mp (congrFun ((rdat m c).ArrAt_in 2 rfl cfg0.N) _) ((h c).1 2)).trans ((A_eq m c 2).trans (V_main_arg0 m c)),
      ((h c).2 main_arg1 (Pipeline.mem_restRefs_of main_arg1 (by decide) (by decide))).trans (V_main_arg1 m c),
      (Eq.mp (congrFun ((rdat m c).ArrAt_in 3 rfl cfg0.N) _) ((h c).1 3)).trans ((A_eq m c 3).trans (V_main_arg2 m c))⟩)
    (run_main m ρ)

end Cert.Kernel.Body

end
-- ==== Proof.IdealBody.Cases.lean ====
/-
  The three kinds of grid point of the attention kernel, and the buffers its body is called with.

  The grid is 16 row blocks by 8 key chunks, the chunk coordinate running fastest, so point `t` works on chunk
  `t % 8` of row block `t / 8`. The body's first conditional (project the query rows, reset the running
  maximum) is taken exactly when the chunk is 0; its second (normalise the completed block) exactly when the chunk
  is 7. Both are decided here once over the 128 points.
-/
import proofs.«161438_j65661460021977_2_alg».proof.Proof.Gen.KernelIdeal.Frame
import proofs.«161438_j65661460021977_2_alg».proof.Proof.Gen.KernelIdeal.Skeleton
import Idealize.ShloMosaic.Lib.Pipeline.FrameBody
import Idealize.ShloMosaic.Lib.Ring
import Idealize.ShloMosaic.Lib.Tactic

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The first conditional's test, as the body computes it from the chunk coordinate. -/
abbrev isFirst (i : grid0.Coords) : Prop := (Scalar.cmpi .ne (Scalar.extui (Scalar.cmpi .eq (BitVec.ofNat 32 (i 1).val) 0#32)) 0#32) = 1#1
/-- It holds at the points of chunk 0. -/
theorem isFirst_iff : ∀ t : Fin cfg0.N, isFirst (grid0.coords t) ↔ t.val % 8 = 0 :=
  (by decide +kernel : ∀ t : Fin grid0.N, isFirst (grid0.coords t) ↔ t.val % 8 = 0)

/-- The second conditional's test. -/
abbrev isLast (i : grid0.Coords) : Prop := (Scalar.cmpi .ne (Scalar.extui (Scalar.cmpi .eq (BitVec.ofNat 32 (i 1).val) 7#32)) 0#32) = 1#1
/-- It holds at the points of chunk 7. -/
theorem isLast_iff : ∀ t : Fin cfg0.N, isLast (grid0.coords t) ↔ t.val % 8 = 7 :=
  (by decide +kernel : ∀ t : Fin grid0.N, isLast (grid0.coords t) ↔ t.val % 8 = 7)

/-- The chunk coordinate of point `t` is `t % 8`, -/
theorem coord_chunk : ∀ t : Fin cfg0.N, ((grid0.coords t) 1).val = t.val % 8 :=
  (by decide +kernel : ∀ t : Fin grid0.N, ((grid0.coords t) 1).val = t.val % 8)
/-- and its row-block coordinate `t / 8`. -/
theorem coord_rows : ∀ t : Fin cfg0.N, ((grid0.coords t) 0).val = t.val / 8 :=
  (by decide +kernel : ∀ t : Fin grid0.N, ((grid0.coords t) 0).val = t.val / 8)

/-- Each window's current staging memref at point `t`, as the pipeline passes it to the body, and its wholeness. -/
abbrev mem0 (t : Fin cfg0.N) : Memref sig .tc .vmem S256x2048 .bf16 := win0_0.stage (cfg0.slots t 0)
abbrev whole0 (t : Fin cfg0.N) : (mem0 t).IsWhole := hstage0_0 ((cfg0.slots t 0).cast nbuf0_0)
abbrev mem1 (t : Fin cfg0.N) : Memref sig .tc .vmem S2048x2048 .bf16 := win0_1.stage (cfg0.slots t 1)
abbrev whole1 (t : Fin cfg0.N) : (mem1 t).IsWhole := hstage0_1 ((cfg0.slots t 1).cast nbuf0_1)
abbrev mem2 (t : Fin cfg0.N) : Memref sig .tc .vmem S512x2048 .f32 := win0_2.stage (cfg0.slots t 2)
abbrev whole2 (t : Fin cfg0.N) : (mem2 t).IsWhole := hstage0_2 ((cfg0.slots t 2).cast nbuf0_2)
abbrev mem3 (t : Fin cfg0.N) : Memref sig .tc .vmem S1 .f32 := win0_3.stage (cfg0.slots t 3)
abbrev whole3 (t : Fin cfg0.N) : (mem3 t).IsWhole := hstage0_3 ((cfg0.slots t 3).cast nbuf0_3)
abbrev mem4 (t : Fin cfg0.N) : Memref sig .tc .vmem S256x4096 .f32 := win0_4.stage (cfg0.slots t 4)
abbrev whole4 (t : Fin cfg0.N) : (mem4 t).IsWhole := hstage0_4 ((cfg0.slots t 4).cast nbuf0_4)
/-- The two scratch operands: the projected query rows, and the running row maximum. -/
abbrev projM : Memref sig .tc .vmem S256x2048 .f32 := Memref.whole cc0_scratch0
abbrev maxM : Memref sig .tc .vmem S256x1 .f32 := Memref.whole cc0_scratch1

/-- What the launch hands the region besides the windows: the two scratch buffers at some contents and the generator
    register at some state. -/
theorem scratch_eq (c : Dev nD) :
    (Pipeline.ΦA spec0 c : sProp 𝕄)
      = iprop(iprop((∃ d, owns (c : Thread nD τ) projM fullShare d) ∗ (∃ d, owns (c : Thread nD τ) maxM fullShare d)) ∗ (∃ r, prngReg c r)) := by
  unfold Pipeline.ΦA; rw [scopedRest0_eq]; simp only [projM, maxM, owns_whole]; try rfl

end Cert.KernelIdeal.Body

end
-- ==== Proof.IdealBody.RunFirst.lean ====
/-
  The body at the first chunk of a row block.

  The first conditional is taken: the body projects the query rows into the first scratch buffer and fills the
  running maximum with −∞; then, as at every chunk, it writes this chunk's scores into its 512 columns of the output
  block and folds the chunk's row maxima into the running maximum. Whatever the two scratch buffers held before is
  overwritten. The run names what each written buffer ends with as a list of stores, found by executing the body
  symbolically.
-/
import proofs.«161438_j65661460021977_2_alg».proof.Proof.IdealBody.Cases
import Idealize.ShloMosaic.Lib.Pipeline.FrameBody
import Idealize.ShloMosaic.Lib.Ring
import Idealize.ShloMosaic.Lib.Tactic

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The stores the body leaves in the output block, the projected rows and the running maximum at a first chunk, with
    the proof that from the inputs at their blocks, the output block at `y4` and the scratch buffers at anything the
    body runs to any continuation that accepts the inputs as they were, the output block with its store over `y4`, and
    each scratch buffer with its stores over anything. -/
noncomputable def runFirst (c : Dev nD) (i : grid0.Coords) (arg2 : Memref sig .tc .vmem S256x2048 .bf16) (harg2 : arg2.IsWhole) (arg3 : Memref sig .tc .vmem S2048x2048 .bf16) (harg3 : arg3.IsWhole) (arg4 : Memref sig .tc .vmem S512x2048 .f32) (harg4 : arg4.IsWhole) (arg5 : Memref sig .tc .vmem S1 .f32) (harg5 : arg5.IsWhole) (arg6 : Memref sig .tc .vmem S256x4096 .f32) (harg6 : arg6.IsWhole) (arg7 : Memref sig .tc .vmem S256x2048 .f32) (harg7 : arg7.IsWhole) (arg8 : Memref sig .tc .vmem S256x1 .f32) (harg8 : arg8.IsWhole) (hc0 : isFirst i) (hc1 : ¬isLast i)
    (x0 : Vec F S256x2048 .bf16) (x1 : Vec F S2048x2048 .bf16) (x2 : Vec F S512x2048 .f32) (x3 : Vec F S1 .f32) (y4 : Vec F S256x4096 .f32) (xs0 : Vec F S256x2048 .f32) (xs1 : Vec F S256x1 .f32) :
    Σ' (L4 : List (View.Piece (Elt F) S256x4096 .f32)) (LS0 : List (View.Piece (Elt F) S256x2048 .f32)), { LS1 : List (View.Piece (Elt F) S256x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare y4 ∗ owns (c : Thread nD τ) arg7 fullShare xs0 ∗ owns (c : Thread nD τ) arg8 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ (arg6.view.loc (c : Thread nD τ) ↦[arg6.view.set]{fullShare} arg6.view.writes (Elt F) (harg6.unread y4) L4) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0__attn_kernel i arg2 harg2 arg3 harg3 arg4 harg4 arg5 harg5 arg6 harg6 arg7 harg7 arg8 harg8) K } := by
  refine ⟨?_, ?_, ?_, fun E K => ?run⟩
  case run =>
    simp only [cc0__attn_kernel_eq_skeleton]; unfold cc0__attn_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0; obtain rfl := harg8.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexact H4
    isplitl [HS0]
    · iexists _; iexact HS0
    iexists _; iexact HS1

end Cert.KernelIdeal.Body

end
-- ==== Proof.IdealBody.RunMiddle.lean ====
/-
  The body at a point of a middle chunk (neither the first nor the last of its row block).

  Neither conditional is taken. The body reads the projected query rows and the running maximum left by the point
  before, writes this chunk's scores into its 512 columns of the output block — whose other columns stay as they
  were handed over — and stores the updated running maximum. The run below names what each written buffer ends with
  as a list of stores over what it held, found by executing the body symbolically.
-/
import proofs.«161438_j65661460021977_2_alg».proof.Proof.IdealBody.Cases
import Idealize.ShloMosaic.Lib.Pipeline.FrameBody
import Idealize.ShloMosaic.Lib.Ring
import Idealize.ShloMosaic.Lib.Tactic

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The stores the body leaves in the running-maximum scratch and in the output block at a middle chunk, with the
    proof that from the inputs at their blocks, the output block at `y4`, the projected rows at `xs0` and the
    running maximum at `xs1`, the body runs to any continuation that accepts the inputs and the projected rows as
    they were, the running maximum with its store over anything, and the output block with its store over `y4`. -/
noncomputable def runMiddle (c : Dev nD) (i : grid0.Coords) (arg2 : Memref sig .tc .vmem S256x2048 .bf16) (harg2 : arg2.IsWhole) (arg3 : Memref sig .tc .vmem S2048x2048 .bf16) (harg3 : arg3.IsWhole) (arg4 : Memref sig .tc .vmem S512x2048 .f32) (harg4 : arg4.IsWhole) (arg5 : Memref sig .tc .vmem S1 .f32) (harg5 : arg5.IsWhole) (arg6 : Memref sig .tc .vmem S256x4096 .f32) (harg6 : arg6.IsWhole) (arg7 : Memref sig .tc .vmem S256x2048 .f32) (harg7 : arg7.IsWhole) (arg8 : Memref sig .tc .vmem S256x1 .f32) (harg8 : arg8.IsWhole) (hc0 : ¬isFirst i) (hc1 : ¬isLast i)
    (x0 : Vec F S256x2048 .bf16) (x1 : Vec F S2048x2048 .bf16) (x2 : Vec F S512x2048 .f32) (x3 : Vec F S1 .f32) (y4 : Vec F S256x4096 .f32) (xs0 : Vec F S256x2048 .f32) (xs1 : Vec F S256x1 .f32) :
    Σ' (L4 : List (View.Piece (Elt F) S256x4096 .f32)), { LS1 : List (View.Piece (Elt F) S256x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare y4 ∗ owns (c : Thread nD τ) arg7 fullShare xs0 ∗ owns (c : Thread nD τ) arg8 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ (arg6.view.loc (c : Thread nD τ) ↦[arg6.view.set]{fullShare} arg6.view.writes (Elt F) (harg6.unread y4) L4) ∗ owns (c : Thread nD τ) arg7 fullShare xs0 ∗ (∃ f, arg8.view.loc (c : Thread nD τ) ↦[arg8.view.set]{fullShare} arg8.view.writes (Elt F) f LS1)) -∗ K ⟨⟩))
          ⊢ wp frame (wpE (defs₀ (F := F)) Variants.none c none) E (cc0__attn_kernel i arg2 harg2 arg3 harg3 arg4 harg4 arg5 harg5 arg6 harg6 arg7 harg7 arg8 harg8) K } := by
  refine ⟨?_, ?_, fun E K => ?run⟩
  case run =>
    simp only [cc0__attn_kernel_eq_skeleton]; unfold cc0__attn_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0; obtain rfl := harg8.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexact H4
    isplitl [HS0]
    · iexists _; isplitr; · ipureintro; exact harg7.read_unread _
      iexact HS0
    iexists _; iexact HS1

end Cert.KernelIdeal.Body

end
-- ==== Proof.IdealBody.RunLast.lean ====
/-
  The body at the last chunk of a row block.

  The first conditional is not taken, the second is. The body writes the last chunk's scores into columns 3584 … 4095
  of the output block and folds their row maxima into the running maximum; then it reads the completed block and the
  final maximum back and overwrites the whole block with the row-normalised exponentials. The projected rows are
  read, not written. The run names what each written buffer ends with as a list of stores, found by executing the
  body symbolically.
-/
import proofs.«161438_j65661460021977_2_alg».proof.Proof.IdealBody.Cases
import Idealize.ShloMosaic.Lib.Pipeline.FrameBody
import Idealize.ShloMosaic.Lib.Ring
import Idealize.ShloMosaic.Lib.Tactic

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The stores the body leaves in the output block and the running maximum at a last chunk, with the proof that
    from the inputs at their blocks, the output block at `y4`, the projected rows at `xs0` and the running maximum
    at `xs1` the body runs to any continuation that accepts the inputs and the projected rows as they were, the
    output block with its stores over `y4`, and the running maximum with its store over anything. -/
noncomputable def runLast (c : Dev nD) (i : grid0.Coords) (arg2 : Memref sig .tc .vmem S256x2048 .bf16) (harg2 : arg2.IsWhole) (arg3 : Memref sig .tc .vmem S2048x2048 .bf16) (harg3 : arg3.IsWhole) (arg4 : Memref sig .tc .vmem S512x2048 .f32) (harg4 : arg4.IsWhole) (arg5 : Memref sig .tc .vmem S1 .f32) (harg5 : arg5.IsWhole) (arg6 : Memref sig .tc .vmem S256x4096 .f32) (harg6 : arg6.IsWhole) (arg7 : Memref sig .tc .vmem S256x2048 .f32) (harg7 : arg7.IsWhole) (arg8 : Memref sig .tc .vmem S256x1 .f32) (harg8 : arg8.IsWhole) (hc0 : ¬isFirst i) (hc1 : isLast i)
    (x0 : Vec F S256x2048 .bf16) (x1 : Vec F S2048x2048 .bf16) (x2 : Vec F S512x2048 .f32) (x3 : Vec F S1 .f32) (y4 : Vec F S256x4096 .f32) (xs0 : Vec F S256x2048 .f32) (xs1 : Vec F S256x1 .f32) :
    Σ' (L4 : List (View.Piece (Elt F) S256x4096 .f32)), { LS1 : List (View.Piece (Elt F) S256x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare y4 ∗ owns (c : Thread nD τ) arg7 fullShare xs0 ∗ owns (c : Thread nD τ) arg8 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ (arg6.view.loc (c : Thread nD τ) ↦[arg6.view.set]{fullShare} arg6.view.writes (Elt F) (harg6.unread y4) L4) ∗ owns (c : Thread nD τ) arg7 fullShare xs0 ∗ (∃ f, arg8.view.loc (c : Thread nD τ) ↦[arg8.view.set]{fullShare} arg8.view.writes (Elt F) f LS1)) -∗ K ⟨⟩))
          ⊢ wp frame (wpE (defs₀ (F := F)) Variants.none c none) E (cc0__attn_kernel i arg2 harg2 arg3 harg3 arg4 harg4 arg5 harg5 arg6 harg6 arg7 harg7 arg8 harg8) K } := by
  refine ⟨?_, ?_, fun E K => ?run⟩
  case run =>
    simp only [cc0__attn_kernel_eq_skeleton]; unfold cc0__attn_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0; obtain rfl := harg8.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexact H4
    isplitl [HS0]
    · iexists _; isplitr; · ipureintro; exact harg7.read_unread _
      iexact HS0
    iexists _; iexact HS1

end Cert.KernelIdeal.Body

end
-- ==== Proof.IdealBody.Closed.lean ====
/-
  What each kind of point leaves in the buffers it writes, in closed form.

  The three runs of the body name the final contents of a written buffer as a list of stores over what the buffer
  held. Read back, such a list is a function of the body's loads alone:
  * a store through the whole buffer, last, leaves its payload;
  * a single store through a rectangle, over contents `Y`, leaves the payload inside the rectangle and `Y` outside it.
  With these, at every chunk the output block ends as the handed block with the chunk's 512 columns replaced by the
  chunk's scores (and, at the last chunk, normalised as a whole); the projected rows are written at the first chunk
  only; and the running maximum is folded once per chunk.
-/
import proofs.«161438_j65661460021977_2_alg».proof.Proof.IdealBody.RunFirst
import proofs.«161438_j65661460021977_2_alg».proof.Proof.IdealBody.RunMiddle
import proofs.«161438_j65661460021977_2_alg».proof.Proof.IdealBody.RunLast
import Idealize.ShloMosaic.Lib.Pipeline.Value
set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The two-axis and one-axis zero offsets, as the constant function. -/
theorem zero2 : (![0, 0] : Fin 2 → ℕ) = fun _ => 0 := by
  funext a; match a with | ⟨0, _⟩ => rfl | ⟨1, _⟩ => rfl
theorem zero1 : (![0] : Fin 1 → ℕ) = fun _ => 0 := by
  funext a; match a with | ⟨0, _⟩ => rfl

section Reading

variable {s : Shape} {e : EltTy}

/-- A load of a whole buffer held at contents `X` reads `X`. -/
theorem readAt_whole (mr : Memref sig .tc .vmem s e) (h : mr.IsWhole) {off : Fin s.rank → ℕ} (hz : off = fun _ => 0)
    (inb : ∀ a, off a + s.size a ≤ s.size a) (X : s.Idx → Elt F e) :
    View.readAt (Elt F) mr.view (Rect.unit off s.size inb).toLoadRect (h.unread X) = X := by
  rw [View.readAt_eq_ld, h.read_unread]; exact View.ld_unit_zero hz inb X

/-- A load of a whole buffer after one store through all of it reads the store's payload. -/
theorem readCov_whole (mr : Memref sig .tc .vmem s e) {off : Fin s.rank → ℕ} (hz : off = fun _ => 0)
    (inb : ∀ a, off a + s.size a ≤ s.size a) (w : s.Idx → Elt F e) :
    mr.view.readCov [(⟨Rect.unit off s.size inb, w⟩ : View.Piece (Elt F) s e)] (Rect.unit off s.size inb).toLoadRect = w :=
  View.readCov_unit_zero mr.view hz inb w

/-- Stores ending with one through the whole buffer leave that store's payload. -/
theorem read_writes_whole (mr : Memref sig .tc .vmem s e) (f : mr.view.ty.Contents (Elt F)) {off : Fin s.rank → ℕ}
    (hz : off = fun _ => 0) (inb : ∀ a, off a + s.size a ≤ s.size a) (w : s.Idx → Elt F e) (L : List (View.Piece (Elt F) s e)) :
    mr.view.read (Elt F) (mr.view.writes (Elt F) f ((⟨Rect.unit off s.size inb, w⟩ : View.Piece (Elt F) s e) :: L)) = w := by
  rw [View.read_writes_eq_canon mr.view f _ (fun y => ⟨_, List.mem_cons_self, View.mem_set_unit_zero hz inb y⟩),
    View.canon_cons_unit_zero hz inb]

/-- One store through a rectangle `r` over contents `Y`: the payload inside `r`, `Y` outside. -/
theorem read_writes_over (mr : Memref sig .tc .vmem s e) (h : mr.IsWhole) (Y : s.Idx → Elt F e) (r : Rect s)
    (w : r.shape.Idx → Elt F e) :
    mr.view.read (Elt F) (mr.view.writes (Elt F) (h.unread Y) [(⟨r, w⟩ : View.Piece (Elt F) s e)]) = r.overlay Y w := by
  funext y
  by_cases hy : y ∈ r.set
  · obtain ⟨x, rfl⟩ := r.exists_idx_of_mem hy
    rw [show r.idx x = r.emb x from rfl, View.read_writes_cons_emb]; exact (r.overlay_emb Y w x).symm
  · rw [View.writes_cons, View.writes_nil, View.read_slice_write_of_not_mem r _ _ _ (by rwa [Rect.map_emb_univ]),
      h.read_unread]; exact (r.overlay_of_not_mem Y w hy).symm

end Reading

/-- The 256 × 512 rectangle of the output block that the chunk of grid point `i` writes: all rows, the columns
    starting at the offset the body computes from the chunk coordinate. -/
abbrev colRect (i : grid0.Coords) : Rect S256x4096 := Rect.unit (s := S256x4096) (k0_off1 i) S256x512.size (k0_off1_inb i)

variable (c : Dev nD) (i : grid0.Coords) (arg2 : Memref sig .tc .vmem S256x2048 .bf16) (harg2 : arg2.IsWhole) (arg3 : Memref sig .tc .vmem S2048x2048 .bf16) (harg3 : arg3.IsWhole) (arg4 : Memref sig .tc .vmem S512x2048 .f32) (harg4 : arg4.IsWhole) (arg5 : Memref sig .tc .vmem S1 .f32) (harg5 : arg5.IsWhole) (arg6 : Memref sig .tc .vmem S256x4096 .f32) (harg6 : arg6.IsWhole) (arg7 : Memref sig .tc .vmem S256x2048 .f32) (harg7 : arg7.IsWhole) (arg8 : Memref sig .tc .vmem S256x1 .f32) (harg8 : arg8.IsWhole)
  (x0 : Vec F S256x2048 .bf16) (x1 : Vec F S2048x2048 .bf16) (x2 : Vec F S512x2048 .f32) (x3 : Vec F S1 .f32) (y4 : Vec F S256x4096 .f32) (xs0 : Vec F S256x2048 .f32) (xs1 : Vec F S256x1 .f32)

/-! ### The first chunk -/

theorem first_out (hc0 : isFirst i) (hc1 : ¬isLast i) :
    arg6.view.read (Elt F) (arg6.view.writes (Elt F) (harg6.unread y4) (runFirst c i arg2 harg2 arg3 harg3 arg4 harg4 arg5 harg5 arg6 harg6 arg7 harg7 arg8 harg8 hc0 hc1 x0 x1 x2 x3 y4 xs0 xs1).1)
      = (colRect i).overlay y4 (k0_pay3 (k0_pay1 x0 x1) x2 x3) := by
  unfold runFirst; dsimp only; sl_unfold_run_names
  simp only [readAt_whole (s := S256x2048) _ _ zero2, readAt_whole (s := S2048x2048) _ _ zero2, readAt_whole (s := S512x2048) _ _ zero2, readAt_whole (s := S1) _ _ zero1, readAt_whole (s := S256x1) _ _ zero2, readCov_whole (s := S256x2048) _ zero2, readCov_whole (s := S256x1) _ zero2]
  exact read_writes_over arg6 harg6 y4 _ _

theorem first_proj (hc0 : isFirst i) (hc1 : ¬isLast i) (f : arg7.view.ty.Contents (Elt F)) :
    arg7.view.read (Elt F) (arg7.view.writes (Elt F) f (runFirst c i arg2 harg2 arg3 harg3 arg4 harg4 arg5 harg5 arg6 harg6 arg7 harg7 arg8 harg8 hc0 hc1 x0 x1 x2 x3 y4 xs0 xs1).2.1) = k0_pay1 x0 x1 := by
  unfold runFirst; dsimp only; sl_unfold_run_names
  simp only [readAt_whole (s := S256x2048) _ _ zero2, readAt_whole (s := S2048x2048) _ _ zero2, readAt_whole (s := S512x2048) _ _ zero2, readAt_whole (s := S1) _ _ zero1, readAt_whole (s := S256x1) _ _ zero2]
  exact read_writes_whole arg7 f zero2 _ _ _

theorem first_max (hc0 : isFirst i) (hc1 : ¬isLast i) (f : arg8.view.ty.Contents (Elt F)) :
    arg8.view.read (Elt F) (arg8.view.writes (Elt F) f (runFirst c i arg2 harg2 arg3 harg3 arg4 harg4 arg5 harg5 arg6 harg6 arg7 harg7 arg8 harg8 hc0 hc1 x0 x1 x2 x3 y4 xs0 xs1).2.2.1)
      = k0_pay4 (k0_pay1 x0 x1) x2 x3 k0_pay2 := by
  unfold runFirst; dsimp only; sl_unfold_run_names
  simp only [readAt_whole (s := S256x2048) _ _ zero2, readAt_whole (s := S2048x2048) _ _ zero2, readAt_whole (s := S512x2048) _ _ zero2, readAt_whole (s := S1) _ _ zero1, readAt_whole (s := S256x1) _ _ zero2, readCov_whole (s := S256x2048) _ zero2, readCov_whole (s := S256x1) _ zero2]
  exact read_writes_whole arg8 f zero2 _ _ _

/-! ### A middle chunk -/

theorem middle_out (hc0 : ¬isFirst i) (hc1 : ¬isLast i) :
    arg6.view.read (Elt F) (arg6.view.writes (Elt F) (harg6.unread y4) (runMiddle c i arg2 harg2 arg3 harg3 arg4 harg4 arg5 harg5 arg6 harg6 arg7 harg7 arg8 harg8 hc0 hc1 x0 x1 x2 x3 y4 xs0 xs1).1)
      = (colRect i).overlay y4 (k0_pay3 xs0 x2 x3) := by
  unfold runMiddle; dsimp only; sl_unfold_run_names
  simp only [readAt_whole (s := S256x2048) _ _ zero2, readAt_whole (s := S2048x2048) _ _ zero2, readAt_whole (s := S512x2048) _ _ zero2, readAt_whole (s := S1) _ _ zero1, readAt_whole (s := S256x1) _ _ zero2]
  exact read_writes_over arg6 harg6 y4 _ _

theorem middle_max (hc0 : ¬isFirst i) (hc1 : ¬isLast i) (f : arg8.view.ty.Contents (Elt F)) :
    arg8.view.read (Elt F) (arg8.view.writes (Elt F) f (runMiddle c i arg2 harg2 arg3 harg3 arg4 harg4 arg5 harg5 arg6 harg6 arg7 harg7 arg8 harg8 hc0 hc1 x0 x1 x2 x3 y4 xs0 xs1).2.1)
      = k0_pay4 xs0 x2 x3 xs1 := by
  unfold runMiddle; dsimp only; sl_unfold_run_names
  simp only [readAt_whole (s := S256x2048) _ _ zero2, readAt_whole (s := S2048x2048) _ _ zero2, readAt_whole (s := S512x2048) _ _ zero2, readAt_whole (s := S1) _ _ zero1, readAt_whole (s := S256x1) _ _ zero2]
  exact read_writes_whole arg8 f zero2 _ _ _

/-! ### The last chunk -/

theorem last_out (hc0 : ¬isFirst i) (hc1 : isLast i) :
    arg6.view.read (Elt F) (arg6.view.writes (Elt F) (harg6.unread y4) (runLast c i arg2 harg2 arg3 harg3 arg4 harg4 arg5 harg5 arg6 harg6 arg7 harg7 arg8 harg8 hc0 hc1 x0 x1 x2 x3 y4 xs0 xs1).1)
      = k0_pay5 (k0_pay4 xs0 x2 x3 xs1) ((colRect i).overlay y4 (k0_pay3 xs0 x2 x3)) := by
  unfold runLast; dsimp only; sl_unfold_run_names
  simp only [readAt_whole (s := S256x2048) _ _ zero2, readAt_whole (s := S2048x2048) _ _ zero2, readAt_whole (s := S512x2048) _ _ zero2, readAt_whole (s := S1) _ _ zero1, readAt_whole (s := S256x1) _ _ zero2, readCov_whole (s := S256x2048) _ zero2, readCov_whole (s := S256x1) _ zero2]
  refine (read_writes_whole arg6 _ zero2 _ _ _).trans ?_
  rw [View.readAt_eq_ld, read_writes_over arg6 harg6 y4]
  exact congrArg _ (View.ld_unit_zero zero2 _ _)

theorem last_max (hc0 : ¬isFirst i) (hc1 : isLast i) (f : arg8.view.ty.Contents (Elt F)) :
    arg8.view.read (Elt F) (arg8.view.writes (Elt F) f (runLast c i arg2 harg2 arg3 harg3 arg4 harg4 arg5 harg5 arg6 harg6 arg7 harg7 arg8 harg8 hc0 hc1 x0 x1 x2 x3 y4 xs0 xs1).2.1)
      = k0_pay4 xs0 x2 x3 xs1 := by
  unfold runLast; dsimp only; sl_unfold_run_names
  simp only [readAt_whole (s := S256x2048) _ _ zero2, readAt_whole (s := S2048x2048) _ _ zero2, readAt_whole (s := S512x2048) _ _ zero2, readAt_whole (s := S1) _ _ zero1, readAt_whole (s := S256x1) _ _ zero2]
  exact read_writes_whole arg8 f zero2 _ _ _

end Cert.KernelIdeal.Body

end
-- ==== Proof.IdealBody.Data.lean ====
/-
  The proof data of the attention kernel's one pipeline, stated relationally.

  What the body leaves in the output block at a chunk depends on what it was handed there: the chunk's 512 columns
  are replaced and every other column is kept, so that only after the eighth chunk is the whole block determined by
  the inputs. The data below therefore RELATES the contents handed in to the contents left: an input window is left
  as found; the output window is left as `out4` of what was found. What the two scratch buffers hold is followed
  point by point: after point `n` the first holds the projected query rows of the row block of `n` (`projAt n`:
  computed at the block's first chunk, kept afterwards) and the second the running row maximum over the chunks of
  that block up to `n` (`maxAt n`: started from −∞ at the first chunk).
-/
import proofs.«161438_j65661460021977_2_alg».proof.Proof.IdealBody.Closed
set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-- The grid has 128 points. -/
theorem N_eq : cfg0.N = 128 := N_0

/-- Point number `n` (point 0 for a number beyond the grid, which nothing below reads). -/
def pt (n : ℕ) : Fin cfg0.N := if h : n < cfg0.N then ⟨n, h⟩ else ⟨0, by rw [N_eq]; omega⟩

theorem pt_val (t : Fin cfg0.N) : pt t.val = t := by unfold pt; rw [dif_pos t.isLt]

/-- The four input windows' blocks at a point, at their literal shapes: 256 query rows, the whole weight matrix,
    512 key rows, the bias. -/
def blk0 (c : Dev nD) (t : Fin cfg0.N) : Vec F S256x2048 .bf16 := iblk m c 0 t
def blk1 (c : Dev nD) (t : Fin cfg0.N) : Vec F S2048x2048 .bf16 := iblk m c 1 t
def blk2 (c : Dev nD) (t : Fin cfg0.N) : Vec F S512x2048 .f32 := iblk m c 2 t
def blk3 (c : Dev nD) (t : Fin cfg0.N) : Vec F S1 .f32 := iblk m c 3 t

/-- The projected query rows in the first scratch buffer after point `n`: computed at a first chunk, kept otherwise. -/
def projAt (c : Dev nD) : ℕ → Vec F S256x2048 .f32
  | 0 => k0_pay1 (blk0 m c (pt 0)) (blk1 m c (pt 0))
  | n + 1 => if (n + 1) % 8 = 0 then k0_pay1 (blk0 m c (pt (n + 1))) (blk1 m c (pt (n + 1))) else projAt c n

/-- The running row maximum in the second scratch buffer after point `n`: the chunk's row maxima folded into −∞
    at a first chunk, into what the point before left otherwise. -/
def maxAt (c : Dev nD) : ℕ → Vec F S256x1 .f32
  | 0 => k0_pay4 (projAt m c 0) (blk2 m c (pt 0)) (blk3 m c (pt 0)) k0_pay2
  | n + 1 => k0_pay4 (projAt m c (n + 1)) (blk2 m c (pt (n + 1))) (blk3 m c (pt (n + 1)))
      (if (n + 1) % 8 = 0 then k0_pay2 else maxAt c n)

/-- The 256 × 512 scores the chunk of point `n` writes. -/
def scoresAt (c : Dev nD) (n : ℕ) : Vec F S256x512 .f32 := k0_pay3 (projAt m c n) (blk2 m c (pt n)) (blk3 m c (pt n))

theorem projAt_first (c : Dev nD) (t : Fin cfg0.N) (h : t.val % 8 = 0) :
    projAt m c t.val = k0_pay1 (blk0 m c t) (blk1 m c t) := by
  obtain ⟨n, hn⟩ := t
  cases n with
  | zero => show k0_pay1 (blk0 m c (pt 0)) (blk1 m c (pt 0)) = _; rw [show (pt 0 : Fin cfg0.N) = ⟨0, hn⟩ from pt_val ⟨0, hn⟩]
  | succ n => show (if (n + 1) % 8 = 0 then _ else _) = _; rw [if_pos h, show (pt (n + 1) : Fin cfg0.N) = ⟨n + 1, hn⟩ from pt_val ⟨n + 1, hn⟩]

theorem projAt_rest (c : Dev nD) (n : ℕ) (h : n % 8 ≠ 0) : projAt m c n = projAt m c (n - 1) := by
  cases n with
  | zero => exact absurd (Nat.zero_mod _) h
  | succ n => show (if (n + 1) % 8 = 0 then _ else _) = _; rw [if_neg h]; rfl

theorem maxAt_first (c : Dev nD) (t : Fin cfg0.N) (h : t.val % 8 = 0) :
    maxAt m c t.val = k0_pay4 (projAt m c t.val) (blk2 m c t) (blk3 m c t) k0_pay2 := by
  obtain ⟨n, hn⟩ := t
  cases n with
  | zero => show k0_pay4 _ (blk2 m c (pt 0)) (blk3 m c (pt 0)) _ = _; rw [show (pt 0 : Fin cfg0.N) = ⟨0, hn⟩ from pt_val ⟨0, hn⟩]
  | succ n =>
    show k0_pay4 _ (blk2 m c (pt (n + 1))) (blk3 m c (pt (n + 1))) (if (n + 1) % 8 = 0 then _ else _) = _
    rw [if_pos h, show (pt (n + 1) : Fin cfg0.N) = ⟨n + 1, hn⟩ from pt_val ⟨n + 1, hn⟩]

theorem maxAt_rest (c : Dev nD) (t : Fin cfg0.N) (h : t.val % 8 ≠ 0) :
    maxAt m c t.val = k0_pay4 (projAt m c t.val) (blk2 m c t) (blk3 m c t) (maxAt m c (t.val - 1)) := by
  obtain ⟨n, hn⟩ := t
  cases n with
  | zero => exact absurd (Nat.zero_mod _) h
  | succ n =>
    show k0_pay4 _ (blk2 m c (pt (n + 1))) (blk3 m c (pt (n + 1))) (if (n + 1) % 8 = 0 then _ else _) = _
    rw [if_neg h, show (pt (n + 1) : Fin cfg0.N) = ⟨n + 1, hn⟩ from pt_val ⟨n + 1, hn⟩]; rfl

theorem scoresAt_eq (c : Dev nD) (t : Fin cfg0.N) :
    scoresAt m c t.val = k0_pay3 (projAt m c t.val) (blk2 m c t) (blk3 m c t) := by
  unfold scoresAt; rw [pt_val]

/-- What the body leaves in the output block at point `t`, handed `Y`: `Y` with the chunk's columns replaced by
    the chunk's scores, and at a last chunk the whole of that normalised under the final running maximum. -/
def out4 (c : Dev nD) (t : Fin cfg0.N) (Y : Vec F S256x4096 .f32) : Vec F S256x4096 .f32 :=
  if t.val % 8 = 7 then k0_pay5 (maxAt m c t.val) ((colRect (grid0.coords t)).overlay Y (scoresAt m c t.val))
  else (colRect (grid0.coords t)).overlay Y (scoresAt m c t.val)

/-- The invariant before point `t`: the two scratch buffers at what the point before left (anything before the
    first point), and the generator register at some state. -/
def inv (c : Dev nD) (t : Fin (cfg0.N + 1)) : sProp 𝕄 :=
  iprop(∃ (d0 : Vec F S256x2048 .f32), ∃ (d1 : Vec F S256x1 .f32),
    ⌜t.val ≠ 0 → d0 = projAt m c (t.val - 1) ∧ d1 = maxAt m c (t.val - 1)⌝
      ∗ owns (c : Thread nD τ) projM fullShare d0 ∗ owns (c : Thread nD τ) maxM fullShare d1 ∗ (∃ r, prngReg c r))

/-- The relational proof data on core `c`: the arrays as the region finds them; an input window left as found, the
    output window left as `out4` of what was found; the invariant `inv`; nothing owed; full shares. -/
def rdat (c : Dev nD) : Pipeline.RDat τ (Elt F) Unit ℕ (UR sig nD τ) ℕ cfg0 c where
  A w := V m c (Pipeline.arrRef spec0 w)
  after w t Y X := match w with
    | ⟨0, _⟩ => X = Y
    | ⟨1, _⟩ => X = Y
    | ⟨2, _⟩ => X = Y
    | ⟨3, _⟩ => X = Y
    | ⟨4, _⟩ => X = out4 m c t Y
  Φ t := inv m c t
  q _ := fullShare
  owed _ := 0

theorem A_eq (c : Dev nD) (w : Fin cfg0.W) : (rdat m c).A w = V m c (Pipeline.arrRef spec0 w) := by dsimp only [rdat]
theorem after_0 (c : Dev nD) (t : Fin cfg0.N) (Y X) : (rdat m c).after 0 t Y X = (X = Y) := by dsimp only [rdat]
theorem after_1 (c : Dev nD) (t : Fin cfg0.N) (Y X) : (rdat m c).after 1 t Y X = (X = Y) := by dsimp only [rdat]
theorem after_2 (c : Dev nD) (t : Fin cfg0.N) (Y X) : (rdat m c).after 2 t Y X = (X = Y) := by dsimp only [rdat]
theorem after_3 (c : Dev nD) (t : Fin cfg0.N) (Y X) : (rdat m c).after 3 t Y X = (X = Y) := by dsimp only [rdat]
theorem after_4 (c : Dev nD) (t : Fin cfg0.N) (Y X) : (rdat m c).after 4 t Y X = (X = out4 m c t Y) := by dsimp only [rdat]

/-- Each input window's current buffer holds its block wherever the body is handed it, fetched there or not. -/
theorem finds_0 (c : Dev nD) (t : Fin cfg0.N) (Y) (h : (rdat m c).Finds 0 t Y) : Y = iblk m c 0 t := by
  obtain ⟨d, hd⟩ := (rdat m c).finds_in_eq_fetched 0 rfl (fun _ _ _ => rfl) (fun t Y X h => by rw [after_0] at h; exact h) t Y h
  rw [hd]; unfold Pipeline.RDat.fetched Pipeline.RDat.blockOf iblk; rw [A_eq]; try rfl
theorem finds_1 (c : Dev nD) (t : Fin cfg0.N) (Y) (h : (rdat m c).Finds 1 t Y) : Y = iblk m c 1 t := by
  obtain ⟨d, hd⟩ := (rdat m c).finds_in_eq_fetched 1 rfl (fun _ _ _ => rfl) (fun t Y X h => by rw [after_1] at h; exact h) t Y h
  rw [hd]; unfold Pipeline.RDat.fetched Pipeline.RDat.blockOf iblk; rw [A_eq]; try rfl
theorem finds_2 (c : Dev nD) (t : Fin cfg0.N) (Y) (h : (rdat m c).Finds 2 t Y) : Y = iblk m c 2 t := by
  obtain ⟨d, hd⟩ := (rdat m c).finds_in_eq_fetched 2 rfl (fun _ _ _ => rfl) (fun t Y X h => by rw [after_2] at h; exact h) t Y h
  rw [hd]; unfold Pipeline.RDat.fetched Pipeline.RDat.blockOf iblk; rw [A_eq]; try rfl
theorem finds_3 (c : Dev nD) (t : Fin cfg0.N) (Y) (h : (rdat m c).Finds 3 t Y) : Y = iblk m c 3 t := by
  obtain ⟨d, hd⟩ := (rdat m c).finds_in_eq_fetched 3 rfl (fun _ _ _ => rfl) (fun t Y X h => by rw [after_3] at h; exact h) t Y h
  rw [hd]; unfold Pipeline.RDat.fetched Pipeline.RDat.blockOf iblk; rw [A_eq]; try rfl

end Cert.KernelIdeal.Body

end
-- ==== Proof.IdealBody.Obligation.lean ====
/-
  The body obligation of the attention kernel's pipeline.

  At a point the body is handed the four inputs at their blocks, the output block at whatever the point before left
  there, and the two scratch buffers at what the invariant says. Which of the three runs applies is decided by the
  chunk, `t % 8`: 0 is a first chunk, 7 a last one, anything else a middle one. Each run's stores, read back in
  closed form, are what the relation of the output window and the invariant after the point ask for.
-/
import proofs.«161438_j65661460021977_2_alg».proof.Proof.IdealBody.Data
set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

theorem out4_rest (c : Dev nD) (t : Fin cfg0.N) (Y : Vec F S256x4096 .f32) (h : t.val % 8 ≠ 7) :
    out4 m c t Y = (colRect (grid0.coords t)).overlay Y (scoresAt m c t.val) := if_neg h

theorem out4_last (c : Dev nD) (t : Fin cfg0.N) (Y : Vec F S256x4096 .f32) (h : t.val % 8 = 7) :
    out4 m c t Y = k0_pay5 (maxAt m c t.val) ((colRect (grid0.coords t)).overlay Y (scoresAt m c t.val)) := if_pos h

theorem Phi_eq (c : Dev nD) (t : Fin (cfg0.N + 1)) : (rdat m c).Φ t = inv m c t := by dsimp only [rdat]

set_option maxHeartbeats 1600000 in
/-- The body at any point, on the pipeline's current buffers: handed the inputs at their blocks (`e0` … `e3`) and the
    output block at any contents, it runs to the invariant after the point and every window's relation. -/
theorem sound_body (c : Dev nD) (t : Fin cfg0.N) (Y : (w : Fin cfg0.W) → (cfg0.win w).block.Idx → Elt F (cfg0.win w).elt)
    (e0 : Y 0 = blk0 m c t) (e1 : Y 1 = blk1 m c t) (e2 : Y 2 = blk2 m c t) (e3 : Y 3 = blk3 m c t) :
    iprop((rdat m c).Φ t.castSucc ∗ (rdat m c).owesAt () t.castSucc
        ∗ owns (c : Thread nD τ) (st0_0 t) fullShare (Y 0) ∗ owns (c : Thread nD τ) (st0_1 t) fullShare (Y 1)
        ∗ owns (c : Thread nD τ) (st0_2 t) fullShare (Y 2) ∗ owns (c : Thread nD τ) (st0_3 t) fullShare (Y 3)
        ∗ owns (c : Thread nD τ) (st0_4 t) fullShare (Y 4))
      ⊢ wp frame (wpE (defs₀ (F := F)) Variants.none c none) Set.univ (bodyAt0 t) (fun _ =>
        iprop((rdat m c).Φ t.succ ∗ (rdat m c).owesAt () t.succ
          ∗ (∃ X, ⌜(rdat m c).after 0 t (Y 0) X⌝ ∗ owns (c : Thread nD τ) (st0_0 t) fullShare X)
          ∗ (∃ X, ⌜(rdat m c).after 1 t (Y 1) X⌝ ∗ owns (c : Thread nD τ) (st0_1 t) fullShare X)
          ∗ (∃ X, ⌜(rdat m c).after 2 t (Y 2) X⌝ ∗ owns (c : Thread nD τ) (st0_2 t) fullShare X)
          ∗ (∃ X, ⌜(rdat m c).after 3 t (Y 3) X⌝ ∗ owns (c : Thread nD τ) (st0_3 t) fullShare X)
          ∗ (∃ X, ⌜(rdat m c).after 4 t (Y 4) X⌝ ∗ owns (c : Thread nD τ) (st0_4 t) fullShare X))) := by
  rw [e0, e1, e2, e3, Phi_eq, Phi_eq]
  unfold inv bodyAt0
  rw [show (rdat m c).owesAt () t.succ = (rdat m c).owesAt () t.castSucc from rfl]
  have hN : t.val < 128 := lt_of_lt_of_eq t.isLt N_eq
  have e : (t.succ : Fin (cfg0.N + 1)).val - 1 = t.val := by rw [Fin.val_succ]; omega
  iintro ⟨⟨%d0, %d1, %hd, HP, HM, HR⟩, Ho, H0, H1, H2, H3, H4⟩
  have hd' : t.val ≠ 0 → d0 = projAt m c (t.val - 1) ∧ d1 = maxAt m c (t.val - 1) := hd
  by_cases h0 : t.val % 8 = 0
  · have hc0 : isFirst (grid0.coords t) := (isFirst_iff t).mpr h0
    have hc1 : ¬isLast (grid0.coords t) := fun h => by have := (isLast_iff t).mp h; omega
    iapply ((runFirst c (grid0.coords t) (mem0 t) (whole0 t) (mem1 t) (whole1 t) (mem2 t) (whole2 t) (mem3 t) (whole3 t) (mem4 t) (whole4 t) projM (Memref.isWhole_whole _) maxM (Memref.isWhole_whole _) hc0 hc1 (blk0 m c t) (blk1 m c t) (blk2 m c t) (blk3 m c t) (Y 4) d0 d1).2.2.2 Set.univ _)
    isplitl [H0]; · iexact H0
    isplitl [H1]; · iexact H1
    isplitl [H2]; · iexact H2
    isplitl [H3]; · iexact H3
    isplitl [H4]; · iexact H4
    isplitl [HP]; · iexact HP
    isplitl [HM]; · iexact HM
    iintro ⟨H0, H1, H2, H3, H4, ⟨%f0, HP⟩, ⟨%f1, HM⟩⟩
    isplitl [HP HM HR]
    · iexists (projAt m c t.val); iexists (maxAt m c t.val)
      isplitr; · ipureintro; intro _; exact ⟨congrArg (projAt m c) e.symm, congrArg (maxAt m c) e.symm⟩
      isplitl [HP]
      · unfold owns; iexists _; isplitr
        swap; · iexact HP
        ipureintro
        exact (first_proj c (grid0.coords t) (mem0 t) (whole0 t) (mem1 t) (whole1 t) (mem2 t) (whole2 t) (mem3 t) (whole3 t) (mem4 t) (whole4 t) projM (Memref.isWhole_whole _) maxM (Memref.isWhole_whole _) (blk0 m c t) (blk1 m c t) (blk2 m c t) (blk3 m c t) (Y 4) d0 d1 hc0 hc1 f0).trans (projAt_first m c t h0).symm
      isplitl [HM]
      · unfold owns; iexists _; isplitr
        swap; · iexact HM
        ipureintro
        refine (first_max c (grid0.coords t) (mem0 t) (whole0 t) (mem1 t) (whole1 t) (mem2 t) (whole2 t) (mem3 t) (whole3 t) (mem4 t) (whole4 t) projM (Memref.isWhole_whole _) maxM (Memref.isWhole_whole _) (blk0 m c t) (blk1 m c t) (blk2 m c t) (blk3 m c t) (Y 4) d0 d1 hc0 hc1 f1).trans ?_
        rw [maxAt_first m c t h0, projAt_first m c t h0]
      iexact HR
    isplitl [Ho]; · iexact Ho
    isplitl [H0]
    · iexists _; isplitr
      · ipureintro; exact Eq.mpr (after_0 m c t _ _) rfl
      · iexact H0
    isplitl [H1]
    · iexists _; isplitr
      · ipureintro; exact Eq.mpr (after_1 m c t _ _) rfl
      · iexact H1
    isplitl [H2]
    · iexists _; isplitr
      · ipureintro; exact Eq.mpr (after_2 m c t _ _) rfl
      · iexact H2
    isplitl [H3]
    · iexists _; isplitr
      · ipureintro; exact Eq.mpr (after_3 m c t _ _) rfl
      · iexact H3
    iexists _; isplitr
    · ipureintro; exact Eq.mpr (after_4 m c t _ _) rfl
    unfold owns; iexists _; isplitr
    swap; · iexact H4
    ipureintro
    refine (first_out c (grid0.coords t) (mem0 t) (whole0 t) (mem1 t) (whole1 t) (mem2 t) (whole2 t) (mem3 t) (whole3 t) (mem4 t) (whole4 t) projM (Memref.isWhole_whole _) maxM (Memref.isWhole_whole _) (blk0 m c t) (blk1 m c t) (blk2 m c t) (blk3 m c t) (Y 4) d0 d1 hc0 hc1).trans ?_
    rw [out4_rest m c t (Y 4) (by omega), scoresAt_eq, projAt_first m c t h0]
  · obtain ⟨rfl, rfl⟩ := hd' (fun h => h0 (by rw [h]))
    have hc0 : ¬isFirst (grid0.coords t) := fun h => h0 ((isFirst_iff t).mp h)
    by_cases h7 : t.val % 8 = 7
    · have hc1 : isLast (grid0.coords t) := (isLast_iff t).mpr h7
      iapply ((runLast c (grid0.coords t) (mem0 t) (whole0 t) (mem1 t) (whole1 t) (mem2 t) (whole2 t) (mem3 t) (whole3 t) (mem4 t) (whole4 t) projM (Memref.isWhole_whole _) maxM (Memref.isWhole_whole _) hc0 hc1 (blk0 m c t) (blk1 m c t) (blk2 m c t) (blk3 m c t) (Y 4) (projAt m c (t.val - 1)) (maxAt m c (t.val - 1))).2.2 Set.univ _)
      isplitl [H0]; · iexact H0
      isplitl [H1]; · iexact H1
      isplitl [H2]; · iexact H2
      isplitl [H3]; · iexact H3
      isplitl [H4]; · iexact H4
      isplitl [HP]; · iexact HP
      isplitl [HM]; · iexact HM
      iintro ⟨H0, H1, H2, H3, H4, HP, ⟨%f1, HM⟩⟩
      isplitl [HP HM HR]
      · iexists (projAt m c t.val); iexists (maxAt m c t.val)
        isplitr; · ipureintro; intro _; exact ⟨congrArg (projAt m c) e.symm, congrArg (maxAt m c) e.symm⟩
        isplitl [HP]
        · rw [projAt_rest m c t.val h0]; iexact HP
        isplitl [HM]
        · unfold owns; iexists _; isplitr
          swap; · iexact HM
          ipureintro
          refine (last_max c (grid0.coords t) (mem0 t) (whole0 t) (mem1 t) (whole1 t) (mem2 t) (whole2 t) (mem3 t) (whole3 t) (mem4 t) (whole4 t) projM (Memref.isWhole_whole _) maxM (Memref.isWhole_whole _) (blk0 m c t) (blk1 m c t) (blk2 m c t) (blk3 m c t) (Y 4) (projAt m c (t.val - 1)) (maxAt m c (t.val - 1)) hc0 hc1 f1).trans ?_
          rw [maxAt_rest m c t h0, projAt_rest m c t.val h0]
        iexact HR
      isplitl [Ho]; · iexact Ho
      isplitl [H0]
      · iexists _; isplitr
        · ipureintro; exact Eq.mpr (after_0 m c t _ _) rfl
        · iexact H0
      isplitl [H1]
      · iexists _; isplitr
        · ipureintro; exact Eq.mpr (after_1 m c t _ _) rfl
        · iexact H1
      isplitl [H2]
      · iexists _; isplitr
        · ipureintro; exact Eq.mpr (after_2 m c t _ _) rfl
        · iexact H2
      isplitl [H3]
      · iexists _; isplitr
        · ipureintro; exact Eq.mpr (after_3 m c t _ _) rfl
        · iexact H3
      iexists _; isplitr
      · ipureintro; exact Eq.mpr (after_4 m c t _ _) rfl
      unfold owns; iexists _; isplitr
      swap; · iexact H4
      ipureintro
      refine (last_out c (grid0.coords t) (mem0 t) (whole0 t) (mem1 t) (whole1 t) (mem2 t) (whole2 t) (mem3 t) (whole3 t) (mem4 t) (whole4 t) projM (Memref.isWhole_whole _) maxM (Memref.isWhole_whole _) (blk0 m c t) (blk1 m c t) (blk2 m c t) (blk3 m c t) (Y 4) (projAt m c (t.val - 1)) (maxAt m c (t.val - 1)) hc0 hc1).trans ?_
      rw [out4_last m c t (Y 4) h7, scoresAt_eq, maxAt_rest m c t h0, projAt_rest m c t.val h0]
    · have hc1 : ¬isLast (grid0.coords t) := fun h => h7 ((isLast_iff t).mp h)
      iapply ((runMiddle c (grid0.coords t) (mem0 t) (whole0 t) (mem1 t) (whole1 t) (mem2 t) (whole2 t) (mem3 t) (whole3 t) (mem4 t) (whole4 t) projM (Memref.isWhole_whole _) maxM (Memref.isWhole_whole _) hc0 hc1 (blk0 m c t) (blk1 m c t) (blk2 m c t) (blk3 m c t) (Y 4) (projAt m c (t.val - 1)) (maxAt m c (t.val - 1))).2.2 Set.univ _)
      isplitl [H0]; · iexact H0
      isplitl [H1]; · iexact H1
      isplitl [H2]; · iexact H2
      isplitl [H3]; · iexact H3
      isplitl [H4]; · iexact H4
      isplitl [HP]; · iexact HP
      isplitl [HM]; · iexact HM
      iintro ⟨H0, H1, H2, H3, H4, HP, ⟨%f1, HM⟩⟩
      isplitl [HP HM HR]
      · iexists (projAt m c t.val); iexists (maxAt m c t.val)
        isplitr; · ipureintro; intro _; exact ⟨congrArg (projAt m c) e.symm, congrArg (maxAt m c) e.symm⟩
        isplitl [HP]
        · rw [projAt_rest m c t.val h0]; iexact HP
        isplitl [HM]
        · unfold owns; iexists _; isplitr
          swap; · iexact HM
          ipureintro
          refine (middle_max c (grid0.coords t) (mem0 t) (whole0 t) (mem1 t) (whole1 t) (mem2 t) (whole2 t) (mem3 t) (whole3 t) (mem4 t) (whole4 t) projM (Memref.isWhole_whole _) maxM (Memref.isWhole_whole _) (blk0 m c t) (blk1 m c t) (blk2 m c t) (blk3 m c t) (Y 4) (projAt m c (t.val - 1)) (maxAt m c (t.val - 1)) hc0 hc1 f1).trans ?_
          rw [maxAt_rest m c t h0, projAt_rest m c t.val h0]
        iexact HR
      isplitl [Ho]; · iexact Ho
      isplitl [H0]
      · iexists _; isplitr
        · ipureintro; exact Eq.mpr (after_0 m c t _ _) rfl
        · iexact H0
      isplitl [H1]
      · iexists _; isplitr
        · ipureintro; exact Eq.mpr (after_1 m c t _ _) rfl
        · iexact H1
      isplitl [H2]
      · iexists _; isplitr
        · ipureintro; exact Eq.mpr (after_2 m c t _ _) rfl
        · iexact H2
      isplitl [H3]
      · iexists _; isplitr
        · ipureintro; exact Eq.mpr (after_3 m c t _ _) rfl
        · iexact H3
      iexists _; isplitr
      · ipureintro; exact Eq.mpr (after_4 m c t _ _) rfl
      unfold owns; iexists _; isplitr
      swap; · iexact H4
      ipureintro
      refine (middle_out c (grid0.coords t) (mem0 t) (whole0 t) (mem1 t) (whole1 t) (mem2 t) (whole2 t) (mem3 t) (whole3 t) (mem4 t) (whole4 t) projM (Memref.isWhole_whole _) maxM (Memref.isWhole_whole _) (blk0 m c t) (blk1 m c t) (blk2 m c t) (blk3 m c t) (Y 4) (projAt m c (t.val - 1)) (maxAt m c (t.val - 1)) hc0 hc1).trans ?_
      rw [out4_rest m c t (Y 4) h7, scoresAt_eq, projAt_rest m c t.val h0]

/-- The library's relational body obligation, at every point: the inputs are found at their blocks. -/
theorem body_obligation (c : Dev nD) :
    (rdat m c).BodyObligation (defs₀ (F := F)) Variants.none () Set.univ := by
  intro t Y hY
  rw [bigSep_W0, bigSep_W0]
  exact sound_body m c t Y (finds_0 m c t (Y 0) (hY 0)) (finds_1 m c t (Y 1) (hY 1)) (finds_2 m c t (Y 2) (hY 2))
    (finds_3 m c t (Y 3) (hY 3))

end Cert.KernelIdeal.Body

end
-- ==== Proof.BlockRun.lean ====
/-
  One row block of the attention kernel, as pure functions of what its eight grid points load.

  For a fixed block of 256 query rows the kernel visits eight key chunks of 512 rows each. At the first chunk it
  projects the query rows (`T = x0 · x1`); at every chunk `j` it writes the 256 × 512 scores of that chunk,
  `T · x2 jᵀ + bias`, into columns `[512 j, 512 j + 512)` of the 256 × 4096 output block and folds the chunk's
  row maxima into a running maximum; at the last chunk it reads the completed block back and normalises each row:
  `exp (s − max) / Σ exp (s − max)`. The definitions below say this with the kernel's own payload terms, at any
  float instance; nothing here mentions memory.
-/
import proofs.«161438_j65661460021977_2_alg».proof.Proof.Gen.KernelIdeal.Skeleton
import Idealize.ShloMosaic.Lib.ValueIdx

noncomputable section

namespace Cert.KernelIdeal.Block

open Idealize.ShloMosaic Idealize.ShloMosaic.ValueIdx Cert.KernelIdeal Cert.KernelIdeal.Gen

variable {F : FTy → Type} [FloatOps F]

/-- The block `Y` with the 512 columns of chunk `j` replaced by the chunk's scores `P`: entry `(p, c)` is
    `P (p, c − 512 j)` when `512 j ≤ c < 512 j + 512`, and `Y (p, c)` otherwise. -/
def putCols (j : ℕ) (Y : Vec F S256x4096 .f32) (P : Vec F S256x512 .f32) : Vec F S256x4096 .f32 := fun y =>
  if h : 512 * j ≤ (y 1).val ∧ (y 1).val < 512 * j + 512 then
    P (ix2 (n0 := 256) (n1 := 512) ⟨(y 0).val, (y 0).isLt⟩ ⟨(y 1).val - 512 * j, by omega⟩)
  else Y y

/-- The running row maximum after chunks `0 … j`: the first chunk starts from the kernel's `−∞` fill. -/
def runMax (T : Vec F S256x2048 .f32) (x2 : ℕ → Vec F S512x2048 .f32) (x3 : Vec F S1 .f32) : ℕ → Vec F S256x1 .f32
  | 0 => k0_pay4 T (x2 0) x3 k0_pay2
  | j + 1 => k0_pay4 T (x2 (j + 1)) x3 (runMax T x2 x3 j)

/-- The completed scores block: column `c` belongs to chunk `c / 512`, at position `c % 512` inside it. -/
def scoresFull (T : Vec F S256x2048 .f32) (x2 : ℕ → Vec F S512x2048 .f32) (x3 : Vec F S1 .f32) : Vec F S256x4096 .f32 :=
  fun y => k0_pay3 T (x2 ((y 1).val / 512)) x3
    (ix2 (n0 := 256) (n1 := 512) ⟨(y 0).val, (y 0).isLt⟩ ⟨(y 1).val % 512, Nat.mod_lt _ (by norm_num)⟩)

/-- What the last chunk's point leaves in the output block: the row-normalised exponentials of the completed
    scores under the final running maximum. -/
def outBlock (x0 : Vec F S256x2048 .bf16) (x1 : Vec F S2048x2048 .bf16) (x2 : ℕ → Vec F S512x2048 .f32)
    (x3 : Vec F S1 .f32) : Vec F S256x4096 .f32 :=
  k0_pay5 (runMax (k0_pay1 x0 x1) x2 x3 7) (scoresFull (k0_pay1 x0 x1) x2 x3)

/-- Replacing the columns of chunk `j` leaves every column of another chunk as it was. -/
theorem putCols_of_not_mem (j : ℕ) (Y : Vec F S256x4096 .f32) (P : Vec F S256x512 .f32) (y : S256x4096.Idx)
    (h : ¬(512 * j ≤ (y 1).val ∧ (y 1).val < 512 * j + 512)) : putCols j Y P y = Y y := dif_neg h

/-- Inside chunk `j` the new block reads the chunk's scores. -/
theorem putCols_of_mem (j : ℕ) (Y : Vec F S256x4096 .f32) (P : Vec F S256x512 .f32) (y : S256x4096.Idx)
    (h : 512 * j ≤ (y 1).val ∧ (y 1).val < 512 * j + 512) :
    putCols j Y P y = P (ix2 (n0 := 256) (n1 := 512) ⟨(y 0).val, (y 0).isLt⟩ ⟨(y 1).val - 512 * j, by omega⟩) := dif_pos h

end Cert.KernelIdeal.Block

end
-- ==== Proof.LibRelArrAt.lean ====
/-
  An array written back block by block, when the proof data RELATES what the body is handed to what it leaves.

  With relational proof data the final contents of an output array are known only as a predicate: the entry contents
  overwritten, in point order, at each written-back block by the moved part of SOME contents the body may have left
  there. If at every point that writes back, every contents the body may leave reads, on the moved part, as that
  point's block of ONE whole-array contents `G`, then after the write-backs below `n` every index inside a block
  written back below `n` holds `G` there — a later point that covers the index again writes the same value, an
  earlier one is overwritten — and when the written-back blocks cover the array it ends holding `G`.
-/
import Idealize.ShloMosaic.Lib.Pipeline.Value

noncomputable section

namespace Cert.LibRelArrAt

open Idealize.ShloMosaic Idealize.ShloMosaic.Pipeline
open Idealize.SL Idealize.SL.Sem Idealize.SL.RA

variable {nD : Nat} {τ : Topo} {sig : RefSig} {Val : EltTy → Type}
variable {Ix : Type} [DecidableEq Ix] {Name : Type} [DecidableEq Name] {U : Type} [URA U] {Lvl : Type}
variable {Λ₀ : Idealize.SL.Sem.Labels} {cfg : Cfg sig Λ₀} {c : Dev nD} (rd : RDat τ Val Ix Name U Lvl cfg c)

/-- POINTWISE, RELATIONALLY. If whatever the body may leave at a point that writes back reads, on the moved part, as
    that point's block of one whole-array contents `G` (`hG`), then any contents the array may hold after the
    write-backs below `n` agree with `G` at every index inside a block written back below `n`. -/
theorem arrAt_apply_of_mem (w : Fin cfg.W) (G : Buf Val ((cfg.win w).arr.view.loc (c.tc : Thread nD τ)))
    (hG : ∀ t, (cfg.win w).flush t = true → ∀ X, rd.Leaves w t X →
      (cfg.win w).cut (cfg.grid.coords t) X = ((cfg.win w).blk t).view.read Val G) :
    ∀ (n : Nat) (F : Buf Val ((cfg.win w).arr.view.loc (c.tc : Thread nD τ))), rd.ArrAt w n F →
      ∀ (t : Fin cfg.N) (i : ((cfg.win w).arr.view.loc (c.tc : Thread nD τ)).2.ty.Idx),
        t.val < n → (cfg.win w).flush t = true → i ∈ ((cfg.win w).blk t).view.set → F i = G i
  | 0, _, _, _, _, ht, _, _ => absurd ht (Nat.not_lt_zero _)
  | n + 1, F, hF, t, i, ht, hf, hi => by
    have hF' : (if h : n < cfg.N then
        (if (cfg.win w).flush ⟨n, h⟩ then rd.ArrStep w ⟨n, h⟩ (rd.ArrAt w n) else rd.ArrAt w n)
        else rd.ArrAt w n) F := hF
    by_cases hn : n < cfg.N
    swap
    · rw [dif_neg hn] at hF'
      exact arrAt_apply_of_mem w G hG n F hF' t i (by have := t.isLt; omega) hf hi
    rw [dif_pos hn] at hF'
    by_cases hfn : (cfg.win w).flush ⟨n, hn⟩ = true
    · rw [if_pos hfn] at hF'
      obtain ⟨G₀, X, hG₀, hX, rfl⟩ := hF'
      rw [hG _ hfn X hX, View.write_read_eq_piecewise]
      by_cases hin : i ∈ ((cfg.win w).blk ⟨n, hn⟩).view.setOn Finset.univ
      · rw [Finset.piecewise_eq_of_mem _ _ _ hin]
      · rw [Finset.piecewise_eq_of_notMem _ _ _ hin]
        have htn : t.val ≠ n := fun e => hin (by
          rw [View.setOn_univ]; have : t = ⟨n, hn⟩ := Fin.ext e; exact this ▸ hi)
        exact arrAt_apply_of_mem w G hG n G₀ hG₀ t i (by omega) hf hi
    · rw [if_neg hfn] at hF'
      have htn : t.val ≠ n := fun e => hfn (by have : t = ⟨n, hn⟩ := Fin.ext e; exact this ▸ hf)
      exact arrAt_apply_of_mem w G hG n F hF' t i (by omega) hf hi

/-- THE WHOLE ARRAY, RELATIONALLY: when moreover every index of the array is inside some written-back block
    (`hcover`), any contents the array may hold after all the write-backs are `G`. -/
theorem arrAt_eq_of_cover (w : Fin cfg.W) (G : Buf Val ((cfg.win w).arr.view.loc (c.tc : Thread nD τ)))
    (hG : ∀ t, (cfg.win w).flush t = true → ∀ X, rd.Leaves w t X →
      (cfg.win w).cut (cfg.grid.coords t) X = ((cfg.win w).blk t).view.read Val G)
    (hcover : ∀ i : ((cfg.win w).arr.view.loc (c.tc : Thread nD τ)).2.ty.Idx,
      ∃ t : Fin cfg.N, (cfg.win w).flush t = true ∧ i ∈ ((cfg.win w).blk t).view.set)
    (F : Buf Val ((cfg.win w).arr.view.loc (c.tc : Thread nD τ))) (hF : rd.ArrAt w cfg.N F) : F = G :=
  funext fun i => by
    obtain ⟨t, hf, hi⟩ := hcover i
    exact arrAt_apply_of_mem rd w G hG cfg.N F hF t i t.isLt hf hi

end Cert.LibRelArrAt

end
-- ==== Proof.IdealBody.Written.lean ====
/-
  What the output array ends holding.

  The column rectangle a chunk writes starts at column `512 · (t % 8)`, so replacing it is `putCols (t % 8)`. Whatever
  the body is handed in the output block at chunk `j` of a row block already holds, in the columns of the chunks
  `0 … j − 1`, those chunks' scores (by induction on the point: the output window is never fetched, and is written
  back only after a last chunk). Hence what a last chunk leaves does not depend on what the first chunk was handed:
  it is the normalisation of the completed scores `fullScores`. Written back at the points ≡ 7 (mod 8), whose blocks
  are the sixteen bands of 256 rows, these make up the whole array.
-/
import proofs.«161438_j65661460021977_2_alg».proof.Proof.IdealBody.Obligation
import proofs.«161438_j65661460021977_2_alg».proof.Proof.BlockRun
import proofs.«161438_j65661460021977_2_alg».proof.Proof.LibRelArrAt
set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx

variable (m : (ℓ : Loc nD τ sig) → Buf (Elt F) ℓ)

/-- The column offset the body computes at point `t`: row offset 0, column offset `512 · (t % 8)`. -/
theorem off_facts : ∀ t : Fin cfg0.N, k0_off1 (grid0.coords t) 0 = 0 ∧ k0_off1 (grid0.coords t) 1 = 512 * (t.val % 8) :=
  (by decide +kernel : ∀ t : Fin grid0.N, k0_off1 (grid0.coords t) 0 = 0 ∧ k0_off1 (grid0.coords t) 1 = 512 * (t.val % 8))

/-- The output window is never fetched. -/
theorem fetch4 : ∀ t : Fin cfg0.N, (cfg0.win 4).fetch t = false :=
  (by decide +kernel : ∀ t : Fin grid0.N, win0_4.fetch t = false)

/-- Its block index at point `t`: row band `t / 8`, column band 0. -/
theorem index4 : ∀ t : Fin cfg0.N, win0_4.index t (0 : Fin 2) = t.val / 8 ∧ win0_4.index t (1 : Fin 2) = 0 :=
  (by decide +kernel : ∀ t : Fin grid0.N, win0_4.index t (0 : Fin 2) = t.val / 8 ∧ win0_4.index t (1 : Fin 2) = 0)

/-- Replacing the chunk's rectangle is replacing the chunk's 512 columns. -/
theorem overlay_cols (t : Fin cfg0.N) (Y : Vec F S256x4096 .f32) (P : Vec F S256x512 .f32) :
    (colRect (grid0.coords t)).overlay Y P = Block.putCols (t.val % 8) Y P := by
  obtain ⟨o0, o1⟩ := off_facts t
  funext y
  by_cases hy : y ∈ (colRect (grid0.coords t)).set
  · obtain ⟨(x : S256x512.Idx), rfl⟩ := (colRect (grid0.coords t)).exists_idx_of_mem hy
    rw [show (colRect (grid0.coords t)).idx x = (colRect (grid0.coords t)).emb x from rfl, Rect.overlay_emb]
    have c0 : (((colRect (grid0.coords t)).emb x) 0).val = k0_off1 (grid0.coords t) 0 + 1 * (x 0).val := rfl
    have c1 : (((colRect (grid0.coords t)).emb x) 1).val = k0_off1 (grid0.coords t) 1 + 1 * (x 1).val := rfl
    have hx1 : (x 1).val < 512 := (x 1).isLt
    rw [Block.putCols_of_mem _ _ _ _ (by rw [c1, o1]; omega)]
    refine congrArg P ?_
    funext a; apply Fin.ext
    match a with
    | ⟨0, _⟩ => show (x 0).val = (((colRect (grid0.coords t)).emb x) 0).val; rw [c0, o0]; omega
    | ⟨1, _⟩ => show (x 1).val = (((colRect (grid0.coords t)).emb x) 1).val - 512 * (t.val % 8); rw [c1, o1]; omega
  · rw [Rect.overlay_of_not_mem _ _ _ hy, Block.putCols_of_not_mem]
    intro h
    apply hy
    rw [Rect.mem_set_unit]
    intro a
    match a with
    | ⟨0, _⟩ => show k0_off1 (grid0.coords t) 0 ≤ (y 0).val ∧ (y 0).val < k0_off1 (grid0.coords t) 0 + 256
                have h0 : (y 0).val < 256 := (y 0).isLt; rw [o0]; exact ⟨Nat.zero_le _, by omega⟩
    | ⟨1, _⟩ => show k0_off1 (grid0.coords t) 1 ≤ (y 1).val ∧ (y 1).val < k0_off1 (grid0.coords t) 1 + 512
                rw [o1]; exact h

/-- Scores at equal points and equal positions are equal. -/
theorem scores_congr (c : Dev nD) {n n' : ℕ} (hn : n = n') {a b : S256x512.Idx} (hab : a = b) :
    scoresAt m c n a = scoresAt m c n' b := by subst hn; subst hab; rfl

/-- The completed scores of the row block of point `t`: column `k` belongs to chunk `k / 512`, the point
    `t − t % 8 + k / 512`, at position `k % 512` inside that chunk's scores. -/
def fullScores (c : Dev nD) (t : Fin cfg0.N) : Vec F S256x4096 .f32 := fun y =>
  scoresAt m c (t.val - t.val % 8 + (y 1).val / 512)
    (ix2 (n0 := 256) (n1 := 512) ⟨(y 0).val, (y 0).isLt⟩ ⟨(y 1).val % 512, Nat.mod_lt _ (by omega)⟩)

/-- `Y` holds, in the columns of the chunks before the chunk of `t`, those chunks' scores. -/
def Agrees (c : Dev nD) (t : Fin cfg0.N) (Y : Vec F S256x4096 .f32) : Prop :=
  ∀ y : S256x4096.Idx, (y 1).val < 512 * (t.val % 8) → Y y = fullScores m c t y

/-- Whatever the body is handed in the output block holds the earlier chunks' scores. -/
theorem finds_agrees (c : Dev nD) : ∀ (t : Fin cfg0.N) (Y : Vec F S256x4096 .f32), (rdat m c).Finds 4 t Y → Agrees m c t Y := by
  intro t
  induction hn : t.val using Nat.strong_induction_on generalizing t with
  | _ n ih =>
    subst hn; intro Y hY y hy
    have hN : t.val < 128 := lt_of_lt_of_eq t.isLt N_eq
    have h8 : t.val % 8 ≠ 0 := fun h => by rw [h] at hy; omega
    have ht : t.val ≠ 0 := fun h => h8 (by rw [h])
    rcases ((rdat m c).finds_of_pos (fetch4 t) ht Y).mp hY with hfl | ⟨Y', hY', hR⟩
    · have := (flush0_4 _).mp hfl; dsimp only at this; omega
    · rw [after_4] at hR; subst hR
      have ih' := ih (t.val - 1) (by omega) ⟨t.val - 1, Nat.lt_of_le_of_lt (Nat.sub_le _ _) t.isLt⟩ rfl Y' hY'
      rw [out4_rest m c _ Y' (by show (t.val - 1) % 8 ≠ 7; omega), overlay_cols]
      show Block.putCols ((t.val - 1) % 8) Y' (scoresAt m c (t.val - 1)) y = _
      by_cases hmem : 512 * ((t.val - 1) % 8) ≤ (y 1).val ∧ (y 1).val < 512 * ((t.val - 1) % 8) + 512
      · rw [Block.putCols_of_mem _ _ _ _ hmem]
        exact scores_congr m c (by omega)
          (congrArg (fun q => ix2 (n0 := 256) (n1 := 512) ⟨(y 0).val, (y 0).isLt⟩ q) (Fin.ext (by show (y 1).val - 512 * ((t.val - 1) % 8) = (y 1).val % 512; omega)))
      · rw [Block.putCols_of_not_mem _ _ _ _ hmem]
        refine (ih' y (by show (y 1).val < 512 * ((t.val - 1) % 8); omega)).trans ?_
        exact scores_congr m c (by show t.val - 1 - (t.val - 1) % 8 + (y 1).val / 512 = t.val - t.val % 8 + (y 1).val / 512; omega) rfl

/-- What a last chunk leaves in the output block, whatever it was handed: the completed scores, normalised under
    the final running maximum. -/
theorem leaves_last (c : Dev nD) (t : Fin cfg0.N) (h7 : t.val % 8 = 7) (X : Vec F S256x4096 .f32)
    (hX : (rdat m c).Leaves 4 t X) : X = k0_pay5 (maxAt m c t.val) (fullScores m c t) := by
  obtain ⟨Y, hY, hR⟩ := hX
  rw [after_4] at hR; subst hR
  have hag := finds_agrees m c t Y hY
  rw [out4_last m c t Y h7, overlay_cols]
  refine congrArg (k0_pay5 (maxAt m c t.val)) ?_
  funext y
  by_cases hmem : 512 * (t.val % 8) ≤ (y 1).val ∧ (y 1).val < 512 * (t.val % 8) + 512
  · rw [Block.putCols_of_mem _ _ _ _ hmem]
    exact scores_congr m c (by omega)
      (congrArg (fun q => ix2 (n0 := 256) (n1 := 512) ⟨(y 0).val, (y 0).isLt⟩ q) (Fin.ext (by show (y 1).val - 512 * (t.val % 8) = (y 1).val % 512; omega)))
  · rw [Block.putCols_of_not_mem _ _ _ _ hmem]
    have := (y 1).isLt
    exact hag y (by have h1 : (y 1).val < 4096 := (y 1).isLt; omega)

/-- The array the kernel's result ends as: row `r` is row `r % 256` of what the last chunk of row block `r / 256`
    leaves. -/
def finalArr (c : Dev nD) : Vec F S4096x4096 .f32 := fun i =>
  k0_pay5 (maxAt m c (8 * ((i 0).val / 256) + 7)) (fullScores m c (pt (8 * ((i 0).val / 256) + 7)))
    (ix2 (n0 := 256) (n1 := 4096) ⟨(i 0).val % 256, Nat.mod_lt _ (by omega)⟩ ⟨(i 1).val, (i 1).isLt⟩)

/-- An index of the result is in point `t`'s block iff its row is in the band of `t`. -/
theorem mem_blk4 (t : Fin cfg0.N) (i : S4096x4096.Idx) :
    i ∈ ((cfg0.win 4).blk t).view.set ↔ ∀ a : Fin 2, win0_4.index t a * S256x4096.size a ≤ (i a).val ∧ (i a).val < win0_4.index t a * S256x4096.size a + S256x4096.size a := by
  show i ∈ ((View.whole main_v3).slice (win0_4.rect t)).set ↔ _
  rw [View.set_slice_whole, Rect.mem_set_unit]
  exact Iff.rfl

/-- What a point that writes back moves is its band of `finalArr`. -/
theorem flushed_eq (c : Dev nD) (t : Fin cfg0.N) (hf : (cfg0.win 4).flush t = true) (X : Vec F S256x4096 .f32)
    (hX : (rdat m c).Leaves 4 t X) :
    (cfg0.win 4).cut (grid0.coords t) X = ((cfg0.win 4).blk t).view.read (Elt F) (finalArr m c) := by
  have h7 : t.val % 8 = 7 := (flush0_4 t).mp hf
  have hN : t.val < 128 := lt_of_lt_of_eq t.isLt N_eq
  obtain ⟨i0, i1⟩ := index4 t
  show X = fun j => finalArr m c (((cfg0.win 4).blk t).view.emb j)
  rw [leaves_last m c t h7 X hX]
  funext j
  have c0 : ((((cfg0.win 4).blk t).view.emb j) 0).val = win0_4.index t (0 : Fin 2) * 256 + 1 * (j 0).val := rfl
  have c1 : ((((cfg0.win 4).blk t).view.emb j) 1).val = win0_4.index t (1 : Fin 2) * 4096 + 1 * (j 1).val := rfl
  have hj0 : (j 0).val < 256 := (j 0).isLt
  have hj1 : (j 1).val < 4096 := (j 1).isLt
  have ept : 8 * (((((cfg0.win 4).blk t).view.emb j) 0).val / 256) + 7 = t.val := by rw [c0, i0]; omega
  unfold finalArr
  rw [ept, pt_val]
  conv_lhs => rw [eq_ix2 j]
  refine congrArg (k0_pay5 (maxAt m c t.val) (fullScores m c t)) ?_
  funext a; apply Fin.ext
  match a with
  | ⟨0, _⟩ => show (j 0).val = ((((cfg0.win 4).blk t).view.emb j) 0).val % 256; rw [c0, i0]; omega
  | ⟨1, _⟩ => show (j 1).val = ((((cfg0.win 4).blk t).view.emb j) 1).val; rw [c1, i1]; omega

/-- Every index of the result is in the band some last chunk writes back. -/
theorem covered (i : S4096x4096.Idx) : ∃ t : Fin cfg0.N, (cfg0.win 4).flush t = true ∧ i ∈ ((cfg0.win 4).blk t).view.set := by
  have hi0 : (i 0).val < 4096 := (i 0).isLt
  have hi1 : (i 1).val < 4096 := (i 1).isLt
  have hlt : 8 * ((i 0).val / 256) + 7 < cfg0.N := by rw [N_eq]; omega
  refine ⟨⟨8 * ((i 0).val / 256) + 7, hlt⟩, (flush0_4 _).mpr (by show (8 * ((i 0).val / 256) + 7) % 8 = 7; omega), ?_⟩
  obtain ⟨i0, i1⟩ := index4 ⟨8 * ((i 0).val / 256) + 7, hlt⟩
  rw [mem_blk4]
  intro a
  match a with
  | ⟨0, _⟩ => show win0_4.index _ (0 : Fin 2) * 256 ≤ (i 0).val ∧ (i 0).val < win0_4.index _ (0 : Fin 2) * 256 + 256
              rw [i0]; show (8 * ((i 0).val / 256) + 7) / 8 * 256 ≤ (i 0).val ∧ (i 0).val < (8 * ((i 0).val / 256) + 7) / 8 * 256 + 256; omega
  | ⟨1, _⟩ => show win0_4.index _ (1 : Fin 2) * 4096 ≤ (i 1).val ∧ (i 1).val < win0_4.index _ (1 : Fin 2) * 4096 + 4096
              rw [i1]; omega

/-- THE RESULT ARRAY: any contents it may hold after all the write-backs are `finalArr`. -/
theorem final (c : Dev nD) (Fz : Buf (Elt F) ((cfg0.win 4).arr.view.loc (c.tc : Thread nD τ)))
    (hF : (rdat m c).ArrAt 4 cfg0.N Fz) : Fz = finalArr m c :=
  Cert.LibRelArrAt.arrAt_eq_of_cover (rdat m c) 4 (finalArr m c) (fun t hf X hX => flushed_eq m c t hf X hX) covered Fz hF

end Cert.KernelIdeal.Body

end
-- ==== Proof.IdealBody.Frame.lean ====
/-
  The frame of the attention kernel: launch and read-back.

  Before the first point the two scratch buffers hold anything, which is all the invariant asks there; after the last
  point what they hold is forgotten. With the body obligation this launches the pipeline, and every weakly fair
  execution of the program terminates with each windowed array at contents the relational data allows. An input
  array is never written, and the one argument no window stages bypasses the region: so the three arguments end as
  they were.
-/
import proofs.«161438_j65661460021977_2_alg».proof.Proof.IdealBody.Obligation
set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the launch hands the region yields the invariant before the first point. -/
theorem inv_in (c : Dev nD) : (Pipeline.ΦA spec0 c : sProp 𝕄) ⊢ inv m c 0 := by
  rw [scratch_eq]; unfold inv
  iintro ⟨⟨⟨%d0, HP⟩, ⟨%d1, HM⟩⟩, HR⟩
  iexists d0; iexists d1
  isplitr; · ipureintro; intro h; exact absurd rfl h
  isplitl [HP]; · iexact HP
  isplitl [HM]; · iexact HM
  iexact HR

/-- The invariant after the last point yields back what the launch handed over. -/
theorem inv_out (c : Dev nD) : inv m c (Fin.last cfg0.N) ⊢ (Pipeline.ΦA spec0 c : sProp 𝕄) := by
  rw [scratch_eq]; unfold inv
  iintro ⟨%d0, %d1, %hd, HP, HM, HR⟩
  isplitl [HP HM]
  · isplitl [HP]; · iexists d0; iexact HP
    iexists d1; iexact HM
  iexact HR

set_option backward.isDefEq.respectTransparency.types false in
/-- Every weakly fair execution of the program terminates, with every windowed array at contents the relational data
    allows after all write-backs and every other unscoped buffer as the region found it. -/
theorem run_main : θ_run defs (onTc (τ := τ) (main (F := F))) (s₀ m ρ) (Pipeline.RDat.FramePost cfg0 (rdat m) (V m)) :=
  Pipeline.RDat.θ_run_frame_track cfgs (0 : Fin 1) launch0 defs₀ Variants.none (rdat m) m ρ main
    (hbody := body_obligation m) (hshare := fun c => (rdat m c).share_full fun _ => rfl)
    (howed := fun _ _ => rfl) (V := V m) (hmain := hmain m Variants.none) (hA := A_eq m)
    (hin := inv_in m) (hout := inv_out m)

/-- The frame: the three argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(Eq.mp (congrFun ((rdat m c).ArrAt_in 2 rfl cfg0.N) _) ((h c).1 2)).trans ((A_eq m c 2).trans (V_main_arg0 m c)),
      ((h c).2 main_arg1 (Pipeline.mem_restRefs_of main_arg1 (by decide) (by decide))).trans (V_main_arg1 m c),
      (Eq.mp (congrFun ((rdat m c).ArrAt_in 3 rfl cfg0.N) _) ((h c).1 3)).trans ((A_eq m c 3).trans (V_main_arg2 m c))⟩)
    (run_main m ρ)

end Cert.KernelIdeal.Body

end
-- ==== Proof.Math.Spec.lean ====
/-
  The row softmax of bilinear attention scores, entry by entry on the extended reals.

  For an array `Ws` of 4096 rows of width 2048, a square matrix `W0` of width 2048 and a one-entry bias `b`:
  the projected rows are `T = Ws · W0`, the scores are `A = T · Wsᵀ + b` (row `r` against row `c` of the same
  array `Ws`), and the result is the softmax of every row of `A`, stabilised by the row's maximum:
  `exp (A r c − M r) / (0 + Σ_c' exp (A r c' − M r))` with `M r` the maximum of row `r` taken from `−∞`.
  The maximum is spelt as the fold of `max` over the 4096 columns, the two literals (`−∞` and the sum's zero) as
  the bit patterns the programs print. Nothing here needs the entries to be finite.
-/
import Idealize.ShloMosaic.PureOps.Ideal.Laws
import Idealize.ShloMosaic.Lib.ValueIdx

noncomputable section

open scoped BigOperators

namespace Cert.AttnSpec

open Idealize.ShloMosaic Idealize.ShloMosaic.ValueIdx

/-- The projected row `r` at column `k`: `T r k = Σ_l Ws r l · W0 l k`. -/
def proj (Ws : FVec Ideal ⟨2, ![4096, 2048]⟩ .f32) (W0 : FVec Ideal ⟨2, ![2048, 2048]⟩ .f32) (r : Fin 4096) (k : Fin 2048) :
    EReal :=
  ∑ l : Fin 2048, Ws (ix2 r l) * W0 (ix2 l k)

/-- The score of row `r` against row `c`: `A r c = (Σ_k T r k · Ws c k) + b`. -/
def score (Ws : FVec Ideal ⟨2, ![4096, 2048]⟩ .f32) (W0 : FVec Ideal ⟨2, ![2048, 2048]⟩ .f32) (b : FVec Ideal ⟨1, ![1]⟩ .f32)
    (r c : Fin 4096) : EReal :=
  (∑ k : Fin 2048, proj Ws W0 r k * Ws (ix2 c k)) + b (ix1 (0 : Fin 1))

/-- The maximum of row `r` of the scores, folded from `−∞` over the 4096 columns. -/
def rowMax (Ws : FVec Ideal ⟨2, ![4096, 2048]⟩ .f32) (W0 : FVec Ideal ⟨2, ![2048, 2048]⟩ .f32) (b : FVec Ideal ⟨1, ![1]⟩ .f32)
    (r : Fin 4096) : EReal :=
  (Finset.univ : Finset (Fin 4096)).fold max (Ideal.ofBits .f32 0xFF800000#32) (fun c => score Ws W0 b r c)

/-- The softmax of row `r` at column `c`. -/
def softmaxAt (Ws : FVec Ideal ⟨2, ![4096, 2048]⟩ .f32) (W0 : FVec Ideal ⟨2, ![2048, 2048]⟩ .f32) (b : FVec Ideal ⟨1, ![1]⟩ .f32)
    (r c : Fin 4096) : EReal :=
  Ideal.div (Ideal.exp (score Ws W0 b r c - rowMax Ws W0 b r))
    (Ideal.ofBits .f32 0x00000000#32 + ∑ c' : Fin 4096, Ideal.exp (score Ws W0 b r c' - rowMax Ws W0 b r))

/-- The whole result as one function of the three arrays. -/
def G (Ws : FVec Ideal ⟨2, ![4096, 2048]⟩ .f32) (W0 : FVec Ideal ⟨2, ![2048, 2048]⟩ .f32) (b : FVec Ideal ⟨1, ![1]⟩ .f32) :
    FVec Ideal ⟨2, ![4096, 4096]⟩ .f32 :=
  fun i => softmaxAt Ws W0 b ⟨(i 0).val, idx2_lt0 i⟩ ⟨(i 1).val, idx2_lt1 i⟩

/-- At the index with coordinates `(r, c)` the result is the softmax of row `r` at column `c`. -/
theorem G_ix2 (Ws : FVec Ideal ⟨2, ![4096, 2048]⟩ .f32) (W0 : FVec Ideal ⟨2, ![2048, 2048]⟩ .f32) (b : FVec Ideal ⟨1, ![1]⟩ .f32)
    (r c : Fin 4096) : G Ws W0 b (ix2 r c) = softmaxAt Ws W0 b r c := rfl

/-- A fold of `max` is at least the value it starts from, so one more `max` with that value changes nothing:
    the form in which a program that clamps a row maximum from below by `−∞` meets `rowMax`. -/
theorem max_init_fold {ι : Type} (s : Finset ι) (x0 : EReal) (f : ι → EReal) :
    max x0 (s.fold max x0 f) = s.fold max x0 f :=
  max_eq_right ((Finset.le_fold_max x0).mpr (Or.inl le_rfl))

/-- A fold of `max` is determined by its upper bounds: it lies below `u` exactly when the starting value and
    every term do. Two row maxima with the same upper bounds are equal. -/
theorem fold_max_le_iff {ι : Type} (s : Finset ι) (x0 : EReal) (f : ι → EReal) (u : EReal) :
    s.fold max x0 f ≤ u ↔ x0 ≤ u ∧ ∀ i ∈ s, f i ≤ u := Finset.fold_max_le u

end Cert.AttnSpec

end
-- ==== Proof.Math.ChunkMax.lean ====
/-
  A maximum taken chunk by chunk is the maximum taken at once.

  Eight running maxima, each the larger of the previous one and the maximum of one chunk of 512 terms (every fold
  starting from the same value `x0`), end at the maximum, from `x0`, of all 4096 terms: term `c` is term `c % 512`
  of chunk `c / 512`. Both sides are determined by their upper bounds — a maximum lies below `u` exactly when the
  starting value and every term do —, so only the order's laws are used and nothing about the terms.
-/
import Idealize.ShloMosaic.PureOps.Ideal.Laws

namespace Cert.AttnSpec

variable {α : Type} [LinearOrder α]

/-- The running maximum after chunks `0 … j`, each chunk's own maximum folded from `x0`. -/
def chunkFold (x0 : α) (g : ℕ → Fin 512 → α) : ℕ → α
  | 0 => max x0 ((Finset.univ : Finset (Fin 512)).fold max x0 (g 0))
  | j + 1 => max (chunkFold x0 g j) ((Finset.univ : Finset (Fin 512)).fold max x0 (g (j + 1)))

/-- Its upper bounds are those of `x0` and of every term of the chunks `0 … j`. -/
theorem chunkFold_le_iff (x0 : α) (g : ℕ → Fin 512 → α) (j : ℕ) (u : α) :
    chunkFold x0 g j ≤ u ↔ x0 ≤ u ∧ ∀ j' ≤ j, ∀ q : Fin 512, g j' q ≤ u := by
  induction j with
  | zero =>
    show max x0 ((Finset.univ : Finset (Fin 512)).fold max x0 (g 0)) ≤ u ↔ _
    rw [max_le_iff, Finset.fold_max_le]
    constructor
    · rintro ⟨h0, _, h⟩
      refine ⟨h0, fun j' hj' q => ?_⟩
      obtain rfl : j' = 0 := by omega
      exact h q (Finset.mem_univ q)
    · rintro ⟨h0, h⟩
      exact ⟨h0, h0, fun q _ => h 0 le_rfl q⟩
  | succ j ih =>
    show max (chunkFold x0 g j) ((Finset.univ : Finset (Fin 512)).fold max x0 (g (j + 1))) ≤ u ↔ _
    rw [max_le_iff, ih, Finset.fold_max_le]
    constructor
    · rintro ⟨⟨h0, h⟩, _, h'⟩
      refine ⟨h0, fun j' hj' q => ?_⟩
      rcases Nat.lt_or_ge j' (j + 1) with hlt | hge
      · exact h j' (by omega) q
      · obtain rfl : j' = j + 1 := by omega
        exact h' q (Finset.mem_univ q)
    · rintro ⟨h0, h⟩
      exact ⟨⟨h0, fun j' hj' q => h j' (by omega) q⟩, h0, fun q _ => h (j + 1) le_rfl q⟩

/-- Eight chunks of 512 terms that together are the 4096 terms `f`: the last running maximum is the maximum of `f`. -/
theorem chunkFold_eq (x0 : α) (g : ℕ → Fin 512 → α) (f : Fin 4096 → α)
    (hg : ∀ (j : ℕ) (hj : j < 8) (q : Fin 512), g j q = f ⟨512 * j + q.val, by have := q.isLt; omega⟩) :
    chunkFold x0 g 7 = (Finset.univ : Finset (Fin 4096)).fold max x0 f := by
  refine eq_of_forall_ge_iff fun u => ?_
  rw [chunkFold_le_iff, Finset.fold_max_le]
  refine and_congr_right fun _ => ⟨fun h c _ => ?_, fun h j' hj' q => ?_⟩
  · have hc := c.isLt
    have e : f c = g (c.val / 512) ⟨c.val % 512, Nat.mod_lt _ (by norm_num)⟩ := by
      rw [hg (c.val / 512) (by omega)]
      exact congrArg f (Fin.ext (by show c.val = 512 * (c.val / 512) + c.val % 512; omega))
    rw [e]
    exact h (c.val / 512) (by omega) _
  · rw [hg j' (by omega) q]
    exact h _ (Finset.mem_univ _)

end Cert.AttnSpec
-- ==== Proof.Math.PayMatmul.lean ====
/-
  The kernel's two matrix products read at an entry, on the extended reals.

  A product into a zero accumulator is the plain sum of products over the contracted axis. The first product
  contracts the columns of the left block with the rows of the right one (`x0 · x1`); the second contracts the
  COLUMNS of both operands, so it is the left block against the transpose of the right one (`T · x2ᵀ`), and a
  one-entry bias is added to every entry.
-/
import proofs.«161438_j65661460021977_2_alg».proof.Proof.Gen.KernelIdeal.Skeleton
import Idealize.ShloMosaic.Lib.Pipeline.Value
import Idealize.ShloMosaic.Lib.ValueIdx
import Idealize.ShloMosaic.PureOps.Ideal.Laws

noncomputable section

open scoped BigOperators

namespace Cert.AttnPay

open Idealize.ShloMosaic Idealize.ShloMosaic.ValueIdx Cert.KernelIdeal Cert.KernelIdeal.Gen

/-! ## The projection `x0 · x1` -/

theorem proj_lhs0 (i : S256x2048.Idx) (q : dot_S256x2048_S2048x2048_S256x2048_1_0_0_1_n_n.contr.Idx) :
    (dot_S256x2048_S2048x2048_S256x2048_1_0_0_1_n_n.lhsIdx i q 0).val = (i 0).val := by
  unfold DotDims.lhsIdx
  rw [dif_neg (show ¬(0 : Fin S256x2048.rank) ∈ dot_S256x2048_S2048x2048_S256x2048_1_0_0_1_n_n.lhsBatch by decide),
    dif_pos (show (0 : Fin S256x2048.rank) ∈ dot_S256x2048_S2048x2048_S256x2048_1_0_0_1_n_n.lhsNonContracting by decide)]
  rfl
theorem proj_lhs1 (i : S256x2048.Idx) (q : dot_S256x2048_S2048x2048_S256x2048_1_0_0_1_n_n.contr.Idx) :
    (dot_S256x2048_S2048x2048_S256x2048_1_0_0_1_n_n.lhsIdx i q 1).val = (q ⟨0, by decide⟩).val :=
  dot_S256x2048_S2048x2048_S256x2048_1_0_0_1_n_n.lhsIdx_val_of_single rfl i q
theorem proj_rhs0 (i : S256x2048.Idx) (q : dot_S256x2048_S2048x2048_S256x2048_1_0_0_1_n_n.contr.Idx) :
    (dot_S256x2048_S2048x2048_S256x2048_1_0_0_1_n_n.rhsIdx i q 0).val = (q ⟨0, by decide⟩).val :=
  dot_S256x2048_S2048x2048_S256x2048_1_0_0_1_n_n.rhsIdx_val_of_single rfl i q
theorem proj_rhs1 (i : S256x2048.Idx) (q : dot_S256x2048_S2048x2048_S256x2048_1_0_0_1_n_n.contr.Idx) :
    (dot_S256x2048_S2048x2048_S256x2048_1_0_0_1_n_n.rhsIdx i q 1).val = (i 1).val := by
  unfold DotDims.rhsIdx
  rw [dif_neg (show ¬(1 : Fin S2048x2048.rank) ∈ dot_S256x2048_S2048x2048_S256x2048_1_0_0_1_n_n.rhsBatch by decide),
    dif_pos (show (1 : Fin S2048x2048.rank) ∈ dot_S256x2048_S2048x2048_S256x2048_1_0_0_1_n_n.rhsNonContracting by decide)]
  rfl

/-- Entry `(p, q)` of the projected block is row `p` of `x0` against column `q` of `x1`. -/
theorem pay1_apply (x0 : FVec Ideal S256x2048 .bf16) (x1 : FVec Ideal S2048x2048 .bf16) (p : Fin 256) (q : Fin 2048) :
    k0_pay1 (F := Ideal) x0 x1 (ix2 p q) = ∑ l : Fin 2048, x0 (ix2 p l) * x1 (ix2 l q) := by
  unfold k0_pay1
  simp only [shapeCast_self]
  refine (Ideal.matmul_constant_zero_apply dot_S256x2048_S2048x2048_S256x2048_1_0_0_1_n_n none x0 x1 (ix2 p q)).trans ?_
  rw [← Equiv.sum_comp (contrEquiv1 dot_S256x2048_S2048x2048_S256x2048_1_0_0_1_n_n 2048 rfl rfl).symm]
  refine Finset.sum_congr rfl fun k _ => ?_
  have hk := contrEquiv1_symm_val dot_S256x2048_S2048x2048_S256x2048_1_0_0_1_n_n 2048 rfl rfl k
  have el : dot_S256x2048_S2048x2048_S256x2048_1_0_0_1_n_n.lhsIdx (ix2 p q)
      ((contrEquiv1 dot_S256x2048_S2048x2048_S256x2048_1_0_0_1_n_n 2048 rfl rfl).symm k) = ix2 p k :=
    funext fun a => Fin.ext (by
      match a with
      | ⟨0, _⟩ => exact proj_lhs0 _ _
      | ⟨1, _⟩ => exact (proj_lhs1 _ _).trans hk)
  have er : dot_S256x2048_S2048x2048_S256x2048_1_0_0_1_n_n.rhsIdx (ix2 p q)
      ((contrEquiv1 dot_S256x2048_S2048x2048_S256x2048_1_0_0_1_n_n 2048 rfl rfl).symm k) = ix2 k q :=
    funext fun a => Fin.ext (by
      match a with
      | ⟨0, _⟩ => exact (proj_rhs0 _ _).trans hk
      | ⟨1, _⟩ => exact proj_rhs1 _ _)
  rw [el, er]

/-! ## The scores `T · x2ᵀ + b` -/

theorem score_lhs0 (i : S256x512.Idx) (q : dot_S256x2048_S512x2048_S256x512_1_1_0_0_n_n.contr.Idx) :
    (dot_S256x2048_S512x2048_S256x512_1_1_0_0_n_n.lhsIdx i q 0).val = (i 0).val := by
  unfold DotDims.lhsIdx
  rw [dif_neg (show ¬(0 : Fin S256x2048.rank) ∈ dot_S256x2048_S512x2048_S256x512_1_1_0_0_n_n.lhsBatch by decide),
    dif_pos (show (0 : Fin S256x2048.rank) ∈ dot_S256x2048_S512x2048_S256x512_1_1_0_0_n_n.lhsNonContracting by decide)]
  rfl
theorem score_lhs1 (i : S256x512.Idx) (q : dot_S256x2048_S512x2048_S256x512_1_1_0_0_n_n.contr.Idx) :
    (dot_S256x2048_S512x2048_S256x512_1_1_0_0_n_n.lhsIdx i q 1).val = (q ⟨0, by decide⟩).val :=
  dot_S256x2048_S512x2048_S256x512_1_1_0_0_n_n.lhsIdx_val_of_single rfl i q
theorem score_rhs0 (i : S256x512.Idx) (q : dot_S256x2048_S512x2048_S256x512_1_1_0_0_n_n.contr.Idx) :
    (dot_S256x2048_S512x2048_S256x512_1_1_0_0_n_n.rhsIdx i q 0).val = (i 1).val := by
  unfold DotDims.rhsIdx
  rw [dif_neg (show ¬(0 : Fin S512x2048.rank) ∈ dot_S256x2048_S512x2048_S256x512_1_1_0_0_n_n.rhsBatch by decide),
    dif_pos (show (0 : Fin S512x2048.rank) ∈ dot_S256x2048_S512x2048_S256x512_1_1_0_0_n_n.rhsNonContracting by decide)]
  rfl
theorem score_rhs1 (i : S256x512.Idx) (q : dot_S256x2048_S512x2048_S256x512_1_1_0_0_n_n.contr.Idx) :
    (dot_S256x2048_S512x2048_S256x512_1_1_0_0_n_n.rhsIdx i q 1).val = (q ⟨0, by decide⟩).val :=
  dot_S256x2048_S512x2048_S256x512_1_1_0_0_n_n.rhsIdx_val_of_single rfl i q

/-- The one-entry bias, cast to a 1 × 1 block and broadcast over the 256 × 512 scores, reads the entry everywhere. -/
theorem bias_apply (b : FVec Ideal S1 .f32) (p : Fin 256) (q : Fin 512) :
    broadcastTo S256x512 (shapeCast S1x1 b shapeCasts_S1_S1x1) broadcasts_S1x1_S256x512 (ix2 p q) = b (ix1 (0 : Fin 1)) := by
  refine (broadcastTo_apply _ broadcasts_S1x1_S256x512 (ix2 p q) (ix2 (0 : Fin 1) (0 : Fin 1)) (fun a => by
    match a with
    | ⟨0, _⟩ => rfl
    | ⟨1, _⟩ => rfl)).trans ?_
  exact shapeCast_apply b shapeCasts_S1_S1x1 (ix2 (0 : Fin 1) (0 : Fin 1)) (ix1 (0 : Fin 1)) (by
    rw [Shape.rowMajor_val_two, Shape.rowMajor_val_one]; rfl)

/-- Entry `(p, q)` of a chunk's scores is row `p` of the projected block against ROW `q` of the chunk, plus the bias. -/
theorem pay3_apply (T : FVec Ideal S256x2048 .f32) (x2 : FVec Ideal S512x2048 .f32) (b : FVec Ideal S1 .f32)
    (p : Fin 256) (q : Fin 512) :
    k0_pay3 (F := Ideal) T x2 b (ix2 p q) = (∑ k : Fin 2048, T (ix2 p k) * x2 (ix2 q k)) + b (ix1 (0 : Fin 1)) := by
  unfold k0_pay3
  refine (addf_apply _ _ (ix2 p q)).trans ?_
  rw [bias_apply]
  refine congrArg (· + b (ix1 (0 : Fin 1))) ?_
  refine (Ideal.matmul_constant_zero_apply dot_S256x2048_S512x2048_S256x512_1_1_0_0_n_n (some .fp32) T x2 (ix2 p q)).trans ?_
  rw [← Equiv.sum_comp (contrEquiv1 dot_S256x2048_S512x2048_S256x512_1_1_0_0_n_n 2048 rfl rfl).symm]
  refine Finset.sum_congr rfl fun k _ => ?_
  have hk := contrEquiv1_symm_val dot_S256x2048_S512x2048_S256x512_1_1_0_0_n_n 2048 rfl rfl k
  have el : dot_S256x2048_S512x2048_S256x512_1_1_0_0_n_n.lhsIdx (ix2 p q)
      ((contrEquiv1 dot_S256x2048_S512x2048_S256x512_1_1_0_0_n_n 2048 rfl rfl).symm k) = ix2 p k :=
    funext fun a => Fin.ext (by
      match a with
      | ⟨0, _⟩ => exact score_lhs0 _ _
      | ⟨1, _⟩ => exact (score_lhs1 _ _).trans hk)
  have er : dot_S256x2048_S512x2048_S256x512_1_1_0_0_n_n.rhsIdx (ix2 p q)
      ((contrEquiv1 dot_S256x2048_S512x2048_S256x512_1_1_0_0_n_n 2048 rfl rfl).symm k) = ix2 q k :=
    funext fun a => Fin.ext (by
      match a with
      | ⟨0, _⟩ => exact score_rhs0 _ _
      | ⟨1, _⟩ => exact (score_rhs1 _ _).trans hk)
  rw [el, er]

end Cert.AttnPay

end
-- ==== Proof.Math.PayReduce.lean ====
/-
  The kernel's row reductions read at an entry, on the extended reals.

  The running row maximum starts from `−∞` everywhere. Folding a chunk into it takes, row by row, the larger of the
  running value and the maximum of the chunk's 512 scores in that row (itself folded from `−∞`). The last step
  subtracts each row's maximum from the row's 4096 scores, exponentiates, and divides every entry by the sum of its
  row, the sum taken from zero.
-/
import proofs.«161438_j65661460021977_2_alg».proof.Proof.Gen.KernelIdeal.Skeleton
import Idealize.ShloMosaic.Lib.Pipeline.Value
import Idealize.ShloMosaic.Lib.ValueIdx
import Idealize.ShloMosaic.PureOps.Ideal.Laws

noncomputable section

open scoped BigOperators

namespace Cert.AttnPay

open Idealize.ShloMosaic Idealize.ShloMosaic.ValueIdx Cert.KernelIdeal Cert.KernelIdeal.Gen

/-! ## Two layout steps: a vector of 256 entries as a column, and a column spread over 4096 columns -/

/-- A vector of 256 entries cast to a 256 × 1 column reads entry `p` at `(p, 0)`. -/
theorem col_apply (v : FVec Ideal S256 .f32) (p : Fin 256) :
    shapeCast S256x1 v shapeCasts_S256_S256x1 (ix2 p (0 : Fin 1)) = v (ix1 p) :=
  shapeCast_apply v shapeCasts_S256_S256x1 (ix2 p (0 : Fin 1)) (ix1 p) (by
    rw [Shape.rowMajor_val_one, Shape.rowMajor_val_two]; show p.val = p.val * 1 + 0; omega)

/-- A 256 × 1 column broadcast over 4096 columns reads the column's entry of the same row everywhere. -/
theorem spread_apply (v : FVec Ideal S256x1 .f32) (p : Fin 256) (c : Fin 4096) :
    broadcastTo S256x4096 v broadcasts_S256x1_S256x4096 (ix2 p c) = v (ix2 p (0 : Fin 1)) :=
  broadcastTo_apply v broadcasts_S256x1_S256x4096 (ix2 p c) (ix2 p (0 : Fin 1)) (fun a => by
    match a with
    | ⟨0, _⟩ => show p.val = if (256 : ℕ) = 1 then 0 else p.val; rw [if_neg (by decide)]
    | ⟨1, _⟩ => show 0 = if (1 : ℕ) = 1 then 0 else c.val; rw [if_pos rfl])

/-! ## The running maximum -/

/-- The fill the running maximum starts from is `−∞` at every entry. -/
theorem pay2_apply (i : S256x1.Idx) : k0_pay2 (F := Ideal) i = Ideal.ofBits .f32 0xFF800000#32 := by
  unfold k0_pay2
  simp only [shapeCast_self]
  rfl

/-- Row `p` of the reduced index put back at column `q` of a 256 × 512 block is `(p, q)`. -/
theorem lift512 (p : Fin 256) (q : Fin 512) : reduces_S256x512_S256.lift (ix1 p) q = ix2 p q :=
  funext fun a => Fin.ext (by
    match a with
    | ⟨0, _⟩ => rfl
    | ⟨1, _⟩ => rfl)

/-- Folding a chunk into the running maximum `M`: at row `p` the larger of `M` there and the maximum, from `−∞`, of
    the chunk's 512 scores in that row. -/
theorem pay4_apply (T : FVec Ideal S256x2048 .f32) (x2 : FVec Ideal S512x2048 .f32) (b : FVec Ideal S1 .f32)
    (M : FVec Ideal S256x1 .f32) (p : Fin 256) :
    k0_pay4 (F := Ideal) T x2 b M (ix2 p (0 : Fin 1))
      = max (M (ix2 p (0 : Fin 1)))
          ((Finset.univ : Finset (Fin 512)).fold max (Ideal.ofBits .f32 0xFF800000#32)
            (fun q => k0_pay3 (F := Ideal) T x2 b (ix2 p q))) := by
  unfold k0_pay4
  simp only [shapeCast_self]
  refine (maximumf_apply _ _ (ix2 p (0 : Fin 1))).trans ?_
  refine congrArg (max (M (ix2 p (0 : Fin 1)))) ?_
  refine (col_apply _ p).trans ?_
  refine (Ideal.multiReduction_maximumf_single (k0_pay3 (F := Ideal) T x2 b) 0xFF800000#32 reduces_S256x512_S256 _ _ (ix1 p)).trans ?_
  show (Finset.univ : Finset (Fin 512)).fold max (Ideal.ofBits .f32 0xFF800000#32)
    (fun q : Fin 512 => k0_pay3 (F := Ideal) T x2 b (reduces_S256x512_S256.lift (ix1 p) q)) = _
  exact Finset.fold_congr fun q _ => congrArg (k0_pay3 (F := Ideal) T x2 b) (lift512 p q)

/-! ## The normalisation -/

/-- Row `p` of the reduced index put back at column `c` of a 256 × 4096 block is `(p, c)`. -/
theorem lift4096 (p : Fin 256) (c : Fin 4096) : reduces_S256x4096_S256.lift (ix1 p) c = ix2 p c :=
  funext fun a => Fin.ext (by
    match a with
    | ⟨0, _⟩ => rfl
    | ⟨1, _⟩ => rfl)

/-- The exponential of a score shifted by its row's maximum. -/
theorem shifted_apply (M : FVec Ideal S256x1 .f32) (S : FVec Ideal S256x4096 .f32) (p : Fin 256) (c : Fin 4096) :
    Idealize.ShloMosaic.exp (subf S (broadcastTo S256x4096 M broadcasts_S256x1_S256x4096)) (ix2 p c)
      = Ideal.exp (S (ix2 p c) - M (ix2 p (0 : Fin 1))) := by
  show Ideal.exp (S (ix2 p c) - broadcastTo S256x4096 M broadcasts_S256x1_S256x4096 (ix2 p c)) = _
  rw [spread_apply]

/-- The last step at `(p, c)`: the shifted exponential there over the sum, from zero, of the shifted exponentials
    of row `p`. -/
theorem pay5_apply (M : FVec Ideal S256x1 .f32) (S : FVec Ideal S256x4096 .f32) (p : Fin 256) (c : Fin 4096) :
    k0_pay5 (F := Ideal) M S (ix2 p c)
      = Ideal.div (Ideal.exp (S (ix2 p c) - M (ix2 p (0 : Fin 1))))
          (Ideal.ofBits .f32 0x00000000#32 + ∑ c' : Fin 4096, Ideal.exp (S (ix2 p c') - M (ix2 p (0 : Fin 1)))) := by
  unfold k0_pay5
  simp only [shapeCast_self]
  refine (divf_apply _ _ (ix2 p c)).trans ?_
  refine congrArg₂ Ideal.div (shifted_apply M S p c) ?_
  refine (spread_apply _ p c).trans ?_
  refine (col_apply _ p).trans ?_
  refine (Ideal.multiReduction_add_single _ 0x00000000#32 reduces_S256x4096_S256 _ _ (ix1 p)).trans ?_
  rw [Ideal.ofBits_zero_f32, zero_add]
  show ∑ k : Fin 4096, Idealize.ShloMosaic.exp (subf S (broadcastTo S256x4096 M broadcasts_S256x1_S256x4096))
    (reduces_S256x4096_S256.lift (ix1 p) k) = _
  refine Finset.sum_congr rfl fun k _ => ?_
  rw [lift4096]
  exact shifted_apply M S p k

end Cert.AttnPay

end
-- ==== Proof.Math.BlockSpec.lean ====
/-
  One row block of the kernel is the matching 256 rows of the row softmax.

  Row block `I` loads rows `256 I … 256 I + 255` of `Ws` as its query block, the square matrix, and for chunk `j`
  rows `512 j … 512 j + 511` of the same `Ws` as keys. Then the projected block is the projection of those rows, the
  scores of chunk `j` are columns `512 j … 512 j + 511` of the score matrix, the eight running maxima end at the
  row maximum over all 4096 columns (a maximum taken chunk by chunk is the maximum taken at once), and the last step
  is the softmax's quotient.
-/
import proofs.«161438_j65661460021977_2_alg».proof.Proof.BlockRun
import proofs.«161438_j65661460021977_2_alg».proof.Proof.Math.Spec
import proofs.«161438_j65661460021977_2_alg».proof.Proof.Math.ChunkMax
import proofs.«161438_j65661460021977_2_alg».proof.Proof.Math.PayMatmul
import proofs.«161438_j65661460021977_2_alg».proof.Proof.Math.PayReduce

noncomputable section

open scoped BigOperators

namespace Cert.AttnBlock

open Idealize.ShloMosaic Idealize.ShloMosaic.ValueIdx Cert.KernelIdeal Cert.KernelIdeal.Gen Cert.KernelIdeal.Block
  Cert.AttnSpec Cert.AttnPay

variable (Ws : FVec Ideal S4096x2048 .f32) (W0 : FVec Ideal S2048x2048 .f32) (b : FVec Ideal S1 .f32) (I : Fin 16)
  (x0 : FVec Ideal S256x2048 .bf16) (x1 : FVec Ideal S2048x2048 .bf16) (x2 : ℕ → FVec Ideal S512x2048 .f32)
  (x3 : FVec Ideal S1 .f32)

/-- Row `p` of row block `I` as a row of the whole array. -/
abbrev rowOf (I : Fin 16) (p : Fin 256) : Fin 4096 := ⟨256 * I.val + p.val, by have := I.isLt; have := p.isLt; omega⟩

/-- Position `q` of chunk `j` as a column of the whole score matrix. -/
abbrev colOf (j : ℕ) (hj : j < 8) (q : Fin 512) : Fin 4096 := ⟨512 * j + q.val, by have := q.isLt; omega⟩

/-- The projected block is the projection of the block's rows. -/
theorem projBlock_apply
    (h0 : ∀ (p : Fin 256) (q : Fin 2048), x0 (ix2 p q) = Ws (ix2 (rowOf I p) q))
    (h1 : ∀ (p q : Fin 2048), x1 (ix2 p q) = W0 (ix2 p q)) (p : Fin 256) (k : Fin 2048) :
    k0_pay1 (F := Ideal) x0 x1 (ix2 p k) = proj Ws W0 (rowOf I p) k := by
  rw [pay1_apply]
  unfold proj
  exact Finset.sum_congr rfl fun l _ => by rw [h0, h1]

/-- The scores of chunk `j` are the score matrix at the block's rows and the chunk's columns. -/
theorem scoreChunk_apply
    (h0 : ∀ (p : Fin 256) (q : Fin 2048), x0 (ix2 p q) = Ws (ix2 (rowOf I p) q))
    (h1 : ∀ (p q : Fin 2048), x1 (ix2 p q) = W0 (ix2 p q))
    (h2 : ∀ (j : ℕ) (hj : j < 8) (p : Fin 512) (q : Fin 2048), x2 j (ix2 p q) = Ws (ix2 (colOf j hj p) q))
    (h3 : x3 = b) (p : Fin 256) (j : ℕ) (hj : j < 8) (q : Fin 512) :
    k0_pay3 (F := Ideal) (k0_pay1 (F := Ideal) x0 x1) (x2 j) x3 (ix2 p q) = score Ws W0 b (rowOf I p) (colOf j hj q) := by
  rw [pay3_apply, h3]
  unfold score
  refine congrArg (· + b (ix1 (0 : Fin 1))) (Finset.sum_congr rfl fun k _ => ?_)
  rw [projBlock_apply Ws W0 I x0 x1 h0 h1, h2 j hj]

/-- The completed scores block is the score matrix at the block's rows. -/
theorem scoresFull_apply
    (h0 : ∀ (p : Fin 256) (q : Fin 2048), x0 (ix2 p q) = Ws (ix2 (rowOf I p) q))
    (h1 : ∀ (p q : Fin 2048), x1 (ix2 p q) = W0 (ix2 p q))
    (h2 : ∀ (j : ℕ) (hj : j < 8) (p : Fin 512) (q : Fin 2048), x2 j (ix2 p q) = Ws (ix2 (colOf j hj p) q))
    (h3 : x3 = b) (p : Fin 256) (c : Fin 4096) :
    scoresFull (F := Ideal) (k0_pay1 (F := Ideal) x0 x1) x2 x3 (ix2 p c) = score Ws W0 b (rowOf I p) c := by
  have hc := c.isLt
  have hj : c.val / 512 < 8 := by omega
  show k0_pay3 (F := Ideal) (k0_pay1 (F := Ideal) x0 x1) (x2 (c.val / 512)) x3
    (ix2 p (⟨c.val % 512, Nat.mod_lt _ (by norm_num)⟩ : Fin 512)) = _
  rw [scoreChunk_apply Ws W0 b I x0 x1 x2 x3 h0 h1 h2 h3 p (c.val / 512) hj]
  exact congrArg (score Ws W0 b (rowOf I p)) (Fin.ext (by show 512 * (c.val / 512) + c.val % 512 = c.val; omega))

/-- The running maximum after chunks `0 … j`, at row `p`, is the chunk-by-chunk maximum of the chunks' scores. -/
theorem runMax_apply (T : FVec Ideal S256x2048 .f32) (p : Fin 256) (j : ℕ) :
    runMax (F := Ideal) T x2 x3 j (ix2 p (0 : Fin 1))
      = chunkFold (Ideal.ofBits .f32 0xFF800000#32) (fun j q => k0_pay3 (F := Ideal) T (x2 j) x3 (ix2 p q)) j := by
  induction j with
  | zero =>
    show k0_pay4 (F := Ideal) T (x2 0) x3 (k0_pay2 (F := Ideal)) (ix2 p (0 : Fin 1)) = _
    rw [pay4_apply, pay2_apply]
    rfl
  | succ j ih =>
    show k0_pay4 (F := Ideal) T (x2 (j + 1)) x3 (runMax (F := Ideal) T x2 x3 j) (ix2 p (0 : Fin 1)) = _
    rw [pay4_apply, ih]
    rfl

/-- The final running maximum is the row maximum of the score matrix. -/
theorem runMax_final
    (h0 : ∀ (p : Fin 256) (q : Fin 2048), x0 (ix2 p q) = Ws (ix2 (rowOf I p) q))
    (h1 : ∀ (p q : Fin 2048), x1 (ix2 p q) = W0 (ix2 p q))
    (h2 : ∀ (j : ℕ) (hj : j < 8) (p : Fin 512) (q : Fin 2048), x2 j (ix2 p q) = Ws (ix2 (colOf j hj p) q))
    (h3 : x3 = b) (p : Fin 256) :
    runMax (F := Ideal) (k0_pay1 (F := Ideal) x0 x1) x2 x3 7 (ix2 p (0 : Fin 1)) = rowMax Ws W0 b (rowOf I p) := by
  rw [runMax_apply]
  unfold rowMax
  exact chunkFold_eq _ _ _ fun j hj q => scoreChunk_apply Ws W0 b I x0 x1 x2 x3 h0 h1 h2 h3 p j hj q

/-- THE BLOCK: what row block `I` leaves at `(p, c)` is the row softmax at row `256 I + p`, column `c`. -/
theorem outBlock_eq
    (h0 : ∀ (p : Fin 256) (q : Fin 2048), x0 (ix2 p q) = Ws (ix2 (rowOf I p) q))
    (h1 : ∀ (p q : Fin 2048), x1 (ix2 p q) = W0 (ix2 p q))
    (h2 : ∀ (j : ℕ) (hj : j < 8) (p : Fin 512) (q : Fin 2048), x2 j (ix2 p q) = Ws (ix2 (colOf j hj p) q))
    (h3 : x3 = b) (p : Fin 256) (c : Fin 4096) :
    outBlock (F := Ideal) x0 x1 x2 x3 (ix2 p c) = G Ws W0 b (ix2 (rowOf I p) c) := by
  unfold outBlock
  rw [pay5_apply, G_ix2, runMax_final Ws W0 b I x0 x1 x2 x3 h0 h1 h2 h3 p,
    scoresFull_apply Ws W0 b I x0 x1 x2 x3 h0 h1 h2 h3 p c]
  unfold softmaxAt
  refine congrArg (fun s => Ideal.div _ (Ideal.ofBits .f32 0x00000000#32 + s)) (Finset.sum_congr rfl fun c' _ => ?_)
  rw [scoresFull_apply Ws W0 b I x0 x1 x2 x3 h0 h1 h2 h3 p c']

end Cert.AttnBlock

end
-- ==== Proof.Math.RefSpec.lean ====
/-
  The reference program computes the row softmax of the bilinear scores.

  Its stages are read at an entry one after the other: the reshaped square matrix, the projection `Ws · W0`, the
  transpose and the second product (together `T · Wsᵀ`), the bias, the row maximum — one reduction from `−∞`
  followed by one more maximum with `−∞`, which changes nothing —, the shifted exponentials, their row sums from
  zero, and the quotient.
-/
import proofs.«161438_j65661460021977_2_alg».proof.Proof.Gen.ReferenceIdeal.Read
import proofs.«161438_j65661460021977_2_alg».proof.Proof.Math.Spec

noncomputable section

open scoped BigOperators

namespace Cert.AttnRef

open Idealize.ShloMosaic Idealize.ShloMosaic.ValueIdx Cert.ReferenceIdeal Cert.ReferenceIdeal.Gen Cert.ReferenceIdeal.Read Cert.AttnSpec

variable (x0 : (⟨S4096x2048, .f32⟩ : BufTy).Contents (Elt Ideal)) (x1 : (⟨S1x2048x2048, .f32⟩ : BufTy).Contents (Elt Ideal))
  (x2 : (⟨S1, .f32⟩ : BufTy).Contents (Elt Ideal))

/-- The square matrix the reference multiplies by: the 1 × 2048 × 2048 argument with its unit axis dropped. -/
abbrev W0 : FVec Ideal ⟨2, ![2048, 2048]⟩ .f32 := val_main_v0 (F := Ideal) x1

/-- Entry `(l, k)` of the square matrix is entry `(0, l, k)` of the argument. -/
theorem W0_apply (l k : Fin 2048) : W0 x1 (ix2 l k) = x1 (ix3 (0 : Fin 1) l k) := by
  refine (val_main_v0_apply (F := Ideal) x1 (ix2 l k)).trans (congrArg x1 (funext fun a => Fin.ext ?_))
  have hl := l.isLt
  have hk := k.isLt
  match a with
  | ⟨0, _⟩ => rfl
  | ⟨1, _⟩ => show (l.val * 2048 + k.val) / 2048 % 2048 = l.val; omega
  | ⟨2, _⟩ => show (l.val * 2048 + k.val) % 2048 = k.val; omega

/-- The first product is the projection. -/
theorem v1_at (r : Fin 4096) (k : Fin 2048) :
    val_main_v1 (F := Ideal) x0 x1 (ix2 r k) = proj x0 (W0 x1) r k := by
  rw [val_main_v1_apply]
  unfold proj
  refine Finset.sum_congr rfl fun l _ => ?_
  have el : lidx_main_v1 (ix2 r k) l = ix2 r l :=
    funext fun a => Fin.ext (by match a with | ⟨0, _⟩ => rfl | ⟨1, _⟩ => rfl)
  have er : ridx_main_v1 (ix2 r k) l = ix2 l k :=
    funext fun a => Fin.ext (by match a with | ⟨0, _⟩ => rfl | ⟨1, _⟩ => rfl)
  rw [el, er]

/-- The second product contracts the projection with the transposed array: row `r` of the projection against
    row `c` of `Ws`. -/
theorem v3_at (r c : Fin 4096) :
    val_main_v3 (F := Ideal) x0 x1 (ix2 r c) = ∑ k : Fin 2048, proj x0 (W0 x1) r k * x0 (ix2 c k) := by
  rw [val_main_v3_apply]
  refine Finset.sum_congr rfl fun k _ => ?_
  have el : lidx_main_v3 (ix2 r c) k = ix2 r k :=
    funext fun a => Fin.ext (by match a with | ⟨0, _⟩ => rfl | ⟨1, _⟩ => rfl)
  have er : idx_main_v2 (ridx_main_v3 (ix2 r c) k) = ix2 c k :=
    funext fun a => Fin.ext (by match a with | ⟨0, _⟩ => rfl | ⟨1, _⟩ => rfl)
  rw [el, v1_at, val_main_v2_apply, er]

/-- The bias reshaped to a scalar and broadcast reads the one entry of the bias. -/
theorem v5_at (i : S4096x4096.Idx) : val_main_v5 (F := Ideal) x2 i = x2 (ix1 (0 : Fin 1)) := by
  rw [val_main_v5_apply]
  unfold val_main_v4
  refine shapeCast_apply x2 shapeCasts_S1_S_ _ (ix1 (0 : Fin 1)) ?_
  show (S1.rowMajor (ix1 (0 : Fin 1))).val = (S_.rowMajor (idx_main_v5 i)).val
  have h1 : (S1.rowMajor (ix1 (0 : Fin 1))).val < 1 := (S1.rowMajor (ix1 (0 : Fin 1))).isLt
  have h2 : (S_.rowMajor (idx_main_v5 i)).val < 1 := (S_.rowMajor (idx_main_v5 i)).isLt
  omega

/-- The biased scores. -/
theorem v6_at (r c : Fin 4096) :
    val_main_v6 (F := Ideal) x0 x1 x2 (ix2 r c) = score x0 (W0 x1) x2 r c := by
  rw [val_main_v6_apply, v3_at, v5_at]
  rfl

/-- Column `c` put back into the reduced index `r` of a 4096 × 4096 array is `(r, c)`. -/
theorem lift_rows (h : S4096x4096.Reduces [1] S4096) (r c : Fin 4096) : h.lift (ix1 r) c = ix2 r c :=
  funext fun a => Fin.ext (by
    match a with
    | ⟨0, _⟩ => rfl
    | ⟨1, _⟩ => rfl)

/-- The row maximum: the reduction from `−∞`, and the further maximum with `−∞` that leaves it as it is. -/
theorem v9_at (r : Fin 4096) : val_main_v9 (F := Ideal) x0 x1 x2 (ix1 r) = rowMax x0 (W0 x1) x2 r := by
  have h : S4096x4096.Reduces [1] S4096 := by decide
  rw [val_main_v9_apply, val_main_v8_apply, val_main_cst_0_apply]
  unfold val_main_v7
  have hfold := Host.reduce_eq_fold_single (α := Ideal .f32) FloatOps.maximumf (val_main_v6 (F := Ideal) x0 x1 x2)
    (val_main_cst (F := Ideal)) reducesTo_S4096x4096_S4096_d1 h h_S_ (ix1 r)
  refine (congrArg (max (Ideal.ofBits .f32 0xFF800000#32)) hfold).trans ?_
  show max (Ideal.ofBits .f32 0xFF800000#32) ((Finset.univ : Finset (Fin 4096)).fold max (Ideal.ofBits .f32 0xFF800000#32)
    (fun c : Fin 4096 => val_main_v6 (F := Ideal) x0 x1 x2 (h.lift (ix1 r) c))) = _
  rw [max_init_fold]
  unfold rowMax
  refine Finset.fold_congr fun c _ => ?_
  rw [lift_rows, v6_at]

/-- The shifted exponentials. -/
theorem v13_at (r c : Fin 4096) :
    val_main_v13 (F := Ideal) x0 x1 x2 (ix2 r c) = Ideal.exp (score x0 (W0 x1) x2 r c - rowMax x0 (W0 x1) x2 r) := by
  have e : idx_main_v10 (idx_main_v11 (ix2 r c)) = ix1 r :=
    funext fun a => Fin.ext (by match a with | ⟨0, _⟩ => rfl)
  rw [val_main_v13_apply, val_main_v12_apply, v6_at, val_main_v11_apply, val_main_v10_apply, e, v9_at]
  rfl

/-- The reference's result at `(r, c)`. -/
theorem v17_at (r c : Fin 4096) :
    val_main_v17 (F := Ideal) x0 x1 x2 (ix2 r c) = softmaxAt x0 (W0 x1) x2 r c := by
  have e : idx_main_v15 (idx_main_v16 (ix2 r c)) = ix1 r :=
    funext fun a => Fin.ext (by match a with | ⟨0, _⟩ => rfl)
  rw [val_main_v17_apply, v13_at, val_main_v16_apply, val_main_v15_apply, e, val_main_v14_apply, val_main_cst_1_apply]
  unfold softmaxAt
  refine congrArg (fun s => Ideal.div _ (Ideal.ofBits .f32 0x00000000#32 + s)) (Finset.sum_congr rfl fun k _ => ?_)
  have ek : idx_main_v14 (ix1 r) k = ix2 r k :=
    funext fun a => Fin.ext (by match a with | ⟨0, _⟩ => rfl | ⟨1, _⟩ => rfl)
  rw [ek, v13_at]

/-- THE REFERENCE IS THE SPECIFICATION: its last stage is the row softmax of the scores of its first argument, the
    reshaped second argument and the bias. -/
theorem reference_eq_G : val_main_v17 (F := Ideal) x0 x1 x2 = G x0 (W0 x1) x2 := by
  funext i
  obtain ⟨r, c, rfl⟩ : ∃ (r c : Fin 4096), i = ix2 r c := ⟨i 0, i 1, eq_ix2 i⟩
  rw [v17_at, G_ix2]

end Cert.AttnRef

end
-- ==== Proof.Math.Arrays.lean ====
/-
  The kernel's four input blocks as functions of the three argument arrays, on the extended reals.

  Point `t` of the 16 × 8 grid works on row block `t / 8` and key chunk `t % 8`. Its query block is rows
  `256 (t / 8) …` of the first argument (converted to a narrower format before the region, which changes nothing on
  the extended reals); its weight block is the whole square matrix, the second argument with its unit axis dropped
  (and converted likewise); its key block is rows `512 (t % 8) …` of the first argument again; its bias block is the
  third argument. An element of a block sits in its array, on each axis, at the block's index times the block's
  size plus the element's own coordinate.
-/
import proofs.«161438_j65661460021977_2_alg».proof.Proof.IdealBody.Data
import proofs.«161438_j65661460021977_2_alg».proof.Proof.Math.BlockSpec
import proofs.«161438_j65661460021977_2_alg».proof.Proof.Math.RefSpec
import Idealize.ShloMosaic.Lib.Pipeline.Value
import Idealize.ShloMosaic.Lib.ValueIdx
import Idealize.ShloMosaic.Lib.StableHlo.Run

set_option maxRecDepth 16384

noncomputable section

namespace Cert.AttnArrays

open Idealize.ShloMosaic Idealize.ShloMosaic.TcCoe Idealize.ShloMosaic.ValueIdx Idealize.SL.Sem Idealize.ShloMosaic.StableHlo
open Cert.KernelIdeal Cert.KernelIdeal.Gen Cert.KernelIdeal.Body

variable (m : (ℓ : Loc nD τ sig) → Buf (Elt Ideal) ℓ) (c : Dev nD)

/-! ## Where each window's block sits at a point -/

/-- The windows' block indices, decided once over the 128 points: the query window moves with the row block, the key
    window with the chunk, the weight and the bias windows stay. -/
theorem idx_facts : ∀ t : Fin cfg0.N,
    win0_0.index t (0 : Fin 2) = t.val / 8 ∧ win0_0.index t (1 : Fin 2) = 0
    ∧ win0_1.index t (0 : Fin 2) = 0 ∧ win0_1.index t (1 : Fin 2) = 0
    ∧ win0_2.index t (0 : Fin 2) = t.val % 8 ∧ win0_2.index t (1 : Fin 2) = 0
    ∧ win0_3.index t (0 : Fin 1) = 0 :=
  (by decide +kernel : ∀ t : Fin grid0.N, _)

/-- A point's row block is one of the sixteen. -/
theorem rows_lt (t : Fin cfg0.N) : t.val / 8 < 16 := by
  have h : t.val < cfg0.N := t.isLt
  have hN : cfg0.N = 128 := N_eq
  omega

/-! ## The arrays the region finds -/

/-- The query window's array is the first argument, converted: the same extended reals. -/
theorem V_query (i : S4096x2048.Idx) : V m c main_v0 i = m ((c : Thread nD τ).loc main_arg0) i := by
  have e : (V m c main_v0 : S4096x2048.Idx → EReal)
      = truncf (F := Ideal) .bf16 (m ((c : Thread nD τ).loc main_arg0)) bitsLt_bf16_f32 := by
    dsimp only [Gen.V, Gen.hostOps0]; after_results
  exact congrFun e i

/-- The weight window's array is the second argument with its unit axis dropped, converted. -/
theorem V_weight (i : S2048x2048.Idx) :
    V m c main_v2 i = shapeCast S2048x2048 (m ((c : Thread nD τ).loc main_arg1)) shapeCasts_S1x2048x2048_S2048x2048 i := by
  have e : (V m c main_v2 : S2048x2048.Idx → EReal)
      = truncf (F := Ideal) .bf16 (shapeCast S2048x2048 (m ((c : Thread nD τ).loc main_arg1)) shapeCasts_S1x2048x2048_S2048x2048)
          bitsLt_bf16_f32 := by
    dsimp only [Gen.V, Gen.hostOps0]; after_results; rfl
  exact congrFun e i

/-- Entry `(l, k)` of the reshaped second argument is its entry `(0, l, k)`. -/
theorem reshaped_apply (W : FVec Ideal S1x2048x2048 .f32) (l k : Fin 2048) :
    shapeCast S2048x2048 W shapeCasts_S1x2048x2048_S2048x2048 (ix2 l k) = W (ix3 (0 : Fin 1) l k) :=
  shapeCast_apply W shapeCasts_S1x2048x2048_S2048x2048 (ix2 l k) (ix3 (0 : Fin 1) l k) (by
    rw [Shape.rowMajor_val_three, Shape.rowMajor_val_two]
    show (0 * 2048 + l.val) * 2048 + k.val = l.val * 2048 + k.val
    omega)

/-! ## The four blocks -/

/-- The query block at point `t`: rows `256 (t / 8) …` of the first argument. -/
theorem blk0_apply (t : Fin cfg0.N) (p : Fin 256) (q : Fin 2048) :
    blk0 m c t (ix2 p q)
      = m ((c : Thread nD τ).loc main_arg0)
          (ix2 (⟨256 * (t.val / 8) + p.val, by have := rows_lt t; have := p.isLt; omega⟩ : Fin 4096) q) := by
  obtain ⟨e0, e1, -⟩ := idx_facts t
  show V m c main_v0 (((cfg0.win 0).blk t).view.emb (ix2 p q)) = _
  refine (V_query m c _).trans (congrArg (m ((c : Thread nD τ).loc main_arg0)) (funext fun a => Fin.ext ?_))
  match a with
  | ⟨0, _⟩ => show win0_0.index t (0 : Fin 2) * 256 + 1 * p.val = 256 * (t.val / 8) + p.val; omega
  | ⟨1, _⟩ => show win0_0.index t (1 : Fin 2) * 2048 + 1 * q.val = q.val; omega

/-- The weight block at every point: the second argument's entry `(0, p, q)`. -/
theorem blk1_apply_ix3 (t : Fin cfg0.N) (p q : Fin 2048) :
    blk1 m c t (ix2 p q) = m ((c : Thread nD τ).loc main_arg1) (ix3 (0 : Fin 1) p q) := by
  obtain ⟨-, -, e0, e1, -⟩ := idx_facts t
  show V m c main_v2 (((cfg0.win 1).blk t).view.emb (ix2 p q)) = _
  have ei : ((cfg0.win 1).blk t).view.emb (ix2 p q) = ix2 p q := funext fun a => Fin.ext (by
    match a with
    | ⟨0, _⟩ => show win0_1.index t (0 : Fin 2) * 2048 + 1 * p.val = p.val; omega
    | ⟨1, _⟩ => show win0_1.index t (1 : Fin 2) * 2048 + 1 * q.val = q.val; omega)
  rw [ei]
  exact (V_weight m c (ix2 p q)).trans (reshaped_apply _ p q)

/-- The same against the square matrix the reference multiplies by. -/
theorem blk1_apply (t : Fin cfg0.N) (p q : Fin 2048) :
    blk1 m c t (ix2 p q) = Cert.AttnRef.W0 (m ((c : Thread nD τ).loc main_arg1)) (ix2 p q) :=
  (blk1_apply_ix3 m c t p q).trans (Cert.AttnRef.W0_apply (m ((c : Thread nD τ).loc main_arg1)) p q).symm

/-- The key block at point `t`: rows `512 (t % 8) …` of the first argument. -/
theorem blk2_apply (t : Fin cfg0.N) (p : Fin 512) (q : Fin 2048) :
    blk2 m c t (ix2 p q)
      = m ((c : Thread nD τ).loc main_arg0)
          (ix2 (⟨512 * (t.val % 8) + p.val, by have := p.isLt; omega⟩ : Fin 4096) q) := by
  obtain ⟨-, -, -, -, e0, e1, -⟩ := idx_facts t
  show V m c main_arg0 (((cfg0.win 2).blk t).view.emb (ix2 p q)) = _
  refine (congrFun (V_main_arg0 m c) _).trans (congrArg (m ((c : Thread nD τ).loc main_arg0)) (funext fun a => Fin.ext ?_))
  match a with
  | ⟨0, _⟩ => show win0_2.index t (0 : Fin 2) * 512 + 1 * p.val = 512 * (t.val % 8) + p.val; omega
  | ⟨1, _⟩ => show win0_2.index t (1 : Fin 2) * 2048 + 1 * q.val = q.val; omega

/-- The bias block at every point is the third argument. -/
theorem blk3_eq (t : Fin cfg0.N) : blk3 m c t = m ((c : Thread nD τ).loc main_arg2) := by
  obtain ⟨-, -, -, -, -, -, e0⟩ := idx_facts t
  funext y
  obtain ⟨a, rfl⟩ : ∃ a : Fin 1, y = ix1 a := ⟨y 0, eq_ix1 y⟩
  show V m c main_arg2 (((cfg0.win 3).blk t).view.emb (ix1 a)) = _
  refine (congrFun (V_main_arg2 m c) _).trans (congrArg (m ((c : Thread nD τ).loc main_arg2)) (funext fun d => Fin.ext ?_))
  match d with
  | ⟨0, _⟩ => show win0_3.index t (0 : Fin 1) * 1 + 1 * a.val = a.val; omega

/-! ## The same in the block theorem's vocabulary -/

/-- The query block against `rowOf`: the row block of point `t` is `t / 8`. -/
theorem blk0_rowOf (t : Fin cfg0.N) (p : Fin 256) (q : Fin 2048) :
    blk0 m c t (ix2 p q)
      = m ((c : Thread nD τ).loc main_arg0) (ix2 (Cert.AttnBlock.rowOf ⟨t.val / 8, rows_lt t⟩ p) q) :=
  blk0_apply m c t p q

/-- The key block against `colOf`: the chunk of point `t` is `t % 8`. -/
theorem blk2_colOf (t : Fin cfg0.N) (p : Fin 512) (q : Fin 2048) :
    blk2 m c t (ix2 p q)
      = m ((c : Thread nD τ).loc main_arg0)
          (ix2 (Cert.AttnBlock.colOf (t.val % 8) (Nat.mod_lt _ (by norm_num)) p) q) :=
  blk2_apply m c t p q

end Cert.AttnArrays

end
-- ==== Proof.IdealBody.Result.lean ====
/-
  The kernel's result is the specification, at the extended reals.

  Within a row block `I` the projected rows are those of the block's first chunk at every point, and the bias block
  is the whole bias at every point. So the running maximum after chunk `j` is the fold of the chunk maxima
  `runMax … j`, the completed scores are `scoresFull`, and what the last chunk leaves is `outBlock` of the block's
  inputs: the 256 query rows of the block, the weight matrix, the eight chunks of 512 key rows, the bias. Read as
  functions of the argument arrays these are the rows `256 I + p` of the softmax specification `G`; so the result
  array is `G` of the arguments, and the run is re-posted there.
-/
import proofs.«161438_j65661460021977_2_alg».proof.Proof.IdealBody.Written
import proofs.«161438_j65661460021977_2_alg».proof.Proof.IdealBody.Frame
import proofs.«161438_j65661460021977_2_alg».proof.Proof.Math.Arrays
set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx

variable (m : (ℓ : Loc nD τ sig) → Buf (Elt Ideal) ℓ) (ρ : Dev nD → PrngReg)

/-- A point number inside the grid is its own point. -/
theorem pt_lt {n : ℕ} (h : n < 128) : (pt n : Fin cfg0.N).val = n := by
  unfold pt; rw [dif_pos (by rw [N_eq]; exact h)]

/-- Two indices with equal row numbers and the same column are equal. -/
theorem ix2_row_congr {n0 n1 : ℕ} {a a' : Fin n0} (h : a.val = a'.val) (q : Fin n1) : ix2 a q = ix2 a' q := by
  rw [Fin.ext h]

/-- The bias block is the same at every point. -/
theorem blk3_const (c : Dev nD) (t t' : Fin cfg0.N) : blk3 m c t = blk3 m c t' := by
  rw [Cert.AttnArrays.blk3_eq, Cert.AttnArrays.blk3_eq]

/-- Within row block `I` the first scratch holds the projection computed at the block's first chunk. -/
theorem projAt_block (c : Dev nD) (I : ℕ) (hI : I < 16) : ∀ j : ℕ, j < 8 →
    projAt m c (8 * I + j) = k0_pay1 (blk0 m c (pt (8 * I))) (blk1 m c (pt (8 * I)))
  | 0, _ => by
    have := projAt_first m c (pt (8 * I)) (by rw [pt_lt (by omega)]; omega)
    rw [pt_lt (by omega)] at this; exact this
  | j + 1, hj => by
    rw [projAt_rest m c (8 * I + (j + 1)) (by omega)]
    exact projAt_block c I hI j (by omega)

/-- The eight chunks of key rows of row block `I`. -/
def chunks (c : Dev nD) (I : ℕ) : ℕ → Vec Ideal S512x2048 .f32 := fun j => blk2 m c (pt (8 * I + j))

/-- The running maximum after chunk `j` of row block `I` is the fold of the chunk maxima up to `j`. -/
theorem maxAt_block (c : Dev nD) (I : ℕ) (hI : I < 16) : ∀ j : ℕ, j < 8 →
    maxAt m c (8 * I + j) = Block.runMax (F := Ideal) (k0_pay1 (blk0 m c (pt (8 * I))) (blk1 m c (pt (8 * I)))) (chunks m c I)
      (blk3 m c (pt (8 * I))) j
  | 0, _ => by
    have := maxAt_first m c (pt (8 * I)) (by rw [pt_lt (by omega)]; omega)
    rw [pt_lt (by omega)] at this
    show maxAt m c (8 * I) = _
    rw [this, show projAt m c (8 * I) = _ from projAt_block m c I hI 0 (by omega)]; rfl
  | j + 1, hj => by
    have := maxAt_rest m c (pt (8 * I + (j + 1))) (by rw [pt_lt (by omega)]; omega)
    rw [pt_lt (by omega)] at this
    rw [this, projAt_block m c I hI (j + 1) hj, blk3_const m c (pt (8 * I + (j + 1))) (pt (8 * I)),
      show 8 * I + (j + 1) - 1 = 8 * I + j from by omega, maxAt_block c I hI j (by omega)]
    rfl

/-- The completed scores of row block `I` are the block's `scoresFull`. -/
theorem fullScores_block (c : Dev nD) (I : ℕ) (hI : I < 16) :
    fullScores m c (pt (8 * I + 7)) = Block.scoresFull (F := Ideal) (k0_pay1 (blk0 m c (pt (8 * I))) (blk1 m c (pt (8 * I))))
      (chunks m c I) (blk3 m c (pt (8 * I))) := by
  funext y
  have hy1 : (y 1).val < 4096 := (y 1).isLt
  unfold fullScores Block.scoresFull scoresAt
  rw [pt_lt (show 8 * I + 7 < 128 by omega),
    show 8 * I + 7 - (8 * I + 7) % 8 + (y 1).val / 512 = 8 * I + (y 1).val / 512 from by omega,
    projAt_block m c I hI ((y 1).val / 512) (by omega), blk3_const m c (pt (8 * I + (y 1).val / 512)) (pt (8 * I))]
  rfl

/-- THE RESULT IS THE SPECIFICATION: the array the kernel's result ends as is the softmax specification of the three
    argument arrays. -/
theorem finalArr_eq_G (c : Dev nD) :
    finalArr m c = Cert.AttnSpec.G (m ((c : Thread nD τ).loc main_arg0)) (Cert.AttnRef.W0 (m ((c : Thread nD τ).loc main_arg1)))
      (m ((c : Thread nD τ).loc main_arg2)) := by
  funext i
  have hi0 : (i 0).val < 4096 := (i 0).isLt
  have hi1 : (i 1).val < 4096 := (i 1).isLt
  have hI : (i 0).val / 256 < 16 := by omega
  unfold finalArr
  rw [maxAt_block m c ((i 0).val / 256) hI 7 (by omega), fullScores_block m c ((i 0).val / 256) hI]
  have key := Cert.AttnBlock.outBlock_eq (m ((c : Thread nD τ).loc main_arg0)) (Cert.AttnRef.W0 (m ((c : Thread nD τ).loc main_arg1)))
    (m ((c : Thread nD τ).loc main_arg2)) ⟨(i 0).val / 256, hI⟩
    (blk0 m c (pt (8 * ((i 0).val / 256)))) (blk1 m c (pt (8 * ((i 0).val / 256)))) (chunks m c ((i 0).val / 256))
    (blk3 m c (pt (8 * ((i 0).val / 256))))
    (fun p q => (Cert.AttnArrays.blk0_apply m c _ p q).trans (congrArg _ (ix2_row_congr (by
      show 256 * ((pt (8 * ((i 0).val / 256)) : Fin cfg0.N).val / 8) + p.val = 256 * ((i 0).val / 256) + p.val
      rw [pt_lt (by omega)]; omega) q)))
    (fun p q => Cert.AttnArrays.blk1_apply m c _ p q)
    (fun j hj p q => (Cert.AttnArrays.blk2_apply m c _ p q).trans (congrArg _ (ix2_row_congr (by
      show 512 * ((pt (8 * ((i 0).val / 256) + j) : Fin cfg0.N).val % 8) + p.val = 512 * j + p.val
      rw [pt_lt (by omega)]; omega) q)))
    (Cert.AttnArrays.blk3_eq m c _)
    ⟨(i 0).val % 256, Nat.mod_lt _ (by omega)⟩ ⟨(i 1).val, hi1⟩
  refine (show _ = _ from key).trans ?_
  refine congrArg _ ?_
  funext a; apply Fin.ext
  match a with
  | ⟨0, _⟩ => show 256 * ((i 0).val / 256) + (i 0).val % 256 = (i 0).val; omega
  | ⟨1, _⟩ => rfl

/-- The kernel's run re-posted: the result array at the specification of the arguments, the arguments unchanged. -/
theorem run_G : θ_run defs (onTc (τ := τ) (main (F := Ideal))) ⟨m, fun _ => 0, ρ⟩ (fun r => ∀ c : Dev nD,
      r.2.mem ((c.tc : Thread nD τ).loc main_v3) = Cert.AttnSpec.G (m ((c.tc : Thread nD τ).loc main_arg0))
          (Cert.AttnRef.W0 (m ((c.tc : Thread nD τ).loc main_arg1))) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(final m c _ ((h c).1 4)).trans (finalArr_eq_G m c),
      (Eq.mp (congrFun ((rdat m c).ArrAt_in 2 rfl cfg0.N) _) ((h c).1 2)).trans ((A_eq m c 2).trans (V_main_arg0 m c)),
      ((h c).2 main_arg1 (Pipeline.mem_restRefs_of main_arg1 (by decide) (by decide))).trans (V_main_arg1 m c),
      (Eq.mp (congrFun ((rdat m c).ArrAt_in 3 rfl cfg0.N) _) ((h c).1 3)).trans ((A_eq m c 3).trans (V_main_arg2 m c))⟩)
    (run_main m ρ)

end Cert.KernelIdeal.Body

end
-- ==== Proof.Math.RefRun.lean ====
/-
  The reference program's run, read against the specification.

  Every execution of the reference terminates with its result array holding the row softmax `G` of its three
  argument arrays (the second one with its unit axis dropped) and with the arguments unchanged: the program's run
  states the result as the composed term of its operations, that term is the last stage read entry by entry, and
  the last stage is `G`. Dropping the result leaves the statement that the arguments are unchanged.
-/
import proofs.«161438_j65661460021977_2_alg».proof.Proof.Gen.ReferenceIdeal.Run
import proofs.«161438_j65661460021977_2_alg».proof.Proof.Gen.ReferenceIdeal.Read
import proofs.«161438_j65661460021977_2_alg».proof.Proof.Math.RefSpec

noncomputable section

namespace Cert.AttnRef

open Idealize.ShloMosaic Idealize.ShloMosaic.TcCoe Idealize.SL.Sem

/-- The reference's run: the result is `G` of the arguments, and the arguments are unchanged. -/
theorem ref_run_G (m' : (ℓ : Loc Cert.ReferenceIdeal.nD Cert.ReferenceIdeal.τ Cert.ReferenceIdeal.sig) → Buf (Elt Ideal) ℓ)
    (ρ' : Dev Cert.ReferenceIdeal.nD → PrngReg) :
    θ_run (Cert.ReferenceIdeal.defs (F := Ideal)) (onTc (τ := Cert.ReferenceIdeal.τ) (Cert.ReferenceIdeal.main (F := Ideal)))
      ⟨m', fun _ => 0, ρ'⟩ (fun r => ∀ c : Dev Cert.ReferenceIdeal.nD,
        r.2.mem ((c.tc : Thread Cert.ReferenceIdeal.nD Cert.ReferenceIdeal.τ).loc Cert.ReferenceIdeal.main_v17)
          = Cert.AttnSpec.G (m' ((c.tc : Thread Cert.ReferenceIdeal.nD Cert.ReferenceIdeal.τ).loc Cert.ReferenceIdeal.main_arg0))
              (Cert.AttnRef.W0 (m' ((c.tc : Thread Cert.ReferenceIdeal.nD Cert.ReferenceIdeal.τ).loc Cert.ReferenceIdeal.main_arg1)))
              (m' ((c.tc : Thread Cert.ReferenceIdeal.nD Cert.ReferenceIdeal.τ).loc Cert.ReferenceIdeal.main_arg2))
        ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)) :=
  (θ_run Cert.ReferenceIdeal.defs _ _).mono
    (fun _ h c => ⟨by rw [(h c).1, Cert.ReferenceIdeal.Read.val_main_v17_eq, reference_eq_G], (h c).2⟩)
    (Cert.ReferenceIdeal.Value.run (F := Ideal) m' ρ')

/-- The reference runs and leaves its three arguments unchanged. -/
theorem ref_frame (m' : (ℓ : Loc Cert.ReferenceIdeal.nD Cert.ReferenceIdeal.τ Cert.ReferenceIdeal.sig) → Buf (Elt Ideal) ℓ)
    (ρ' : Dev Cert.ReferenceIdeal.nD → PrngReg) :
    θ_run (Cert.ReferenceIdeal.defs (F := Ideal)) (onTc (τ := Cert.ReferenceIdeal.τ) (Cert.ReferenceIdeal.main (F := Ideal)))
      ⟨m', fun _ => 0, ρ'⟩ (fun r => ∀ c : Dev Cert.ReferenceIdeal.nD,
        r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)) :=
  (θ_run Cert.ReferenceIdeal.defs _ _).mono (fun _ h c => (h c).2) (Cert.ReferenceIdeal.Value.run (F := Ideal) m' ρ')

end Cert.AttnRef

end
-- ==== Proof.lean ====
/-
  Bilinear attention scores with a row softmax: the kernel and its reference agree over the extended reals.

  The kernel computes, for query rows `r` and key rows `c` of one 4096 × 2048 array `Ws`, the scores
  `A r c = ((Ws · W₀) r) · (Ws c) + b` and returns `exp (A r c − max_c A r c) / Σ_c exp (A r c − max_c A r c)`. It works on a
  grid of 16 bands of 256 query rows by 8 chunks of 512 key rows: the first chunk of a band projects the band's rows
  (`Ws · W₀`) into a scratch buffer and resets a running row maximum to −∞; every chunk writes its 256 × 512 scores
  into its columns of the band's 256 × 4096 output block and folds its row maxima into the running maximum; the
  last chunk normalises the completed block, which is then written back.

  * The two kernel programs' frames: the body is run symbolically in its three cases (first, middle, last chunk);
    the output block is followed RELATIONALLY (what a chunk leaves is what it was handed with its columns replaced),
    the two scratch buffers by an invariant over the points.
  * The value: by induction on the point, what a chunk is handed already holds the earlier chunks' scores, so what
    the last chunk leaves is a function of the band's inputs alone; the sixteen bands make up the result array. At
    the extended reals that function is the specification `G` of the three arguments: eight chunk maxima folded
    from −∞ are one maximum over the 4096 columns, and the two matrix products are the same sums.
  * The reference's run, read one operation at a time, is `G` of the same arguments.
  No finiteness of the inputs is used.
-/
import proofs.«161438_j65661460021977_2_alg».proof.Defs
import proofs.«161438_j65661460021977_2_alg».proof.Proof.Gen.Kernel
import proofs.«161438_j65661460021977_2_alg».proof.Proof.Gen.KernelIdeal
import proofs.«161438_j65661460021977_2_alg».proof.Proof.Gen.ReferenceIdeal
import proofs.«161438_j65661460021977_2_alg».proof.Proof.Gen.Pre_finite_inputs
import proofs.«161438_j65661460021977_2_alg».proof.Proof.KernelBody.Frame
import proofs.«161438_j65661460021977_2_alg».proof.Proof.IdealBody.Result
import proofs.«161438_j65661460021977_2_alg».proof.Proof.Math.RefRun
import Idealize.ShloMosaic.Adequacy
import Idealize.ShloMosaic.Init

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_finite_inputs.Gen.facts,
  fun m ρ _ => Cert.Kernel.Body.frame m ρ,
  fun m ρ _ => Cert.KernelIdeal.Body.frame m ρ,
  fun m ρ _ => Cert.AttnRef.ref_frame m ρ,
  trivial,
  fun m ρ m' ρ' _ hagree =>
    ⟨fun c => Cert.AttnSpec.G (m ((c.tc : Thread Cert.KernelIdeal.nD Cert.KernelIdeal.τ).loc Cert.KernelIdeal.main_arg0))
        (Cert.AttnRef.W0 (m ((c.tc : Thread Cert.KernelIdeal.nD Cert.KernelIdeal.τ).loc Cert.KernelIdeal.main_arg1)))
        (m ((c.tc : Thread Cert.KernelIdeal.nD Cert.KernelIdeal.τ).loc Cert.KernelIdeal.main_arg2)),
      Cert.KernelIdeal.Body.run_G m ρ,
      (θ_run Cert.ReferenceIdeal.defs _ _).mono (fun _ h c =>
          ⟨(h c).1.trans (by rw [(hagree c).1, (hagree c).2.1, (hagree c).2.2]), (h c).2⟩)
        (Cert.AttnRef.ref_run_G m' ρ')⟩⟩

end Cert.Proof

end
